-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x196x512 : Shape := ⟨3, ![256, 196, 512]⟩
abbrev S256x77x512 : Shape := ⟨3, ![256, 77, 512]⟩
abbrev S1 : Shape := ⟨1, ![1]⟩
abbrev S_ : Shape := ⟨0, ![]⟩

class Facts : Prop where
  bcast_S_S256x196x512 : S_.BroadcastsInDim S256x196x512 (![] : Fin 0 → Fin S256x196x512.rank)
  reducesTo_S256x196x512_S_d0_1_2 : S256x196x512.ReducesTo [0, 1, 2] S_
  h_S_ : 0 < S_.numel
  bcast_S_S256x77x512 : S_.BroadcastsInDim S256x77x512 (![] : Fin 0 → Fin S256x77x512.rank)
  reducesTo_S256x77x512_S_d0_1_2 : S256x77x512.ReducesTo [0, 1, 2] S_
  bcast_S_S1 : S_.BroadcastsInDim S1 (![] : Fin 0 → Fin S1.rank)
  reducesTo_S1_S_d0 : S1.ReducesTo [0] S_

variable [Facts]

def fn {F : FTy → Type} [FloatOps F] (main_arg0 : FVec F S256x196x512 .f32) (main_arg1 : FVec F S256x77x512 .f32) (main_arg2 : FVec F S1 .f32) : IVec S_ 1 :=
  let main_v0 : FVec F S256x196x512 .f32 := Host.absf main_arg0
  let main_cst : FVec F S_ .f32 := constant S_ .f32 0x7F800000#32
  let main_v1 : FVec F S256x196x512 .f32 := broadcastInDim S256x196x512 ![] bcast_S_S256x196x512 main_cst
  let main_v2 : IVec S256x196x512 1 := cmpf .olt main_v0 main_v1
  let main_c : IVec S_ 1 := constantI S_ 1 1#1
  let main_v3 : IVec S_ 1 := (fun x v => Host.reduce IntOp.andi x v reducesTo_S256x196x512_S_d0_1_2 h_S_) main_v2 main_c
  let main_v4 : FVec F S256x77x512 .f32 := Host.absf main_arg1
  let main_cst_0 : FVec F S_ .f32 := constant S_ .f32 0x7F800000#32
  let main_v5 : FVec F S256x77x512 .f32 := broadcastInDim S256x77x512 ![] bcast_S_S256x77x512 main_cst_0
  let main_v6 : IVec S256x77x512 1 := cmpf .olt main_v4 main_v5
  let main_c_1 : IVec S_ 1 := constantI S_ 1 1#1
  let main_v7 : IVec S_ 1 := (fun x v => Host.reduce IntOp.andi x v reducesTo_S256x77x512_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S256x196x512 : Shape := ⟨3, ![256, 196, 512]⟩
abbrev S256x77x512 : Shape := ⟨3, ![256, 77, 512]⟩
abbrev S1 : Shape := ⟨1, ![1]⟩
abbrev S_ : Shape := ⟨0, ![]⟩
abbrev S256x100352 : Shape := ⟨2, ![256, 100352]⟩
abbrev S256x39424 : Shape := ⟨2, ![256, 39424]⟩
abbrev S2x256x256 : Shape := ⟨3, ![2, 256, 256]⟩
abbrev S2x256x1 : Shape := ⟨3, ![2, 256, 1]⟩
abbrev S256x6272 : Shape := ⟨2, ![256, 6272]⟩
abbrev S1x256x256 : Shape := ⟨3, ![1, 256, 256]⟩
abbrev S1x256x1 : Shape := ⟨3, ![1, 256, 1]⟩
abbrev S256x256 : Shape := ⟨2, ![256, 256]⟩
abbrev S256x1 : Shape := ⟨2, ![256, 1]⟩
abbrev S256 : Shape := ⟨1, ![256]⟩
abbrev S256x2816 : Shape := ⟨2, ![256, 2816]⟩
abbrev S1x256 : Shape := ⟨2, ![1, 256]⟩

abbrev nBuf : Space → Nat
  | .hbm => 88
  | .vmem => 16
  | .smem => 0
  | _ => 0

abbrev bufTy : (tb : Table) → Fin (tcTables nBuf tb) → BufTy
  | .hbm, ⟨0, _⟩ => ⟨S256x196x512, .f32⟩
  | .hbm, ⟨1, _⟩ => ⟨S256x77x512, .f32⟩
  | .hbm, ⟨2, _⟩ => ⟨S1, .f32⟩
  | .hbm, ⟨3, _⟩ => ⟨S_, .f32⟩
  | .hbm, ⟨4, _⟩ => ⟨S256x100352, .f32⟩
  | .hbm, ⟨5, _⟩ => ⟨S256x39424, .f32⟩
  | .hbm, ⟨6, _⟩ => ⟨S2x256x256, .f32⟩
  | .hbm, ⟨7, _⟩ => ⟨S2x256x1, .f32⟩
  | .hbm, ⟨8, _⟩ => ⟨S_, .f32⟩
  | .hbm, ⟨9, _⟩ => ⟨S256x256, .f32⟩
  | .hbm, ⟨10, _⟩ => ⟨S_, .f32⟩
  | .hbm, ⟨11, _⟩ => ⟨S256x1, .f32⟩
  | .hbm, ⟨12, _⟩ => ⟨S256, .f32⟩
  | .hbm, ⟨13, _⟩ => ⟨S2x256x256, .f32⟩
  | .hbm, ⟨14, _⟩ => ⟨S2x256x1, .f32⟩
  | .hbm, ⟨15, _⟩ => ⟨S_, .f32⟩
  | .hbm, ⟨16, _⟩ => ⟨S256x256, .f32⟩
  | .hbm, ⟨17, _⟩ => ⟨S_, .f32⟩
  | .hbm, ⟨18, _⟩ => ⟨S256x1, .f32⟩
  | .hbm, ⟨19, _⟩ => ⟨S256, .f32⟩
  | .hbm, ⟨20, _⟩ => ⟨S256x1, .f32⟩
  | .hbm, ⟨21, _⟩ => ⟨S1x256, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S256x1, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S_, .f32⟩
  | .hbm, ⟨46, _⟩ => ⟨S256, .f32⟩
  | .hbm, ⟨47, _⟩ => ⟨S256x1, .f32⟩
  | .hbm, ⟨48, _⟩ => ⟨S256x256, .f32⟩
  | .hbm, ⟨49, _⟩ => ⟨S256x256, .f32⟩
  | .hbm, ⟨50, _⟩ => ⟨S256x1, .f32⟩
  | .hbm, ⟨51, _⟩ => ⟨S1x256, .f32⟩
  | .hbm, ⟨52, _⟩ => ⟨S256x256, .f32⟩
  | .hbm, ⟨53, _⟩ => ⟨S256x256, .f32⟩
  | .hbm, ⟨54, _⟩ => ⟨S256x256, .f32⟩
  | .hbm, ⟨55, _⟩ => ⟨S_, .f32⟩
  | .hbm, ⟨56, _⟩ => ⟨S256x256, .f32⟩
  | .hbm, ⟨57, _⟩ => ⟨S256x256, .f32⟩
  | .hbm, ⟨58, _⟩ => ⟨S256x256, .f32⟩
  | .hbm, ⟨59, _⟩ => ⟨S_, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S256x256, .f32⟩
  | .hbm, ⟨64, _⟩ => ⟨S256x256, .f32⟩
  | .hbm, ⟨65, _⟩ => ⟨S256x256, .f32⟩
  | .hbm, ⟨66, _⟩ => ⟨S_, .f32⟩
  | .hbm, ⟨67, _⟩ => ⟨S256, .f32⟩
  | .hbm, ⟨68, _⟩ => ⟨S_, .f32⟩
  | .hbm, ⟨69, _⟩ => ⟨S256, .f32⟩
  | .hbm, ⟨70, _⟩ => ⟨S256, .f32⟩
  | .hbm, ⟨71, _⟩ => ⟨S256x1, .f32⟩
  | .hbm, ⟨72, _⟩ => ⟨S256x256, .f32⟩
  | .hbm, ⟨73, _⟩ => ⟨S256x256, .f32⟩
  | .hbm, ⟨74, _⟩ => ⟨S256x256, .f32⟩
  | .hbm, ⟨75, _⟩ => ⟨S_, .f32⟩
  | .hbm, ⟨76, _⟩ => ⟨S256, .f32⟩
  | .hbm, ⟨77, _⟩ => ⟨S256x1, .f32⟩
  | .hbm, ⟨78, _⟩ => ⟨S256x256, .f32⟩
  | .hbm, ⟨79, _⟩ => ⟨S256x256, .f32⟩
  | .hbm, ⟨80, _⟩ => ⟨S256x256, .f32⟩
  | .hbm, ⟨81, _⟩ => ⟨S256x256, .f32⟩
  | .hbm, ⟨82, _⟩ => ⟨S256x256, .f32⟩
  | .hbm, ⟨83, _⟩ => ⟨S256x256, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .local _ .vmem, ⟨0, _⟩ => ⟨S256x6272, .f32⟩
  | .local _ .vmem, ⟨1, _⟩ => ⟨S256x6272, .f32⟩
  | .local _ .vmem, ⟨2, _⟩ => ⟨S1x256x256, .f32⟩
  | .local _ .vmem, ⟨3, _⟩ => ⟨S1x256x256, .f32⟩
  | .local _ .vmem, ⟨4, _⟩ => ⟨S1x256x1, .f32⟩
  | .local _ .vmem, ⟨5, _⟩ => ⟨S1x256x1, .f32⟩
  | .local _ .vmem, ⟨6, _⟩ => ⟨S256x256, .f32⟩
  | .local _ .vmem, ⟨7, _⟩ => ⟨S256x1, .f32⟩
  | .local _ .vmem, ⟨8, _⟩ => ⟨S256x2816, .f32⟩
  | .local _ .vmem, ⟨9, _⟩ => ⟨S256x2816, .f32⟩
  | .local _ .vmem, ⟨10, _⟩ => ⟨S1x256x256, .f32⟩
  | .local _ .vmem, ⟨11, _⟩ => ⟨S1x256x256, .f32⟩
  | .local _ .vmem, ⟨12, _⟩ => ⟨S1x256x1, .f32⟩
  | .local _ .vmem, ⟨13, _⟩ => ⟨S1x256x1, .f32⟩
  | .local _ .vmem, ⟨14, _⟩ => ⟨S256x256, .f32⟩
  | .local _ .vmem, ⟨15, _⟩ => ⟨S256x1, .f32⟩
  | _, _ => ⟨S256x196x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_13 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x6272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 7], ![false, false]⟩

def k1_cond2 (i : grid1.Coords) : BitVec 1 :=
  let arg1 : BitVec 32 := BitVec.ofNat 32 (i 1).val
  let c6_i32 : BitVec 32 := 6#32
  let v20 : BitVec 1 := Scalar.cmpi .eq arg1 c6_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x2816 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S1_S_ : S1.ShapeCasts S_
  shapeCasts_S256x196x512_S256x100352 : S256x196x512.ShapeCasts S256x100352
  shapeCasts_S256x77x512_S256x39424 : S256x77x512.ShapeCasts S256x39424
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x6272_S256x6272_0_0 : ∀ a, (![0, 0] : Fin 2 → Nat) a + S256x6272.size a ≤ S256x6272.size a
  h_S256x6272 : 0 < S256x6272.numel
  shapeCasts_S256x6272_S256x6272 : S256x6272.ShapeCasts S256x6272
  bitsLt_bf16_f32 : FTy.bits .bf16 < FTy.bits .f32
  reduces_S256x6272_S256 : S256x6272.Reduces [1] S256
  shapeCasts_S256_S256x1 : S256.ShapeCasts S256x1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  reducesTo_S2x256x256_S256x256_d0 : S2x256x256.ReducesTo [0] S256x256
  h_S_ : 0 < S_.numel
  reducesTo_S2x256x1_S256x1_d0 : S2x256x1.ReducesTo [0] S256x1
  shapeCasts_S256x1_S256 : S256x1.ShapeCasts S256
  inb_S256x2816_S256x2816_0_0 : ∀ a, (![0, 0] : Fin 2 → Nat) a + S256x2816.size a ≤ S256x2816.size a
  h_S256x2816 : 0 < S256x2816.numel
  shapeCasts_S256x2816_S256x2816 : S256x2816.ShapeCasts S256x2816
  reduces_S256x2816_S256 : S256x2816.Reduces [1] S256
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  reducesTo_S256x256_S256_d1 : S256x256.ReducesTo [1] S256
  bcast_S_S256 : S_.BroadcastsInDim S256 (![] : Fin 0 → Fin S256.rank)
  reducesTo_S256x256_S_d0_1 : S256x256.ReducesTo [0, 1] S_
  dot_S256x6272_S256x6272_S256x256_1_1_0_0_n_n_wf : DotDims.WF S256x6272 S256x6272 S256x256 [1] [1] [0] [0] [] []
  dot_S256x2816_S256x2816_S256x256_1_1_0_0_n_n_wf : DotDims.WF S256x2816 S256x2816 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6272.size a ≤ S256x100352.size a
  hwx0_0 : ∀ i : grid0.Coords, EltTy.bits .f32 = 32 ∨ (Rect.block (s := S256x100352) S256x6272.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S2x256x256.size a
  hwx0_1 : ∀ i : grid0.Coords, EltTy.bits .f32 = 32 ∨ (Rect.block (s := S2x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S2x256x1.size a
  hwx0_2 : ∀ i : grid0.Coords, EltTy.bits .f32 = 32 ∨ (Rect.block (s := S2x256x1) S1x256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2816.size a ≤ S256x39424.size a
  hwx1_0 : ∀ i : grid1.Coords, EltTy.bits .f32 = 32 ∨ (Rect.block (s := S256x39424) S256x2816.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S2x256x256.size a
  hwx1_1 : ∀ i : grid1.Coords, EltTy.bits .f32 = 32 ∨ (Rect.block (s := S2x256x256) S1x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1.size a ≤ S2x256x1.size a
  hwx1_2 : ∀ i : grid1.Coords, EltTy.bits .f32 = 32 ∨ (Rect.block (s := S2x256x1) S1x256x1.size (cc1_transform_2 i) (hinb1_2 i)).WholeWords (EltTy.packing .f32)

variable [Facts₀]

def dot_S256x6272_S256x6272_S256x256_1_1_0_0_n_n : DotDims S256x6272 S256x6272 S256x256 where
  lhsContracting := [1]
  rhsContracting := [1]
  lhsNonContracting := [0]
  rhsNonContracting := [0]
  lhsBatch := []
  rhsBatch := []
  wf := dot_S256x6272_S256x6272_S256x256_1_1_0_0_n_n_wf
def dot_S256x2816_S256x2816_S256x256_1_1_0_0_n_n : DotDims S256x2816 S256x2816 S256x256 where
  lhsContracting := [1]
  rhsContracting := [1]
  lhsNonContracting := [0]
  rhsNonContracting := [0]
  lhsBatch := []
  rhsBatch := []
  wf := dot_S256x2816_S256x2816_S256x256_1_1_0_0_n_n_wf

abbrev win0_0 : Pipeline.Window sig grid0 :=
  Pipeline.Window.ofSpec (Memref.whole main_v1) S256x6272.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S1x256x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S1x256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S256x2816.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_0) S1x256x256.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_1) S1x256x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

class Facts : Prop extends Facts₀ where

variable [Facts]
-- ==== ReferenceIdeal.lean ====
abbrev S256x196x512 : Shape := ⟨3, ![256, 196, 512]⟩
abbrev S256x77x512 : Shape := ⟨3, ![256, 77, 512]⟩
abbrev S1 : Shape := ⟨1, ![1]⟩
abbrev S_ : Shape := ⟨0, ![]⟩
abbrev S256x100352 : Shape := ⟨2, ![256, 100352]⟩
abbrev S256 : Shape := ⟨1, ![256]⟩
abbrev S100352x256 : Shape := ⟨2, ![100352, 256]⟩
abbrev S256x256 : Shape := ⟨2, ![256, 256]⟩
abbrev S256x1 : Shape := ⟨2, ![256, 1]⟩
abbrev S1x256 : Shape := ⟨2, ![1, 256]⟩
abbrev S256x39424 : Shape := ⟨2, ![256, 39424]⟩
abbrev S39424x256 : Shape := ⟨2, ![39424, 256]⟩

abbrev nBuf : Space → Nat
  | .hbm => 84
  | .vmem => 0
  | .smem => 0
  | _ => 0

abbrev bufTy : (tb : Table) → Fin (tcTables nBuf tb) → BufTy
  | .hbm, ⟨0, _⟩ => ⟨S256x196x512, .f32⟩
  | .hbm, ⟨1, _⟩ => ⟨S256x77x512, .f32⟩
  | .hbm, ⟨2, _⟩ => ⟨S1, .f32⟩
  | .hbm, ⟨3, _⟩ => ⟨S_, .f32⟩
  | .hbm, ⟨4, _⟩ => ⟨S256x100352, .f32⟩
  | .hbm, ⟨5, _⟩ => ⟨S256x100352, .f32⟩
  | .hbm, ⟨6, _⟩ => ⟨S_, .f32⟩
  | .hbm, ⟨7, _⟩ => ⟨S256, .f32⟩
  | .hbm, ⟨8, _⟩ => ⟨S100352x256, .f32⟩
  | .hbm, ⟨9, _⟩ => ⟨S256x256, .f32⟩
  | .hbm, ⟨10, _⟩ => ⟨S256x1, .f32⟩
  | .hbm, ⟨11, _⟩ => ⟨S1x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S256x1, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S256x256, .f32⟩
  | .hbm, ⟨39, _⟩ => ⟨S256x256, .f32⟩
  | .hbm, ⟨40, _⟩ => ⟨S256x39424, .f32⟩
  | .hbm, ⟨41, _⟩ => ⟨S256x39424, .f32⟩
  | .hbm, ⟨42, _⟩ => ⟨S_, .f32⟩
  | .hbm, ⟨43, _⟩ => ⟨S256, .f32⟩
  | .hbm, ⟨44, _⟩ => ⟨S39424x256, .f32⟩
  | .hbm, ⟨45, _⟩ => ⟨S256x256, .f32⟩
  | .hbm, ⟨46, _⟩ => ⟨S256x1, .f32⟩
  | .hbm, ⟨47, _⟩ => ⟨S1x256, .f32⟩
  | .hbm, ⟨48, _⟩ => ⟨S256x256, .f32⟩
  | .hbm, ⟨49, _⟩ => ⟨S256x256, .f32⟩
  | .hbm, ⟨50, _⟩ => ⟨S256x256, .f32⟩
  | .hbm, ⟨51, _⟩ => ⟨S_, .f32⟩
  | .hbm, ⟨52, _⟩ => ⟨S256x256, .f32⟩
  | .hbm, ⟨53, _⟩ => ⟨S256x256, .f32⟩
  | .hbm, ⟨54, _⟩ => ⟨S256x256, .f32⟩
  | .hbm, ⟨55, _⟩ => ⟨S_, .f32⟩
  | .hbm, ⟨56, _⟩ => ⟨S256x256, .f32⟩
  | .hbm, ⟨57, _⟩ => ⟨S256x256, .f32⟩
  | .hbm, ⟨58, _⟩ => ⟨S256x256, .f32⟩
  | .hbm, ⟨59, _⟩ => ⟨S256x256, .f32⟩
  | .hbm, ⟨60, _⟩ => ⟨S256x256, .f32⟩
  | .hbm, ⟨61, _⟩ => ⟨S256x256, .f32⟩
  | .hbm, ⟨62, _⟩ => ⟨S_, .f32⟩
  | .hbm, ⟨63, _⟩ => ⟨S256, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S256x1, .f32⟩
  | .hbm, ⟨68, _⟩ => ⟨S256x256, .f32⟩
  | .hbm, ⟨69, _⟩ => ⟨S256x256, .f32⟩
  | .hbm, ⟨70, _⟩ => ⟨S256x256, .f32⟩
  | .hbm, ⟨71, _⟩ => ⟨S_, .f32⟩
  | .hbm, ⟨72, _⟩ => ⟨S256, .f32⟩
  | .hbm, ⟨73, _⟩ => ⟨S256x1, .f32⟩
  | .hbm, ⟨74, _⟩ => ⟨S256x256, .f32⟩
  | .hbm, ⟨75, _⟩ => ⟨S256x256, .f32⟩
  | .hbm, ⟨76, _⟩ => ⟨S256x256, .f32⟩
  | .hbm, ⟨77, _⟩ => ⟨S256x256, .f32⟩
  | .hbm, ⟨78, _⟩ => ⟨S256x256, .f32⟩
  | .hbm, ⟨79, _⟩ => ⟨S256x256, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S256x196x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_11 : Ref sig .tc := ⟨.hbm, 80, rfl⟩
abbrev main_v65 : Ref sig .tc := ⟨.hbm, 81, rfl⟩
abbrev main_cst_12 : Ref sig .tc := ⟨.hbm, 82, rfl⟩
abbrev main_v66 : Ref sig .tc := ⟨.hbm, 83, rfl⟩

abbrev nD : Nat := 1
abbrev τ : Topo := Topo.v7x

variable {F : FTy → Type} [FloatOps F]

class Facts₀ : Prop where
  shapeCasts_S1_S_ : S1.ShapeCasts S_
  shapeCasts_S256x196x512_S256x100352 : S256x196x512.ShapeCasts S256x100352
  reducesTo_S256x100352_S256_d1 : S256x100352.ReducesTo [1] S256
  h_S_ : 0 < S_.numel
  transposes_S256x100352_S100352x256_1_0 : S256x100352.Transposes [1, 0] S100352x256
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  reducesTo_S256x256_S256_d1 : S256x256.ReducesTo [1] S256
  bcast_S_S256 : S_.BroadcastsInDim S256 (![] : Fin 0 → Fin S256.rank)
  shapeCasts_S256x77x512_S256x39424 : S256x77x512.ShapeCasts S256x39424
  reducesTo_S256x39424_S256_d1 : S256x39424.ReducesTo [1] S256
  transposes_S256x39424_S39424x256_1_0 : S256x39424.Transposes [1, 0] S39424x256
  reducesTo_S256x256_S_d0_1 : S256x256.ReducesTo [0, 1] S_
  dot_S256x100352_S100352x256_S256x256_1_0_0_1_n_n_wf : DotDims.WF S256x100352 S100352x256 S256x256 [1] [0] [0] [1] [] []
  dot_S256x39424_S39424x256_S256x256_1_0_0_1_n_n_wf : DotDims.WF S256x39424 S39424x256 S256x256 [1] [0] [0] [1] [] []

variable [Facts₀]

def dot_S256x100352_S100352x256_S256x256_1_0_0_1_n_n : DotDims S256x100352 S100352x256 S256x256 where
  lhsContracting := [1]
  rhsContracting := [0]
  lhsNonContracting := [0]
  rhsNonContracting := [1]
  lhsBatch := []
  rhsBatch := []
  wf := dot_S256x100352_S100352x256_S256x256_1_0_0_1_n_n_wf
def dot_S256x39424_S39424x256_S256x256_1_0_0_1_n_n : DotDims S256x39424 S39424x256 S256x256 where
  lhsContracting := [1]
  rhsContracting := [0]
  lhsNonContracting := [0]
  rhsNonContracting := [1]
  lhsBatch := []
  rhsBatch := []
  wf := dot_S256x39424_S39424x256_S256x256_1_0_0_1_n_n_wf

class Facts : Prop extends Facts₀ where

variable [Facts]
-- ==== Proof.BitsFrame.Base0.lean ====
/-
  One of the two Gram-matrix launches, seen from a single grid point: the grid is two halves of the contraction
  axis (the parallel axis) by 8 column blocks each. The body zeroes its two accumulators at the first block of a
  half, adds the block's contribution at every block, and copies the accumulators into the two output windows at
  the last block of the half. This module fixes the vocabulary: a window's block of the array as the launch
  finds it, the two branch conditions in closed form over the grid, where the output windows are idle, and the
  launch's invariant split into the two accumulators and everything else the core holds scoped.
-/
import proofs.«100626_j61667140436172_2_alg».proof.Proof.Gen.Kernel.Launch
import proofs.«100626_j61667140436172_2_alg».proof.Proof.Gen.Kernel.Skeleton
import proofs.«100626_j61667140436172_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- "This is the first column block of its half": the body's first branch condition. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block of its half": the body's second branch condition. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The input window is never idle. -/
theorem liveAt0_0 : ∀ t : Fin cfg0.N, cfg0.idle 0 (grid0.coords t) = false := by decide +kernel
/-- Away from the last block of a half both output windows are idle and not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last block of a half both are live. -/
theorem liveAt0_1 : ∀ t : Fin cfg0.N, cond0_1 (grid0.coords t) → cfg0.idle 1 (grid0.coords t) = false := by decide +kernel
theorem liveAt0_2 : ∀ t : Fin cfg0.N, cond0_1 (grid0.coords t) → cfg0.idle 2 (grid0.coords t) = false := by decide +kernel

/-- One staging buffer of each output window, through which its contents are stated. -/
abbrev VO0_1 : View sig .tc .vmem S1x256x256 .f32 := (Memref.whole cc0_stg1_0 : Memref sig .tc .vmem S1x256x256 .f32).view
abbrev VO0_2 : View sig .tc .vmem S1x256x1 .f32 := (Memref.whole cc0_stg2_0 : Memref sig .tc .vmem S1x256x1 .f32).view
/-- Each window's current staging memref at point `t`, and its wholeness. -/
abbrev ms0_0 (t : Fin cfg0.N) : Memref sig .tc .vmem S256x6272 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1 .f32 := win0_2.stage (cfg0.slots t 2)
abbrev hs0_2 (t : Fin cfg0.N) : (ms0_2 t).IsWhole := hstage0_2 ((cfg0.slots t 2).cast nbuf0_2)
/-- The two accumulators: whole scoped buffers of the kernel's own. -/
abbrev scM0_0 : Memref sig .tc .vmem S256x256 .f32 := Memref.whole cc0_scratch0
abbrev scM0_1 : Memref sig .tc .vmem S256x1 .f32 := Memref.whole cc0_scratch1
abbrev VS0_0 : View sig .tc .vmem S256x256 .f32 := scM0_0.view
abbrev VS0_1 : View sig .tc .vmem S256x1 .f32 := scM0_1.view

/-- Everything the core holds scoped that is neither a staging buffer of this launch nor one of its two accumulators. -/
abbrev others0 (c : Dev nD) : sProp 𝕄 :=
  Pipeline.scopedRestBut (Ix := Unit) (Name := ℕ) (U := UR sig nD τ) (Lvl := ℕ) (Val := Elt F) spec0 c [cc0_scratch0, cc0_scratch1]

/-- The launch's invariant: the two accumulators at some contents, the other scoped buffers, the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ others0 (F := F) c) ∗ (∃ r, prngReg c r)) := by
  unfold Pipeline.ΦA
  rw [Pipeline.scopedRest_split_of_list spec0 c [cc0_scratch0, cc0_scratch1] (by decide) (by decide)]
  simp only [scM0_0, scM0_1, owns_whole]; try rfl

end Cert.Kernel.Fr

end
-- ==== Proof.BitsFrame.RunA0.lean ====
/-
  The body at the FIRST column block of a half: both accumulators are overwritten with zeros and then with
  zero plus this block's contribution; the output windows are not touched. What the two accumulators end with
  is found by running the body symbolically.
-/
import proofs.«100626_j61667140436172_2_alg».proof.Proof.BitsFrame.Base0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulators at the first block of a half (last store first),
    with the proof that the body runs from the input window at its block, the output windows at anything they hold
    (handed back untouched) and the accumulators at anything, to those pieces written. -/
noncomputable def kernelRun0_A (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond0_0 i) (hc1 : ¬cond0_1 i)
    (x0 : Vec F S256x6272 .f32) :
    Σ' (LS0 : List (View.Piece (Elt F) S256x256 .f32)), { LS1 : List (View.Piece (Elt F) S256x1 .f32) //
      ∀ (xi1 : Vec F S1x256x256 .f32) (xi2 : Vec F S1x256x1 .f32) (E : Set ℕ) (K : PUnit → sProp 𝕄),
        iprop(owns (c : Thread nD τ) arg2 fullShare x0 ∗ owns (c : Thread nD τ) arg3 fullShare xi1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__gram_kernel i arg2 harg2 arg3 harg3 arg4 harg4 arg5 harg5 arg6 harg6) K } := by
  refine ⟨?_, ?_, fun xi1 xi2 E K => ?run⟩
  case run =>
    simp only [cc0__gram_kernel_eq_skeleton]; unfold cc0__gram_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Fr

end
-- ==== Proof.BitsFrame.RunB0.lean ====
/-
  The body at a MIDDLE column block of a half: each accumulator is overwritten with what it held plus this
  block's contribution; the output windows are not touched.
-/
import proofs.«100626_j61667140436172_2_alg».proof.Proof.BitsFrame.RunA0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulators at a middle block, with the proof that the body
    runs from the input window at its block, the output windows at what they hold (handed back untouched) and the
    accumulators at what the block before left, to those pieces written. -/
noncomputable def kernelRun0_B (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : ¬cond0_1 i)
    (x0 : Vec F S256x6272 .f32) (xs0 : Vec F S256x256 .f32) (xs1 : Vec F S256x1 .f32) :
    Σ' (LS0 : List (View.Piece (Elt F) S256x256 .f32)), { LS1 : List (View.Piece (Elt F) S256x1 .f32) //
      ∀ (xi1 : Vec F S1x256x256 .f32) (xi2 : Vec F S1x256x1 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__gram_kernel i arg2 harg2 arg3 harg3 arg4 harg4 arg5 harg5 arg6 harg6) K } := by
  refine ⟨?_, ?_, fun xi1 xi2 E K => ?run⟩
  case run =>
    simp only [cc0__gram_kernel_eq_skeleton]; unfold cc0__gram_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Fr

end
-- ==== Proof.BitsFrame.RunC0.lean ====
/-
  The body at the LAST column block of a half: each accumulator is overwritten with what it held plus this
  block's contribution, and then copied whole into its output window.
-/
import proofs.«100626_j61667140436172_2_alg».proof.Proof.BitsFrame.RunB0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output windows and the two accumulators at the last block of a
    half, with the proof that the body runs from the input window at its block, the output windows at anything and
    the accumulators at what the block before left, to those pieces written. -/
noncomputable def kernelRun0_C (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) :
    Σ' (L1 : List (View.Piece (Elt F) S1x256x256 .f32)) (L2 : List (View.Piece (Elt F) S1x256x1 .f32)) (LS0 : List (View.Piece (Elt F) S256x256 .f32)), { LS1 : List (View.Piece (Elt F) S256x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__gram_kernel i arg2 harg2 arg3 harg3 arg4 harg4 arg5 harg5 arg6 harg6) K } := by
  refine ⟨?_, ?_, ?_, ?_, fun E K => ?run⟩
  case run =>
    simp only [cc0__gram_kernel_eq_skeleton]; unfold cc0__gram_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Cert.Kernel.Fr

end
-- ==== Proof.BitsFrame.Frame0.lean ====
/-
  One Gram-matrix launch, point by point. After the point at position n of the grid (a half p = n / 8, a column
  block k = n % 8) the Gram accumulator holds the sum of the contributions of the blocks 0 … k of half p, started
  from zero at k = 0, and the squared-length accumulator likewise; at k = 7 both are copied into the output
  windows, which are written back to slab p of the two results. This module states that as a recursion over the
  points, makes it the launch's proof data (the accumulators ride in the invariant between points), and proves the
  body's obligation at every point from the three whole-body runs.
-/
import proofs.«100626_j61667140436172_2_alg».proof.Proof.BitsFrame.RunC0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A: the pieces for the Gram accumulator tile it, so they cover it. -/
theorem scover0_A_0 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond0_0 i) (hc1 : ¬cond0_1 i)
    (x0 : Vec F S256x6272 .f32) (y : S256x256.Idx) :
    ∃ pc ∈ (kernelRun0_A c i arg2 harg2 arg3 harg3 arg4 harg4 arg5 harg5 arg6 harg6 hc0 hc1 x0).1, y ∈ pc.1.set :=
  View.cover_of_tiledL (kernelRun0_A c i arg2 harg2 arg3 harg3 arg4 harg4 arg5 harg5 arg6 harg6 hc0 hc1 x0).1 S256x256.size (by sl_kernel_rfl) y

/-- Case A: what the body leaves in the Gram accumulator, its pieces read back. -/
def sout0_A_0 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond0_0 i) (hc1 : ¬cond0_1 i)
    (x0 : Vec F S256x6272 .f32) : Vec F S256x256 .f32 :=
  VS0_0.read (Elt F) (VS0_0.writes (Elt F) VS0_0.junk (kernelRun0_A c i arg2 harg2 arg3 harg3 arg4 harg4 arg5 harg5 arg6 harg6 hc0 hc1 x0).1)

/-- Case A: the pieces for the squared-length accumulator tile it, so they cover it. -/
theorem scover0_A_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond0_0 i) (hc1 : ¬cond0_1 i)
    (x0 : Vec F S256x6272 .f32) (y : S256x1.Idx) :
    ∃ pc ∈ (kernelRun0_A c i arg2 harg2 arg3 harg3 arg4 harg4 arg5 harg5 arg6 harg6 hc0 hc1 x0).2.1, y ∈ pc.1.set :=
  View.cover_of_tiledL (kernelRun0_A c i arg2 harg2 arg3 harg3 arg4 harg4 arg5 harg5 arg6 harg6 hc0 hc1 x0).2.1 S256x1.size (by sl_kernel_rfl) y

/-- Case A: what the body leaves in the squared-length accumulator, its pieces read back. -/
def sout0_A_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond0_0 i) (hc1 : ¬cond0_1 i)
    (x0 : Vec F S256x6272 .f32) : Vec F S256x1 .f32 :=
  VS0_1.read (Elt F) (VS0_1.writes (Elt F) VS0_1.junk (kernelRun0_A c i arg2 harg2 arg3 harg3 arg4 harg4 arg5 harg5 arg6 harg6 hc0 hc1 x0).2.1)

/-- Case B: the pieces for the Gram accumulator tile it, so they cover it. -/
theorem scover0_B_0 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : ¬cond0_1 i)
    (x0 : Vec F S256x6272 .f32) (xs0 : Vec F S256x256 .f32) (xs1 : Vec F S256x1 .f32) (y : S256x256.Idx) :
    ∃ pc ∈ (kernelRun0_B c i arg2 harg2 arg3 harg3 arg4 harg4 arg5 harg5 arg6 harg6 hc0 hc1 x0 xs0 xs1).1, y ∈ pc.1.set :=
  View.cover_of_tiledL (kernelRun0_B c i arg2 harg2 arg3 harg3 arg4 harg4 arg5 harg5 arg6 harg6 hc0 hc1 x0 xs0 xs1).1 S256x256.size (by sl_kernel_rfl) y

/-- Case B: what the body leaves in the Gram accumulator, its pieces read back. -/
def sout0_B_0 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : ¬cond0_1 i)
    (x0 : Vec F S256x6272 .f32) (xs0 : Vec F S256x256 .f32) (xs1 : Vec F S256x1 .f32) : Vec F S256x256 .f32 :=
  VS0_0.read (Elt F) (VS0_0.writes (Elt F) VS0_0.junk (kernelRun0_B c i arg2 harg2 arg3 harg3 arg4 harg4 arg5 harg5 arg6 harg6 hc0 hc1 x0 xs0 xs1).1)

/-- Case B: the pieces for the squared-length accumulator tile it, so they cover it. -/
theorem scover0_B_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : ¬cond0_1 i)
    (x0 : Vec F S256x6272 .f32) (xs0 : Vec F S256x256 .f32) (xs1 : Vec F S256x1 .f32) (y : S256x1.Idx) :
    ∃ pc ∈ (kernelRun0_B c i arg2 harg2 arg3 harg3 arg4 harg4 arg5 harg5 arg6 harg6 hc0 hc1 x0 xs0 xs1).2.1, y ∈ pc.1.set :=
  View.cover_of_tiledL (kernelRun0_B c i arg2 harg2 arg3 harg3 arg4 harg4 arg5 harg5 arg6 harg6 hc0 hc1 x0 xs0 xs1).2.1 S256x1.size (by sl_kernel_rfl) y

/-- Case B: what the body leaves in the squared-length accumulator, its pieces read back. -/
def sout0_B_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : ¬cond0_1 i)
    (x0 : Vec F S256x6272 .f32) (xs0 : Vec F S256x256 .f32) (xs1 : Vec F S256x1 .f32) : Vec F S256x1 .f32 :=
  VS0_1.read (Elt F) (VS0_1.writes (Elt F) VS0_1.junk (kernelRun0_B c i arg2 harg2 arg3 harg3 arg4 harg4 arg5 harg5 arg6 harg6 hc0 hc1 x0 xs0 xs1).2.1)

/-- Case C: the pieces for the Gram accumulator tile it, so they cover it. -/
theorem scover0_C_0 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) (y : S256x256.Idx) :
    ∃ pc ∈ (kernelRun0_C c i arg2 harg2 arg3 harg3 arg4 harg4 arg5 harg5 arg6 harg6 hc0 hc1 x0 xs0 xs1).2.2.1, y ∈ pc.1.set :=
  View.cover_of_tiledL (kernelRun0_C c i arg2 harg2 arg3 harg3 arg4 harg4 arg5 harg5 arg6 harg6 hc0 hc1 x0 xs0 xs1).2.2.1 S256x256.size (by sl_kernel_rfl) y

/-- Case C: what the body leaves in the Gram accumulator, its pieces read back. -/
def sout0_C_0 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) : Vec F S256x256 .f32 :=
  VS0_0.read (Elt F) (VS0_0.writes (Elt F) VS0_0.junk (kernelRun0_C c i arg2 harg2 arg3 harg3 arg4 harg4 arg5 harg5 arg6 harg6 hc0 hc1 x0 xs0 xs1).2.2.1)

/-- Case C: the pieces for the squared-length accumulator tile it, so they cover it. -/
theorem scover0_C_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) (y : S256x1.Idx) :
    ∃ pc ∈ (kernelRun0_C c i arg2 harg2 arg3 harg3 arg4 harg4 arg5 harg5 arg6 harg6 hc0 hc1 x0 xs0 xs1).2.2.2.1, y ∈ pc.1.set :=
  View.cover_of_tiledL (kernelRun0_C c i arg2 harg2 arg3 harg3 arg4 harg4 arg5 harg5 arg6 harg6 hc0 hc1 x0 xs0 xs1).2.2.2.1 S256x1.size (by sl_kernel_rfl) y

/-- Case C: what the body leaves in the squared-length accumulator, its pieces read back. -/
def sout0_C_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) : Vec F S256x1 .f32 :=
  VS0_1.read (Elt F) (VS0_1.writes (Elt F) VS0_1.junk (kernelRun0_C c i arg2 harg2 arg3 harg3 arg4 harg4 arg5 harg5 arg6 harg6 hc0 hc1 x0 xs0 xs1).2.2.2.1)

/-- Case C: the pieces for the Gram output window tile it, so they cover it. -/
theorem cover0_C_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) (y : S1x256x256.Idx) :
    ∃ pc ∈ (kernelRun0_C c i arg2 harg2 arg3 harg3 arg4 harg4 arg5 harg5 arg6 harg6 hc0 hc1 x0 xs0 xs1).1, y ∈ pc.1.set :=
  View.cover_of_tiledL (kernelRun0_C c i arg2 harg2 arg3 harg3 arg4 harg4 arg5 harg5 arg6 harg6 hc0 hc1 x0 xs0 xs1).1 S1x256x256.size (by sl_kernel_rfl) y

/-- Case C: what the body leaves in the Gram output window, its pieces read back. -/
def out0_C_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) : Vec F S1x256x256 .f32 :=
  VO0_1.read (Elt F) (VO0_1.writes (Elt F) VO0_1.junk (kernelRun0_C c i arg2 harg2 arg3 harg3 arg4 harg4 arg5 harg5 arg6 harg6 hc0 hc1 x0 xs0 xs1).1)

/-- Case C: the pieces for the squared-length output window tile it, so they cover it. -/
theorem cover0_C_2 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) (y : S1x256x1.Idx) :
    ∃ pc ∈ (kernelRun0_C c i arg2 harg2 arg3 harg3 arg4 harg4 arg5 harg5 arg6 harg6 hc0 hc1 x0 xs0 xs1).2.1, y ∈ pc.1.set :=
  View.cover_of_tiledL (kernelRun0_C c i arg2 harg2 arg3 harg3 arg4 harg4 arg5 harg5 arg6 harg6 hc0 hc1 x0 xs0 xs1).2.1 S1x256x1.size (by sl_kernel_rfl) y

/-- Case C: what the body leaves in the squared-length output window, its pieces read back. -/
def out0_C_2 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) : Vec F S1x256x1 .f32 :=
  VO0_2.read (Elt F) (VO0_2.writes (Elt F) VO0_2.junk (kernelRun0_C c i arg2 harg2 arg3 harg3 arg4 harg4 arg5 harg5 arg6 harg6 hc0 hc1 x0 xs0 xs1).2.1)

/-- What an output window's buffer is said to hold at a point that does not store into it (nothing consults it:
    the window is idle there and not written back). -/
def idleO0_1 : Vec F S1x256x256 .f32 := VO0_1.read (Elt F) (VO0_1.writes (Elt F) VO0_1.junk [])
def idleO0_2 : Vec F S1x256x1 .f32 := VO0_2.read (Elt F) (VO0_2.writes (Elt F) VO0_2.junk [])

/-- THE ACCUMULATION: the two output windows' buffers and the two accumulators after the body at position `n`,
    by recursion on the position: at the first block of a half from zero, otherwise from what the position before left. -/
def outsAt0 (c : Dev nD) : (n : ℕ) → n < cfg0.N → Vec F S1x256x256 .f32 × Vec F S1x256x1 .f32 × Vec F S256x256 .f32 × Vec F S256x1 .f32
  | 0, hn => (idleO0_1, idleO0_2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 8 = 0 then
      if h1 : (n + 1) % 8 = 7 then
        False.elim (by omega)
      else
        (idleO0_1, idleO0_2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 8 = 7 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
      else
        (idleO0_1, idleO0_2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 V c t.val t.isLt = (idleO0_1, idleO0_2, sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idleO0_1, idleO0_2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`: before the first point, whatever the launch hands over; afterwards
    the two accumulators at what the point before left, the other scoped buffers, the generator register. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ others0 (F := F) c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ others0 (F := F) c) ∗ (∃ r, prngReg c r)) := by
  cases n with
  | zero => exact absurd rfl hz
  | succ n => rfl

/-- The launch's proof data on core `c`: the arrays as the launch finds them; after the body at point `t` the input's
    buffer at its block and the outputs' at the accumulation's components; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
/-- The body at any point: the closed forms say which of the three cases the point is in; the invariant hands the
    body the accumulators at what the point before left (at anything at the very first point) and takes them back
    at this point's contents; an output window the case does not store into is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h1 : t.val % 8 = 7
  · have h0 : ¬t.val % 8 = 0 := by omega
    have hz : t.val ≠ 0 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t ((hcond0_1 t).mpr h1)], after0_1]
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C_1 out0_C_2 sout0_C_0 sout0_C_1; (try dsimp only)
    rw [PhiS0_castSucc V c t, PhiS0_pos V c _ _ hz]
    iintro ⟨⟨⟨⟨HS0, HS1⟩, HR⟩, Hg⟩, Ho, ⟨%d0, H0⟩, ⟨%d1, H1⟩, ⟨%d2, H2⟩⟩
    iapply ((kernelRun0_C c (grid0.coords t) _ _ _ _ _ _ _ _ _ _ (fun h => h0 ((hcond0_0 t).mp h)) ((hcond0_1 t).mpr h1) (iblk0 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _)
        iexact HR
      iexact Hg
    isplitl [Ho]; · iexact Ho
    isplitl [H0]; · iexact H0
    isplitl [H1]
    · unfold owns; iexists _; isplitr
      swap; · iexact H1
      ipureintro; exact View.read_writes_of_cover _ _ _ _ _ (cover0_C_1 c _ _ _ _ _ _ _ _ _ _ _ _ _ _ _ _)
    unfold owns; iexists _; isplitr
    swap; · iexact H2
    ipureintro; exact View.read_writes_of_cover _ _ _ _ _ (cover0_C_2 c _ _ _ _ _ _ _ _ _ _ _ _ _ _ _ _)
  · rw [show (dat0 V c).leavesExact 0 t = owns (c : Thread nD τ) (ms0_0 t) fullShare ((dat0 V c).after 0 t) from by
      unfold Dat.leavesExact; rw [liveAt0_0 t], after0_0]
    rw [Dat.leavesExact_idle (dat0 V c) 1 t (idleAt0_1 t (fun h => h1 ((hcond0_1 t).mp h))) (noFlush0_1 t (fun h => h1 ((hcond0_1 t).mp h)))]
    rw [Dat.leavesExact_idle (dat0 V c) 2 t (idleAt0_2 t (fun h => h1 ((hcond0_1 t).mp h))) (noFlush0_2 t (fun h => h1 ((hcond0_1 t).mp h)))]
    by_cases h0 : t.val % 8 = 0
    · rw [outsAt0_A V c t h0 h1]
      unfold sout0_A_0 sout0_A_1; (try dsimp only)
      by_cases hz : t.val = 0
      · rw [PhiS0_castSucc V c t, PhiS0_zero V c _ _ hz, PhiA0_eq]
        iintro ⟨⟨⟨⟨HS0, HS1⟩, HR⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t)).2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ )
              · unfold owns; iexists _; isplitr
                swap; · iexact HS1
                ipureintro; exact View.read_writes_of_cover _ _ _ _ _ (scover0_A_1 c _ _ _ _ _ _ _ _ _ _ _ _ _ _ )
            iexact HR
          iexact Hg
        isplitl [Ho]; · iexact Ho
        isplitl [H0]; · iexact H0
        isplitl [H1]; · iexists _; iexact H1
        iexists _; iexact H2
      · rw [PhiS0_castSucc V c t, PhiS0_pos V c _ _ hz]
        iintro ⟨⟨⟨⟨HS0, HS1⟩, HR⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t)).2.2 _ _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ )
              · unfold owns; iexists _; isplitr
                swap; · iexact HS1
                ipureintro; exact View.read_writes_of_cover _ _ _ _ _ (scover0_A_1 c _ _ _ _ _ _ _ _ _ _ _ _ _ _ )
            iexact HR
          iexact Hg
        isplitl [Ho]; · iexact Ho
        isplitl [H0]; · iexact H0
        isplitl [H1]; · iexists _; iexact H1
        iexists _; iexact H2
    · have hz : t.val ≠ 0 := fun hz => h0 (by rw [hz])
      rw [outsAt0_B V c t h0 h1]
      unfold sout0_B_0 sout0_B_1; (try dsimp only)
      rw [PhiS0_castSucc V c t, PhiS0_pos V c _ _ hz]
      iintro ⟨⟨⟨⟨HS0, HS1⟩, HR⟩, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) (fun h => h1 ((hcond0_1 t).mp h)) (iblk0 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _)
          iexact HR
        iexact Hg
      isplitl [Ho]; · iexact Ho
      isplitl [H0]; · iexact H0
      isplitl [H1]; · iexists _; iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the accumulators' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Cert.Kernel.Fr

end
-- ==== Proof.BitsFrame.Base1.lean ====
/-
  One of the two Gram-matrix launches, seen from a single grid point: the grid is two halves of the contraction
  axis (the parallel axis) by 7 column blocks each. The body zeroes its two accumulators at the first block of a
  half, adds the block's contribution at every block, and copies the accumulators into the two output windows at
  the last block of the half. This module fixes the vocabulary: a window's block of the array as the launch
  finds it, the two branch conditions in closed form over the grid, where the output windows are idle, and the
  launch's invariant split into the two accumulators and everything else the core holds scoped.
-/
import proofs.«100626_j61667140436172_2_alg».proof.Proof.Gen.Kernel.Launch
import proofs.«100626_j61667140436172_2_alg».proof.Proof.Gen.Kernel.Skeleton
import proofs.«100626_j61667140436172_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- "This is the first column block of its half": the body's first branch condition. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 7 = 0 :=
  (by decide +kernel : ∀ t : Fin grid1.N, cond1_0 (grid1.coords t) ↔ t.val % 7 = 0)

/-- "This is the last column block of its half": the body's second branch condition. -/
abbrev cond1_1 (i : grid1.Coords) : Prop := k1_cond2 i = 1#1
theorem hcond1_1 : ∀ t : Fin cfg1.N, cond1_1 (grid1.coords t) ↔ t.val % 7 = 6 :=
  (by decide +kernel : ∀ t : Fin grid1.N, cond1_1 (grid1.coords t) ↔ t.val % 7 = 6)

/-- The input window is never idle. -/
theorem liveAt1_0 : ∀ t : Fin cfg1.N, cfg1.idle 0 (grid1.coords t) = false := by decide +kernel
/-- Away from the last block of a half both output windows are idle and not written back. -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last block of a half both are live. -/
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-- One staging buffer of each output window, through which its contents are stated. -/
abbrev VO1_1 : View sig .tc .vmem S1x256x256 .f32 := (Memref.whole cc1_stg1_0 : Memref sig .tc .vmem S1x256x256 .f32).view
abbrev VO1_2 : View sig .tc .vmem S1x256x1 .f32 := (Memref.whole cc1_stg2_0 : Memref sig .tc .vmem S1x256x1 .f32).view
/-- Each window's current staging memref at point `t`, and its wholeness. -/
abbrev ms1_0 (t : Fin cfg1.N) : Memref sig .tc .vmem S256x2816 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1 .f32 := win1_2.stage (cfg1.slots t 2)
abbrev hs1_2 (t : Fin cfg1.N) : (ms1_2 t).IsWhole := hstage1_2 ((cfg1.slots t 2).cast nbuf1_2)
/-- The two accumulators: whole scoped buffers of the kernel's own. -/
abbrev scM1_0 : Memref sig .tc .vmem S256x256 .f32 := Memref.whole cc1_scratch0
abbrev scM1_1 : Memref sig .tc .vmem S256x1 .f32 := Memref.whole cc1_scratch1
abbrev VS1_0 : View sig .tc .vmem S256x256 .f32 := scM1_0.view
abbrev VS1_1 : View sig .tc .vmem S256x1 .f32 := scM1_1.view

/-- Everything the core holds scoped that is neither a staging buffer of this launch nor one of its two accumulators. -/
abbrev others1 (c : Dev nD) : sProp 𝕄 :=
  Pipeline.scopedRestBut (Ix := Unit) (Name := ℕ) (U := UR sig nD τ) (Lvl := ℕ) (Val := Elt F) spec1 c [cc1_scratch0, cc1_scratch1]

/-- The launch's invariant: the two accumulators at some contents, the other scoped buffers, the generator register. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ others1 (F := F) c) ∗ (∃ r, prngReg c r)) := by
  unfold Pipeline.ΦA
  rw [Pipeline.scopedRest_split_of_list spec1 c [cc1_scratch0, cc1_scratch1] (by decide) (by decide)]
  simp only [scM1_0, scM1_1, owns_whole]; try rfl

end Cert.Kernel.Fr

end
-- ==== Proof.BitsFrame.RunA1.lean ====
/-
  The body at the FIRST column block of a half: both accumulators are overwritten with zeros and then with
  zero plus this block's contribution; the output windows are not touched. What the two accumulators end with
  is found by running the body symbolically.
-/
import proofs.«100626_j61667140436172_2_alg».proof.Proof.BitsFrame.Base1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulators at the first block of a half (last store first),
    with the proof that the body runs from the input window at its block, the output windows at anything they hold
    (handed back untouched) and the accumulators at anything, to those pieces written. -/
noncomputable def kernelRun1_A (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond1_0 i) (hc1 : ¬cond1_1 i)
    (x0 : Vec F S256x2816 .f32) :
    Σ' (LS0 : List (View.Piece (Elt F) S256x256 .f32)), { LS1 : List (View.Piece (Elt F) S256x1 .f32) //
      ∀ (xi1 : Vec F S1x256x256 .f32) (xi2 : Vec F S1x256x1 .f32) (E : Set ℕ) (K : PUnit → sProp 𝕄),
        iprop(owns (c : Thread nD τ) arg2 fullShare x0 ∗ owns (c : Thread nD τ) arg3 fullShare xi1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__gram_kernel i arg2 harg2 arg3 harg3 arg4 harg4 arg5 harg5 arg6 harg6) K } := by
  refine ⟨?_, ?_, fun xi1 xi2 E K => ?run⟩
  case run =>
    simp only [cc1__gram_kernel_eq_skeleton]; unfold cc1__gram_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Fr

end
-- ==== Proof.BitsFrame.RunB1.lean ====
/-
  The body at a MIDDLE column block of a half: each accumulator is overwritten with what it held plus this
  block's contribution; the output windows are not touched.
-/
import proofs.«100626_j61667140436172_2_alg».proof.Proof.BitsFrame.RunA1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulators at a middle block, with the proof that the body
    runs from the input window at its block, the output windows at what they hold (handed back untouched) and the
    accumulators at what the block before left, to those pieces written. -/
noncomputable def kernelRun1_B (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : ¬cond1_1 i)
    (x0 : Vec F S256x2816 .f32) (xs0 : Vec F S256x256 .f32) (xs1 : Vec F S256x1 .f32) :
    Σ' (LS0 : List (View.Piece (Elt F) S256x256 .f32)), { LS1 : List (View.Piece (Elt F) S256x1 .f32) //
      ∀ (xi1 : Vec F S1x256x256 .f32) (xi2 : Vec F S1x256x1 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__gram_kernel i arg2 harg2 arg3 harg3 arg4 harg4 arg5 harg5 arg6 harg6) K } := by
  refine ⟨?_, ?_, fun xi1 xi2 E K => ?run⟩
  case run =>
    simp only [cc1__gram_kernel_eq_skeleton]; unfold cc1__gram_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Fr

end
-- ==== Proof.BitsFrame.RunC1.lean ====
/-
  The body at the LAST column block of a half: each accumulator is overwritten with what it held plus this
  block's contribution, and then copied whole into its output window.
-/
import proofs.«100626_j61667140436172_2_alg».proof.Proof.BitsFrame.RunB1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output windows and the two accumulators at the last block of a
    half, with the proof that the body runs from the input window at its block, the output windows at anything and
    the accumulators at what the block before left, to those pieces written. -/
noncomputable def kernelRun1_C (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) :
    Σ' (L1 : List (View.Piece (Elt F) S1x256x256 .f32)) (L2 : List (View.Piece (Elt F) S1x256x1 .f32)) (LS0 : List (View.Piece (Elt F) S256x256 .f32)), { LS1 : List (View.Piece (Elt F) S256x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__gram_kernel i arg2 harg2 arg3 harg3 arg4 harg4 arg5 harg5 arg6 harg6) K } := by
  refine ⟨?_, ?_, ?_, ?_, fun E K => ?run⟩
  case run =>
    simp only [cc1__gram_kernel_eq_skeleton]; unfold cc1__gram_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Cert.Kernel.Fr

end
-- ==== Proof.BitsFrame.Frame1.lean ====
/-
  One Gram-matrix launch, point by point. After the point at position n of the grid (a half p = n / 7, a column
  block k = n % 7) the Gram accumulator holds the sum of the contributions of the blocks 0 … k of half p, started
  from zero at k = 0, and the squared-length accumulator likewise; at k = 6 both are copied into the output
  windows, which are written back to slab p of the two results. This module states that as a recursion over the
  points, makes it the launch's proof data (the accumulators ride in the invariant between points), and proves the
  body's obligation at every point from the three whole-body runs.
-/
import proofs.«100626_j61667140436172_2_alg».proof.Proof.BitsFrame.RunC1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A: the pieces for the Gram accumulator tile it, so they cover it. -/
theorem scover1_A_0 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond1_0 i) (hc1 : ¬cond1_1 i)
    (x0 : Vec F S256x2816 .f32) (y : S256x256.Idx) :
    ∃ pc ∈ (kernelRun1_A c i arg2 harg2 arg3 harg3 arg4 harg4 arg5 harg5 arg6 harg6 hc0 hc1 x0).1, y ∈ pc.1.set :=
  View.cover_of_tiledL (kernelRun1_A c i arg2 harg2 arg3 harg3 arg4 harg4 arg5 harg5 arg6 harg6 hc0 hc1 x0).1 S256x256.size (by sl_kernel_rfl) y

/-- Case A: what the body leaves in the Gram accumulator, its pieces read back. -/
def sout1_A_0 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond1_0 i) (hc1 : ¬cond1_1 i)
    (x0 : Vec F S256x2816 .f32) : Vec F S256x256 .f32 :=
  VS1_0.read (Elt F) (VS1_0.writes (Elt F) VS1_0.junk (kernelRun1_A c i arg2 harg2 arg3 harg3 arg4 harg4 arg5 harg5 arg6 harg6 hc0 hc1 x0).1)

/-- Case A: the pieces for the squared-length accumulator tile it, so they cover it. -/
theorem scover1_A_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond1_0 i) (hc1 : ¬cond1_1 i)
    (x0 : Vec F S256x2816 .f32) (y : S256x1.Idx) :
    ∃ pc ∈ (kernelRun1_A c i arg2 harg2 arg3 harg3 arg4 harg4 arg5 harg5 arg6 harg6 hc0 hc1 x0).2.1, y ∈ pc.1.set :=
  View.cover_of_tiledL (kernelRun1_A c i arg2 harg2 arg3 harg3 arg4 harg4 arg5 harg5 arg6 harg6 hc0 hc1 x0).2.1 S256x1.size (by sl_kernel_rfl) y

/-- Case A: what the body leaves in the squared-length accumulator, its pieces read back. -/
def sout1_A_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond1_0 i) (hc1 : ¬cond1_1 i)
    (x0 : Vec F S256x2816 .f32) : Vec F S256x1 .f32 :=
  VS1_1.read (Elt F) (VS1_1.writes (Elt F) VS1_1.junk (kernelRun1_A c i arg2 harg2 arg3 harg3 arg4 harg4 arg5 harg5 arg6 harg6 hc0 hc1 x0).2.1)

/-- Case B: the pieces for the Gram accumulator tile it, so they cover it. -/
theorem scover1_B_0 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : ¬cond1_1 i)
    (x0 : Vec F S256x2816 .f32) (xs0 : Vec F S256x256 .f32) (xs1 : Vec F S256x1 .f32) (y : S256x256.Idx) :
    ∃ pc ∈ (kernelRun1_B c i arg2 harg2 arg3 harg3 arg4 harg4 arg5 harg5 arg6 harg6 hc0 hc1 x0 xs0 xs1).1, y ∈ pc.1.set :=
  View.cover_of_tiledL (kernelRun1_B c i arg2 harg2 arg3 harg3 arg4 harg4 arg5 harg5 arg6 harg6 hc0 hc1 x0 xs0 xs1).1 S256x256.size (by sl_kernel_rfl) y

/-- Case B: what the body leaves in the Gram accumulator, its pieces read back. -/
def sout1_B_0 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : ¬cond1_1 i)
    (x0 : Vec F S256x2816 .f32) (xs0 : Vec F S256x256 .f32) (xs1 : Vec F S256x1 .f32) : Vec F S256x256 .f32 :=
  VS1_0.read (Elt F) (VS1_0.writes (Elt F) VS1_0.junk (kernelRun1_B c i arg2 harg2 arg3 harg3 arg4 harg4 arg5 harg5 arg6 harg6 hc0 hc1 x0 xs0 xs1).1)

/-- Case B: the pieces for the squared-length accumulator tile it, so they cover it. -/
theorem scover1_B_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : ¬cond1_1 i)
    (x0 : Vec F S256x2816 .f32) (xs0 : Vec F S256x256 .f32) (xs1 : Vec F S256x1 .f32) (y : S256x1.Idx) :
    ∃ pc ∈ (kernelRun1_B c i arg2 harg2 arg3 harg3 arg4 harg4 arg5 harg5 arg6 harg6 hc0 hc1 x0 xs0 xs1).2.1, y ∈ pc.1.set :=
  View.cover_of_tiledL (kernelRun1_B c i arg2 harg2 arg3 harg3 arg4 harg4 arg5 harg5 arg6 harg6 hc0 hc1 x0 xs0 xs1).2.1 S256x1.size (by sl_kernel_rfl) y

/-- Case B: what the body leaves in the squared-length accumulator, its pieces read back. -/
def sout1_B_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : ¬cond1_1 i)
    (x0 : Vec F S256x2816 .f32) (xs0 : Vec F S256x256 .f32) (xs1 : Vec F S256x1 .f32) : Vec F S256x1 .f32 :=
  VS1_1.read (Elt F) (VS1_1.writes (Elt F) VS1_1.junk (kernelRun1_B c i arg2 harg2 arg3 harg3 arg4 harg4 arg5 harg5 arg6 harg6 hc0 hc1 x0 xs0 xs1).2.1)

/-- Case C: the pieces for the Gram accumulator tile it, so they cover it. -/
theorem scover1_C_0 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) (y : S256x256.Idx) :
    ∃ pc ∈ (kernelRun1_C c i arg2 harg2 arg3 harg3 arg4 harg4 arg5 harg5 arg6 harg6 hc0 hc1 x0 xs0 xs1).2.2.1, y ∈ pc.1.set :=
  View.cover_of_tiledL (kernelRun1_C c i arg2 harg2 arg3 harg3 arg4 harg4 arg5 harg5 arg6 harg6 hc0 hc1 x0 xs0 xs1).2.2.1 S256x256.size (by sl_kernel_rfl) y

/-- Case C: what the body leaves in the Gram accumulator, its pieces read back. -/
def sout1_C_0 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) : Vec F S256x256 .f32 :=
  VS1_0.read (Elt F) (VS1_0.writes (Elt F) VS1_0.junk (kernelRun1_C c i arg2 harg2 arg3 harg3 arg4 harg4 arg5 harg5 arg6 harg6 hc0 hc1 x0 xs0 xs1).2.2.1)

/-- Case C: the pieces for the squared-length accumulator tile it, so they cover it. -/
theorem scover1_C_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) (y : S256x1.Idx) :
    ∃ pc ∈ (kernelRun1_C c i arg2 harg2 arg3 harg3 arg4 harg4 arg5 harg5 arg6 harg6 hc0 hc1 x0 xs0 xs1).2.2.2.1, y ∈ pc.1.set :=
  View.cover_of_tiledL (kernelRun1_C c i arg2 harg2 arg3 harg3 arg4 harg4 arg5 harg5 arg6 harg6 hc0 hc1 x0 xs0 xs1).2.2.2.1 S256x1.size (by sl_kernel_rfl) y

/-- Case C: what the body leaves in the squared-length accumulator, its pieces read back. -/
def sout1_C_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) : Vec F S256x1 .f32 :=
  VS1_1.read (Elt F) (VS1_1.writes (Elt F) VS1_1.junk (kernelRun1_C c i arg2 harg2 arg3 harg3 arg4 harg4 arg5 harg5 arg6 harg6 hc0 hc1 x0 xs0 xs1).2.2.2.1)

/-- Case C: the pieces for the Gram output window tile it, so they cover it. -/
theorem cover1_C_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) (y : S1x256x256.Idx) :
    ∃ pc ∈ (kernelRun1_C c i arg2 harg2 arg3 harg3 arg4 harg4 arg5 harg5 arg6 harg6 hc0 hc1 x0 xs0 xs1).1, y ∈ pc.1.set :=
  View.cover_of_tiledL (kernelRun1_C c i arg2 harg2 arg3 harg3 arg4 harg4 arg5 harg5 arg6 harg6 hc0 hc1 x0 xs0 xs1).1 S1x256x256.size (by sl_kernel_rfl) y

/-- Case C: what the body leaves in the Gram output window, its pieces read back. -/
def out1_C_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) : Vec F S1x256x256 .f32 :=
  VO1_1.read (Elt F) (VO1_1.writes (Elt F) VO1_1.junk (kernelRun1_C c i arg2 harg2 arg3 harg3 arg4 harg4 arg5 harg5 arg6 harg6 hc0 hc1 x0 xs0 xs1).1)

/-- Case C: the pieces for the squared-length output window tile it, so they cover it. -/
theorem cover1_C_2 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) (y : S1x256x1.Idx) :
    ∃ pc ∈ (kernelRun1_C c i arg2 harg2 arg3 harg3 arg4 harg4 arg5 harg5 arg6 harg6 hc0 hc1 x0 xs0 xs1).2.1, y ∈ pc.1.set :=
  View.cover_of_tiledL (kernelRun1_C c i arg2 harg2 arg3 harg3 arg4 harg4 arg5 harg5 arg6 harg6 hc0 hc1 x0 xs0 xs1).2.1 S1x256x1.size (by sl_kernel_rfl) y

/-- Case C: what the body leaves in the squared-length output window, its pieces read back. -/
def out1_C_2 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) : Vec F S1x256x1 .f32 :=
  VO1_2.read (Elt F) (VO1_2.writes (Elt F) VO1_2.junk (kernelRun1_C c i arg2 harg2 arg3 harg3 arg4 harg4 arg5 harg5 arg6 harg6 hc0 hc1 x0 xs0 xs1).2.1)

/-- What an output window's buffer is said to hold at a point that does not store into it (nothing consults it:
    the window is idle there and not written back). -/
def idleO1_1 : Vec F S1x256x256 .f32 := VO1_1.read (Elt F) (VO1_1.writes (Elt F) VO1_1.junk [])
def idleO1_2 : Vec F S1x256x1 .f32 := VO1_2.read (Elt F) (VO1_2.writes (Elt F) VO1_2.junk [])

/-- THE ACCUMULATION: the two output windows' buffers and the two accumulators after the body at position `n`,
    by recursion on the position: at the first block of a half from zero, otherwise from what the position before left. -/
def outsAt1 (c : Dev nD) : (n : ℕ) → n < cfg1.N → Vec F S1x256x256 .f32 × Vec F S1x256x1 .f32 × Vec F S256x256 .f32 × Vec F S256x1 .f32
  | 0, hn => (idleO1_1, idleO1_2, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 7 = 0 then
      if h1 : (n + 1) % 7 = 6 then
        False.elim (by omega)
      else
        (idleO1_1, idleO1_2, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 7 = 6 then
        (out1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2)
      else
        (idleO1_1, idleO1_2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2)

theorem outsAt1_A (c : Dev nD) (t : Fin cfg1.N) (h0 : t.val % 7 = 0) (h1 : ¬t.val % 7 = 6) :
    outsAt1 V c t.val t.isLt = (idleO1_1, idleO1_2, sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

theorem outsAt1_B (c : Dev nD) (t : Fin cfg1.N) (h0 : ¬t.val % 7 = 0) (h1 : ¬t.val % 7 = 6) :
    outsAt1 V c t.val t.isLt = (idleO1_1, idleO1_2, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 7 = 0) (h1 : t.val % 7 = 6) :
    outsAt1 V c t.val t.isLt = (out1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`: before the first point, whatever the launch hands over; afterwards
    the two accumulators at what the point before left, the other scoped buffers, the generator register. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ others1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ others1 (F := F) c) ∗ (∃ r, prngReg c r)) := by
  cases n with
  | zero => exact absurd rfl hz
  | succ n => rfl

/-- The launch's proof data on core `c`: the arrays as the launch finds them; after the body at point `t` the input's
    buffer at its block and the outputs' at the accumulation's components; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point: the closed forms say which of the three cases the point is in; the invariant hands the
    body the accumulators at what the point before left (at anything at the very first point) and takes them back
    at this point's contents; an output window the case does not store into is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 14 := lt_of_lt_of_eq t.isLt (show cfg1.N = 14 from N_1)
  by_cases h1 : t.val % 7 = 6
  · have h0 : ¬t.val % 7 = 0 := by omega
    have hz : t.val ≠ 0 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t ((hcond1_1 t).mpr h1)], after1_1]
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold out1_C_1 out1_C_2 sout1_C_0 sout1_C_1; (try dsimp only)
    rw [PhiS1_castSucc V c t, PhiS1_pos V c _ _ hz]
    iintro ⟨⟨⟨⟨HS0, HS1⟩, HR⟩, Hg⟩, Ho, ⟨%d0, H0⟩, ⟨%d1, H1⟩, ⟨%d2, H2⟩⟩
    iapply ((kernelRun1_C c (grid1.coords t) _ _ _ _ _ _ _ _ _ _ (fun h => h0 ((hcond1_0 t).mp h)) ((hcond1_1 t).mpr h1) (iblk1 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_C_0 c _ _ _ _ _ _ _ _ _ _ _ _ _ _ _ _)
          · unfold owns; iexists _; isplitr
            swap; · iexact HS1
            ipureintro; exact View.read_writes_of_cover _ _ _ _ _ (scover1_C_1 c _ _ _ _ _ _ _ _ _ _ _ _ _ _ _ _)
        iexact HR
      iexact Hg
    isplitl [Ho]; · iexact Ho
    isplitl [H0]; · iexact H0
    isplitl [H1]
    · unfold owns; iexists _; isplitr
      swap; · iexact H1
      ipureintro; exact View.read_writes_of_cover _ _ _ _ _ (cover1_C_1 c _ _ _ _ _ _ _ _ _ _ _ _ _ _ _ _)
    unfold owns; iexists _; isplitr
    swap; · iexact H2
    ipureintro; exact View.read_writes_of_cover _ _ _ _ _ (cover1_C_2 c _ _ _ _ _ _ _ _ _ _ _ _ _ _ _ _)
  · rw [show (dat1 V c).leavesExact 0 t = owns (c : Thread nD τ) (ms1_0 t) fullShare ((dat1 V c).after 0 t) from by
      unfold Dat.leavesExact; rw [liveAt1_0 t], after1_0]
    rw [Dat.leavesExact_idle (dat1 V c) 1 t (idleAt1_1 t (fun h => h1 ((hcond1_1 t).mp h))) (noFlush1_1 t (fun h => h1 ((hcond1_1 t).mp h)))]
    rw [Dat.leavesExact_idle (dat1 V c) 2 t (idleAt1_2 t (fun h => h1 ((hcond1_1 t).mp h))) (noFlush1_2 t (fun h => h1 ((hcond1_1 t).mp h)))]
    by_cases h0 : t.val % 7 = 0
    · rw [outsAt1_A V c t h0 h1]
      unfold sout1_A_0 sout1_A_1; (try dsimp only)
      by_cases hz : t.val = 0
      · rw [PhiS1_castSucc V c t, PhiS1_zero V c _ _ hz, PhiA1_eq]
        iintro ⟨⟨⟨⟨HS0, HS1⟩, HR⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t)).2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ )
              · unfold owns; iexists _; isplitr
                swap; · iexact HS1
                ipureintro; exact View.read_writes_of_cover _ _ _ _ _ (scover1_A_1 c _ _ _ _ _ _ _ _ _ _ _ _ _ _ )
            iexact HR
          iexact Hg
        isplitl [Ho]; · iexact Ho
        isplitl [H0]; · iexact H0
        isplitl [H1]; · iexists _; iexact H1
        iexists _; iexact H2
      · rw [PhiS1_castSucc V c t, PhiS1_pos V c _ _ hz]
        iintro ⟨⟨⟨⟨HS0, HS1⟩, HR⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t)).2.2 _ _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ )
              · unfold owns; iexists _; isplitr
                swap; · iexact HS1
                ipureintro; exact View.read_writes_of_cover _ _ _ _ _ (scover1_A_1 c _ _ _ _ _ _ _ _ _ _ _ _ _ _ )
            iexact HR
          iexact Hg
        isplitl [Ho]; · iexact Ho
        isplitl [H0]; · iexact H0
        isplitl [H1]; · iexists _; iexact H1
        iexists _; iexact H2
    · have hz : t.val ≠ 0 := fun hz => h0 (by rw [hz])
      rw [outsAt1_B V c t h0 h1]
      unfold sout1_B_0 sout1_B_1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩⟩
      iapply ((kernelRun1_B c (grid1.coords t) _ _ _ _ _ _ _ _ _ _ (fun h => h0 ((hcond1_0 t).mp h)) (fun h => h1 ((hcond1_1 t).mp h)) (iblk1 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _)
          iexact HR
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulators' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 14 := N_1; omega), PhiA1_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Cert.Kernel.Fr

end
-- ==== Proof.BitsFrame.Whole.lean ====
/-
  The whole program as a run: three reshapes, the first Gram launch, five host operations, the second Gram launch,
  and the seventy-three host operations that turn the two Gram matrices into the divergence. The contents of the
  core's buffers at every boundary are a fold through these pieces from the memory at launch; each launch is entered
  with its arrays at the boundary's contents and left with its two results at what its write-backs leave; every
  other buffer passes by. The run ends with every unscoped buffer at the last boundary's contents, and the three
  argument arrays, which nothing writes, read back through the fold to what they held at launch.
-/
import proofs.«100626_j61667140436172_2_alg».proof.Proof.BitsFrame.Frame0
import proofs.«100626_j61667140436172_2_alg».proof.Proof.BitsFrame.Frame1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the three reshapes: where the first launch is entered. -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- Where the first launch is left: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the five host operations between the launches: where the second launch is entered. -/
abbrev W3 : Dev nD → Valuation τ sig (Elt F) := fun c => StableHlo.after main_part0_ops1 (W2 m ρ c)
abbrev V3 : (c : Dev nD) → (b : Ref sig .tc) → Buf (Elt F) ((c : Thread nD τ).loc b) := fun c b => W3 m ρ c b
/-- Where the second launch is left. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the first fifty of the closing host operations, and after all of them. -/
abbrev W5 : Dev nD → Valuation τ sig (Elt F) := fun c => StableHlo.after main_part0_ops2 (W4 m ρ c)
abbrev W6 : Dev nD → Valuation τ sig (Elt F) := fun c => StableHlo.after main_part1_ops0 (W5 m ρ c)

/-! ### The arguments end as launched: no host operation writes one and no launch has one among its arrays -/
set_option maxHeartbeats 4000000

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [main_part0_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [main_part0_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [main_part0_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [main_part0_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [main_part0_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [main_part0_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

set_option maxHeartbeats 200000

/-! ## The proof data family and the thread state -/

abbrev adm : (p : Fin 2) → (pcfgs (F := F) p).Adm := fun p => (cfgs p).toPCfg_adm
/-- Both launches' proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every piece: the generator register at some state and the core owing nothing. -/
abbrev R (c : Dev nD) : sProp 𝕄 := iprop((∃ r, prngReg c r) ∗ ∃ W, owes (c : Thread nD τ) (0 : CellTallies nD τ sig Unit) W)
/-- A stretch of host operations as a piece of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register. -/
abbrev Tₙ (c : Dev nD) : sProp 𝕄 := iprop(StableHlo.held (c : Thread nD τ) (Pipeline.ucRefs τ sig) (W6 m ρ c) ∗ ∃ r, prngReg c r)

/-! ## The launches as pieces of the run -/

set_option backward.isDefEq.respectTransparency.types false in
/-- Launch 0 over the thread state: entered with every unscoped buffer at the boundary's contents, left with the
    launch's arrays at what its write-backs leave and every other buffer as entered. Its arrays are split out of
    the unscoped buffers and put back; the generator register goes into the launch's invariant and comes out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at the boundary's contents, left with the
    launch's arrays at what its write-backs leave and every other buffer as entered. Its arrays are split out of
    the unscoped buffers and put back; the generator register goes into the launch's invariant and comes out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its pieces, and the run -/

abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .region (reg1 m ρ),
    .host (hseg main_part0_ops2 main_part0_ops2_sub main_part0_ops2_fresh (W4 m ρ)),
    .host (hseg main_part1_ops0 main_part1_ops0_sub main_part1_ops0_fresh (W5 m ρ)) ]

set_option maxHeartbeats 4000000 in
theorem main_run (c : Dev nD) : main (F := F) c = Pipeline.Seg.run (segs m ρ) := (main_chain_windows c).trans (by chain_rfl)

set_option maxHeartbeats 4000000 in
set_option backward.isDefEq.respectTransparency.types false in
/-- THE RUN: from any memory with zero counters every weakly fair execution of the program on the core terminates,
    nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => (show iprop(StableHlo.held (c : Thread nD τ) (Pipeline.ucRefs τ sig) (W6 m ρ c) ∗ (∃ r, prngReg c r) ∗ ∃ W, owes (c : Thread nD τ) (0 : CellTallies nD τ sig Unit) W)
          ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.Kernel.Fr

end
-- ==== Proof.IdealFrame.Base0.lean ====
/-
  One of the two Gram-matrix launches, seen from a single grid point: the grid is two halves of the contraction
  axis (the parallel axis) by 8 column blocks each. The body zeroes its two accumulators at the first block of a
  half, adds the block's contribution at every block, and copies the accumulators into the two output windows at
  the last block of the half. This module fixes the vocabulary: a window's block of the array as the launch
  finds it, the two branch conditions in closed form over the grid, where the output windows are idle, and the
  launch's invariant split into the two accumulators and everything else the core holds scoped.
-/
import proofs.«100626_j61667140436172_2_alg».proof.Proof.Gen.KernelIdeal.Launch
import proofs.«100626_j61667140436172_2_alg».proof.Proof.Gen.KernelIdeal.Skeleton
import proofs.«100626_j61667140436172_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- "This is the first column block of its half": the body's first branch condition. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block of its half": the body's second branch condition. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The input window is never idle. -/
theorem liveAt0_0 : ∀ t : Fin cfg0.N, cfg0.idle 0 (grid0.coords t) = false := by decide +kernel
/-- Away from the last block of a half both output windows are idle and not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last block of a half both are live. -/
theorem liveAt0_1 : ∀ t : Fin cfg0.N, cond0_1 (grid0.coords t) → cfg0.idle 1 (grid0.coords t) = false := by decide +kernel
theorem liveAt0_2 : ∀ t : Fin cfg0.N, cond0_1 (grid0.coords t) → cfg0.idle 2 (grid0.coords t) = false := by decide +kernel

/-- One staging buffer of each output window, through which its contents are stated. -/
abbrev VO0_1 : View sig .tc .vmem S1x256x256 .f32 := (Memref.whole cc0_stg1_0 : Memref sig .tc .vmem S1x256x256 .f32).view
abbrev VO0_2 : View sig .tc .vmem S1x256x1 .f32 := (Memref.whole cc0_stg2_0 : Memref sig .tc .vmem S1x256x1 .f32).view
/-- Each window's current staging memref at point `t`, and its wholeness. -/
abbrev ms0_0 (t : Fin cfg0.N) : Memref sig .tc .vmem S256x6272 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1 .f32 := win0_2.stage (cfg0.slots t 2)
abbrev hs0_2 (t : Fin cfg0.N) : (ms0_2 t).IsWhole := hstage0_2 ((cfg0.slots t 2).cast nbuf0_2)
/-- The two accumulators: whole scoped buffers of the kernel's own. -/
abbrev scM0_0 : Memref sig .tc .vmem S256x256 .f32 := Memref.whole cc0_scratch0
abbrev scM0_1 : Memref sig .tc .vmem S256x1 .f32 := Memref.whole cc0_scratch1
abbrev VS0_0 : View sig .tc .vmem S256x256 .f32 := scM0_0.view
abbrev VS0_1 : View sig .tc .vmem S256x1 .f32 := scM0_1.view

/-- Everything the core holds scoped that is neither a staging buffer of this launch nor one of its two accumulators. -/
abbrev others0 (c : Dev nD) : sProp 𝕄 :=
  Pipeline.scopedRestBut (Ix := Unit) (Name := ℕ) (U := UR sig nD τ) (Lvl := ℕ) (Val := Elt F) spec0 c [cc0_scratch0, cc0_scratch1]

/-- The launch's invariant: the two accumulators at some contents, the other scoped buffers, the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ others0 (F := F) c) ∗ (∃ r, prngReg c r)) := by
  unfold Pipeline.ΦA
  rw [Pipeline.scopedRest_split_of_list spec0 c [cc0_scratch0, cc0_scratch1] (by decide) (by decide)]
  simp only [scM0_0, scM0_1, owns_whole]; try rfl

end Cert.KernelIdeal.Fr

end
-- ==== Proof.IdealFrame.RunA0.lean ====
/-
  The body at the FIRST column block of a half: both accumulators are overwritten with zeros and then with
  zero plus this block's contribution; the output windows are not touched. What the two accumulators end with
  is found by running the body symbolically.
-/
import proofs.«100626_j61667140436172_2_alg».proof.Proof.IdealFrame.Base0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulators at the first block of a half (last store first),
    with the proof that the body runs from the input window at its block, the output windows at anything they hold
    (handed back untouched) and the accumulators at anything, to those pieces written. -/
noncomputable def kernelRun0_A (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond0_0 i) (hc1 : ¬cond0_1 i)
    (x0 : Vec F S256x6272 .f32) :
    Σ' (LS0 : List (View.Piece (Elt F) S256x256 .f32)), { LS1 : List (View.Piece (Elt F) S256x1 .f32) //
      ∀ (xi1 : Vec F S1x256x256 .f32) (xi2 : Vec F S1x256x1 .f32) (E : Set ℕ) (K : PUnit → sProp 𝕄),
        iprop(owns (c : Thread nD τ) arg2 fullShare x0 ∗ owns (c : Thread nD τ) arg3 fullShare xi1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__gram_kernel i arg2 harg2 arg3 harg3 arg4 harg4 arg5 harg5 arg6 harg6) K } := by
  refine ⟨?_, ?_, fun xi1 xi2 E K => ?run⟩
  case run =>
    simp only [cc0__gram_kernel_eq_skeleton]; unfold cc0__gram_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Fr

end
-- ==== Proof.IdealFrame.RunB0.lean ====
/-
  The body at a MIDDLE column block of a half: each accumulator is overwritten with what it held plus this
  block's contribution; the output windows are not touched.
-/
import proofs.«100626_j61667140436172_2_alg».proof.Proof.IdealFrame.RunA0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulators at a middle block, with the proof that the body
    runs from the input window at its block, the output windows at what they hold (handed back untouched) and the
    accumulators at what the block before left, to those pieces written. -/
noncomputable def kernelRun0_B (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : ¬cond0_1 i)
    (x0 : Vec F S256x6272 .f32) (xs0 : Vec F S256x256 .f32) (xs1 : Vec F S256x1 .f32) :
    Σ' (LS0 : List (View.Piece (Elt F) S256x256 .f32)), { LS1 : List (View.Piece (Elt F) S256x1 .f32) //
      ∀ (xi1 : Vec F S1x256x256 .f32) (xi2 : Vec F S1x256x1 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__gram_kernel i arg2 harg2 arg3 harg3 arg4 harg4 arg5 harg5 arg6 harg6) K } := by
  refine ⟨?_, ?_, fun xi1 xi2 E K => ?run⟩
  case run =>
    simp only [cc0__gram_kernel_eq_skeleton]; unfold cc0__gram_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Fr

end
-- ==== Proof.IdealFrame.RunC0.lean ====
/-
  The body at the LAST column block of a half: each accumulator is overwritten with what it held plus this
  block's contribution, and then copied whole into its output window.
-/
import proofs.«100626_j61667140436172_2_alg».proof.Proof.IdealFrame.RunB0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output windows and the two accumulators at the last block of a
    half, with the proof that the body runs from the input window at its block, the output windows at anything and
    the accumulators at what the block before left, to those pieces written. -/
noncomputable def kernelRun0_C (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) :
    Σ' (L1 : List (View.Piece (Elt F) S1x256x256 .f32)) (L2 : List (View.Piece (Elt F) S1x256x1 .f32)) (LS0 : List (View.Piece (Elt F) S256x256 .f32)), { LS1 : List (View.Piece (Elt F) S256x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__gram_kernel i arg2 harg2 arg3 harg3 arg4 harg4 arg5 harg5 arg6 harg6) K } := by
  refine ⟨?_, ?_, ?_, ?_, fun E K => ?run⟩
  case run =>
    simp only [cc0__gram_kernel_eq_skeleton]; unfold cc0__gram_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Cert.KernelIdeal.Fr

end
-- ==== Proof.IdealFrame.Frame0.lean ====
/-
  One Gram-matrix launch, point by point. After the point at position n of the grid (a half p = n / 8, a column
  block k = n % 8) the Gram accumulator holds the sum of the contributions of the blocks 0 … k of half p, started
  from zero at k = 0, and the squared-length accumulator likewise; at k = 7 both are copied into the output
  windows, which are written back to slab p of the two results. This module states that as a recursion over the
  points, makes it the launch's proof data (the accumulators ride in the invariant between points), and proves the
  body's obligation at every point from the three whole-body runs.
-/
import proofs.«100626_j61667140436172_2_alg».proof.Proof.IdealFrame.RunC0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A: the pieces for the Gram accumulator tile it, so they cover it. -/
theorem scover0_A_0 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond0_0 i) (hc1 : ¬cond0_1 i)
    (x0 : Vec F S256x6272 .f32) (y : S256x256.Idx) :
    ∃ pc ∈ (kernelRun0_A c i arg2 harg2 arg3 harg3 arg4 harg4 arg5 harg5 arg6 harg6 hc0 hc1 x0).1, y ∈ pc.1.set :=
  View.cover_of_tiledL (kernelRun0_A c i arg2 harg2 arg3 harg3 arg4 harg4 arg5 harg5 arg6 harg6 hc0 hc1 x0).1 S256x256.size (by sl_kernel_rfl) y

/-- Case A: what the body leaves in the Gram accumulator, its pieces read back. -/
def sout0_A_0 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond0_0 i) (hc1 : ¬cond0_1 i)
    (x0 : Vec F S256x6272 .f32) : Vec F S256x256 .f32 :=
  VS0_0.read (Elt F) (VS0_0.writes (Elt F) VS0_0.junk (kernelRun0_A c i arg2 harg2 arg3 harg3 arg4 harg4 arg5 harg5 arg6 harg6 hc0 hc1 x0).1)

/-- Case A: the pieces for the squared-length accumulator tile it, so they cover it. -/
theorem scover0_A_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond0_0 i) (hc1 : ¬cond0_1 i)
    (x0 : Vec F S256x6272 .f32) (y : S256x1.Idx) :
    ∃ pc ∈ (kernelRun0_A c i arg2 harg2 arg3 harg3 arg4 harg4 arg5 harg5 arg6 harg6 hc0 hc1 x0).2.1, y ∈ pc.1.set :=
  View.cover_of_tiledL (kernelRun0_A c i arg2 harg2 arg3 harg3 arg4 harg4 arg5 harg5 arg6 harg6 hc0 hc1 x0).2.1 S256x1.size (by sl_kernel_rfl) y

/-- Case A: what the body leaves in the squared-length accumulator, its pieces read back. -/
def sout0_A_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond0_0 i) (hc1 : ¬cond0_1 i)
    (x0 : Vec F S256x6272 .f32) : Vec F S256x1 .f32 :=
  VS0_1.read (Elt F) (VS0_1.writes (Elt F) VS0_1.junk (kernelRun0_A c i arg2 harg2 arg3 harg3 arg4 harg4 arg5 harg5 arg6 harg6 hc0 hc1 x0).2.1)

/-- Case B: the pieces for the Gram accumulator tile it, so they cover it. -/
theorem scover0_B_0 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : ¬cond0_1 i)
    (x0 : Vec F S256x6272 .f32) (xs0 : Vec F S256x256 .f32) (xs1 : Vec F S256x1 .f32) (y : S256x256.Idx) :
    ∃ pc ∈ (kernelRun0_B c i arg2 harg2 arg3 harg3 arg4 harg4 arg5 harg5 arg6 harg6 hc0 hc1 x0 xs0 xs1).1, y ∈ pc.1.set :=
  View.cover_of_tiledL (kernelRun0_B c i arg2 harg2 arg3 harg3 arg4 harg4 arg5 harg5 arg6 harg6 hc0 hc1 x0 xs0 xs1).1 S256x256.size (by sl_kernel_rfl) y

/-- Case B: what the body leaves in the Gram accumulator, its pieces read back. -/
def sout0_B_0 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : ¬cond0_1 i)
    (x0 : Vec F S256x6272 .f32) (xs0 : Vec F S256x256 .f32) (xs1 : Vec F S256x1 .f32) : Vec F S256x256 .f32 :=
  VS0_0.read (Elt F) (VS0_0.writes (Elt F) VS0_0.junk (kernelRun0_B c i arg2 harg2 arg3 harg3 arg4 harg4 arg5 harg5 arg6 harg6 hc0 hc1 x0 xs0 xs1).1)

/-- Case B: the pieces for the squared-length accumulator tile it, so they cover it. -/
theorem scover0_B_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : ¬cond0_1 i)
    (x0 : Vec F S256x6272 .f32) (xs0 : Vec F S256x256 .f32) (xs1 : Vec F S256x1 .f32) (y : S256x1.Idx) :
    ∃ pc ∈ (kernelRun0_B c i arg2 harg2 arg3 harg3 arg4 harg4 arg5 harg5 arg6 harg6 hc0 hc1 x0 xs0 xs1).2.1, y ∈ pc.1.set :=
  View.cover_of_tiledL (kernelRun0_B c i arg2 harg2 arg3 harg3 arg4 harg4 arg5 harg5 arg6 harg6 hc0 hc1 x0 xs0 xs1).2.1 S256x1.size (by sl_kernel_rfl) y

/-- Case B: what the body leaves in the squared-length accumulator, its pieces read back. -/
def sout0_B_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : ¬cond0_1 i)
    (x0 : Vec F S256x6272 .f32) (xs0 : Vec F S256x256 .f32) (xs1 : Vec F S256x1 .f32) : Vec F S256x1 .f32 :=
  VS0_1.read (Elt F) (VS0_1.writes (Elt F) VS0_1.junk (kernelRun0_B c i arg2 harg2 arg3 harg3 arg4 harg4 arg5 harg5 arg6 harg6 hc0 hc1 x0 xs0 xs1).2.1)

/-- Case C: the pieces for the Gram accumulator tile it, so they cover it. -/
theorem scover0_C_0 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) (y : S256x256.Idx) :
    ∃ pc ∈ (kernelRun0_C c i arg2 harg2 arg3 harg3 arg4 harg4 arg5 harg5 arg6 harg6 hc0 hc1 x0 xs0 xs1).2.2.1, y ∈ pc.1.set :=
  View.cover_of_tiledL (kernelRun0_C c i arg2 harg2 arg3 harg3 arg4 harg4 arg5 harg5 arg6 harg6 hc0 hc1 x0 xs0 xs1).2.2.1 S256x256.size (by sl_kernel_rfl) y

/-- Case C: what the body leaves in the Gram accumulator, its pieces read back. -/
def sout0_C_0 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) : Vec F S256x256 .f32 :=
  VS0_0.read (Elt F) (VS0_0.writes (Elt F) VS0_0.junk (kernelRun0_C c i arg2 harg2 arg3 harg3 arg4 harg4 arg5 harg5 arg6 harg6 hc0 hc1 x0 xs0 xs1).2.2.1)

/-- Case C: the pieces for the squared-length accumulator tile it, so they cover it. -/
theorem scover0_C_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) (y : S256x1.Idx) :
    ∃ pc ∈ (kernelRun0_C c i arg2 harg2 arg3 harg3 arg4 harg4 arg5 harg5 arg6 harg6 hc0 hc1 x0 xs0 xs1).2.2.2.1, y ∈ pc.1.set :=
  View.cover_of_tiledL (kernelRun0_C c i arg2 harg2 arg3 harg3 arg4 harg4 arg5 harg5 arg6 harg6 hc0 hc1 x0 xs0 xs1).2.2.2.1 S256x1.size (by sl_kernel_rfl) y

/-- Case C: what the body leaves in the squared-length accumulator, its pieces read back. -/
def sout0_C_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) : Vec F S256x1 .f32 :=
  VS0_1.read (Elt F) (VS0_1.writes (Elt F) VS0_1.junk (kernelRun0_C c i arg2 harg2 arg3 harg3 arg4 harg4 arg5 harg5 arg6 harg6 hc0 hc1 x0 xs0 xs1).2.2.2.1)

/-- Case C: the pieces for the Gram output window tile it, so they cover it. -/
theorem cover0_C_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) (y : S1x256x256.Idx) :
    ∃ pc ∈ (kernelRun0_C c i arg2 harg2 arg3 harg3 arg4 harg4 arg5 harg5 arg6 harg6 hc0 hc1 x0 xs0 xs1).1, y ∈ pc.1.set :=
  View.cover_of_tiledL (kernelRun0_C c i arg2 harg2 arg3 harg3 arg4 harg4 arg5 harg5 arg6 harg6 hc0 hc1 x0 xs0 xs1).1 S1x256x256.size (by sl_kernel_rfl) y

/-- Case C: what the body leaves in the Gram output window, its pieces read back. -/
def out0_C_1 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) : Vec F S1x256x256 .f32 :=
  VO0_1.read (Elt F) (VO0_1.writes (Elt F) VO0_1.junk (kernelRun0_C c i arg2 harg2 arg3 harg3 arg4 harg4 arg5 harg5 arg6 harg6 hc0 hc1 x0 xs0 xs1).1)

/-- Case C: the pieces for the squared-length output window tile it, so they cover it. -/
theorem cover0_C_2 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) (y : S1x256x1.Idx) :
    ∃ pc ∈ (kernelRun0_C c i arg2 harg2 arg3 harg3 arg4 harg4 arg5 harg5 arg6 harg6 hc0 hc1 x0 xs0 xs1).2.1, y ∈ pc.1.set :=
  View.cover_of_tiledL (kernelRun0_C c i arg2 harg2 arg3 harg3 arg4 harg4 arg5 harg5 arg6 harg6 hc0 hc1 x0 xs0 xs1).2.1 S1x256x1.size (by sl_kernel_rfl) y

/-- Case C: what the body leaves in the squared-length output window, its pieces read back. -/
def out0_C_2 (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) : Vec F S1x256x1 .f32 :=
  VO0_2.read (Elt F) (VO0_2.writes (Elt F) VO0_2.junk (kernelRun0_C c i arg2 harg2 arg3 harg3 arg4 harg4 arg5 harg5 arg6 harg6 hc0 hc1 x0 xs0 xs1).2.1)

/-- What an output window's buffer is said to hold at a point that does not store into it (nothing consults it:
    the window is idle there and not written back). -/
def idleO0_1 : Vec F S1x256x256 .f32 := VO0_1.read (Elt F) (VO0_1.writes (Elt F) VO0_1.junk [])
def idleO0_2 : Vec F S1x256x1 .f32 := VO0_2.read (Elt F) (VO0_2.writes (Elt F) VO0_2.junk [])

/-- THE ACCUMULATION: the two output windows' buffers and the two accumulators after the body at position `n`,
    by recursion on the position: at the first block of a half from zero, otherwise from what the position before left. -/
def outsAt0 (c : Dev nD) : (n : ℕ) → n < cfg0.N → Vec F S1x256x256 .f32 × Vec F S1x256x1 .f32 × Vec F S256x256 .f32 × Vec F S256x1 .f32
  | 0, hn => (idleO0_1, idleO0_2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 8 = 0 then
      if h1 : (n + 1) % 8 = 7 then
        False.elim (by omega)
      else
        (idleO0_1, idleO0_2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 8 = 7 then
        (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
      else
        (idleO0_1, idleO0_2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 V c t.val t.isLt = (idleO0_1, idleO0_2, sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idleO0_1, idleO0_2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`: before the first point, whatever the launch hands over; afterwards
    the two accumulators at what the point before left, the other scoped buffers, the generator register. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ others0 (F := F) c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ others0 (F := F) c) ∗ (∃ r, prngReg c r)) := by
  cases n with
  | zero => exact absurd rfl hz
  | succ n => rfl

/-- The launch's proof data on core `c`: the arrays as the launch finds them; after the body at point `t` the input's
    buffer at its block and the outputs' at the accumulation's components; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
/-- The body at any point: the closed forms say which of the three cases the point is in; the invariant hands the
    body the accumulators at what the point before left (at anything at the very first point) and takes them back
    at this point's contents; an output window the case does not store into is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h1 : t.val % 8 = 7
  · have h0 : ¬t.val % 8 = 0 := by omega
    have hz : t.val ≠ 0 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t ((hcond0_1 t).mpr h1)], after0_1]
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C_1 out0_C_2 sout0_C_0 sout0_C_1; (try dsimp only)
    rw [PhiS0_castSucc V c t, PhiS0_pos V c _ _ hz]
    iintro ⟨⟨⟨⟨HS0, HS1⟩, HR⟩, Hg⟩, Ho, ⟨%d0, H0⟩, ⟨%d1, H1⟩, ⟨%d2, H2⟩⟩
    iapply ((kernelRun0_C c (grid0.coords t) _ _ _ _ _ _ _ _ _ _ (fun h => h0 ((hcond0_0 t).mp h)) ((hcond0_1 t).mpr h1) (iblk0 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _)
        iexact HR
      iexact Hg
    isplitl [Ho]; · iexact Ho
    isplitl [H0]; · iexact H0
    isplitl [H1]
    · unfold owns; iexists _; isplitr
      swap; · iexact H1
      ipureintro; exact View.read_writes_of_cover _ _ _ _ _ (cover0_C_1 c _ _ _ _ _ _ _ _ _ _ _ _ _ _ _ _)
    unfold owns; iexists _; isplitr
    swap; · iexact H2
    ipureintro; exact View.read_writes_of_cover _ _ _ _ _ (cover0_C_2 c _ _ _ _ _ _ _ _ _ _ _ _ _ _ _ _)
  · rw [show (dat0 V c).leavesExact 0 t = owns (c : Thread nD τ) (ms0_0 t) fullShare ((dat0 V c).after 0 t) from by
      unfold Dat.leavesExact; rw [liveAt0_0 t], after0_0]
    rw [Dat.leavesExact_idle (dat0 V c) 1 t (idleAt0_1 t (fun h => h1 ((hcond0_1 t).mp h))) (noFlush0_1 t (fun h => h1 ((hcond0_1 t).mp h)))]
    rw [Dat.leavesExact_idle (dat0 V c) 2 t (idleAt0_2 t (fun h => h1 ((hcond0_1 t).mp h))) (noFlush0_2 t (fun h => h1 ((hcond0_1 t).mp h)))]
    by_cases h0 : t.val % 8 = 0
    · rw [outsAt0_A V c t h0 h1]
      unfold sout0_A_0 sout0_A_1; (try dsimp only)
      by_cases hz : t.val = 0
      · rw [PhiS0_castSucc V c t, PhiS0_zero V c _ _ hz, PhiA0_eq]
        iintro ⟨⟨⟨⟨HS0, HS1⟩, HR⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t)).2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ )
              · unfold owns; iexists _; isplitr
                swap; · iexact HS1
                ipureintro; exact View.read_writes_of_cover _ _ _ _ _ (scover0_A_1 c _ _ _ _ _ _ _ _ _ _ _ _ _ _ )
            iexact HR
          iexact Hg
        isplitl [Ho]; · iexact Ho
        isplitl [H0]; · iexact H0
        isplitl [H1]; · iexists _; iexact H1
        iexists _; iexact H2
      · rw [PhiS0_castSucc V c t, PhiS0_pos V c _ _ hz]
        iintro ⟨⟨⟨⟨HS0, HS1⟩, HR⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t)).2.2 _ _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ )
              · unfold owns; iexists _; isplitr
                swap; · iexact HS1
                ipureintro; exact View.read_writes_of_cover _ _ _ _ _ (scover0_A_1 c _ _ _ _ _ _ _ _ _ _ _ _ _ _ )
            iexact HR
          iexact Hg
        isplitl [Ho]; · iexact Ho
        isplitl [H0]; · iexact H0
        isplitl [H1]; · iexists _; iexact H1
        iexists _; iexact H2
    · have hz : t.val ≠ 0 := fun hz => h0 (by rw [hz])
      rw [outsAt0_B V c t h0 h1]
      unfold sout0_B_0 sout0_B_1; (try dsimp only)
      rw [PhiS0_castSucc V c t, PhiS0_pos V c _ _ hz]
      iintro ⟨⟨⟨⟨HS0, HS1⟩, HR⟩, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) (fun h => h1 ((hcond0_1 t).mp h)) (iblk0 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _)
          iexact HR
        iexact Hg
      isplitl [Ho]; · iexact Ho
      isplitl [H0]; · iexact H0
      isplitl [H1]; · iexists _; iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the accumulators' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Cert.KernelIdeal.Fr

end
-- ==== Proof.IdealFrame.Base1.lean ====
/-
  One of the two Gram-matrix launches, seen from a single grid point: the grid is two halves of the contraction
  axis (the parallel axis) by 7 column blocks each. The body zeroes its two accumulators at the first block of a
  half, adds the block's contribution at every block, and copies the accumulators into the two output windows at
  the last block of the half. This module fixes the vocabulary: a window's block of the array as the launch
  finds it, the two branch conditions in closed form over the grid, where the output windows are idle, and the
  launch's invariant split into the two accumulators and everything else the core holds scoped.
-/
import proofs.«100626_j61667140436172_2_alg».proof.Proof.Gen.KernelIdeal.Launch
import proofs.«100626_j61667140436172_2_alg».proof.Proof.Gen.KernelIdeal.Skeleton
import proofs.«100626_j61667140436172_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- "This is the first column block of its half": the body's first branch condition. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 7 = 0 :=
  (by decide +kernel : ∀ t : Fin grid1.N, cond1_0 (grid1.coords t) ↔ t.val % 7 = 0)

/-- "This is the last column block of its half": the body's second branch condition. -/
abbrev cond1_1 (i : grid1.Coords) : Prop := k1_cond2 i = 1#1
theorem hcond1_1 : ∀ t : Fin cfg1.N, cond1_1 (grid1.coords t) ↔ t.val % 7 = 6 :=
  (by decide +kernel : ∀ t : Fin grid1.N, cond1_1 (grid1.coords t) ↔ t.val % 7 = 6)

/-- The input window is never idle. -/
theorem liveAt1_0 : ∀ t : Fin cfg1.N, cfg1.idle 0 (grid1.coords t) = false := by decide +kernel
/-- Away from the last block of a half both output windows are idle and not written back. -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last block of a half both are live. -/
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-- One staging buffer of each output window, through which its contents are stated. -/
abbrev VO1_1 : View sig .tc .vmem S1x256x256 .f32 := (Memref.whole cc1_stg1_0 : Memref sig .tc .vmem S1x256x256 .f32).view
abbrev VO1_2 : View sig .tc .vmem S1x256x1 .f32 := (Memref.whole cc1_stg2_0 : Memref sig .tc .vmem S1x256x1 .f32).view
/-- Each window's current staging memref at point `t`, and its wholeness. -/
abbrev ms1_0 (t : Fin cfg1.N) : Memref sig .tc .vmem S256x2816 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1 .f32 := win1_2.stage (cfg1.slots t 2)
abbrev hs1_2 (t : Fin cfg1.N) : (ms1_2 t).IsWhole := hstage1_2 ((cfg1.slots t 2).cast nbuf1_2)
/-- The two accumulators: whole scoped buffers of the kernel's own. -/
abbrev scM1_0 : Memref sig .tc .vmem S256x256 .f32 := Memref.whole cc1_scratch0
abbrev scM1_1 : Memref sig .tc .vmem S256x1 .f32 := Memref.whole cc1_scratch1
abbrev VS1_0 : View sig .tc .vmem S256x256 .f32 := scM1_0.view
abbrev VS1_1 : View sig .tc .vmem S256x1 .f32 := scM1_1.view

/-- Everything the core holds scoped that is neither a staging buffer of this launch nor one of its two accumulators. -/
abbrev others1 (c : Dev nD) : sProp 𝕄 :=
  Pipeline.scopedRestBut (Ix := Unit) (Name := ℕ) (U := UR sig nD τ) (Lvl := ℕ) (Val := Elt F) spec1 c [cc1_scratch0, cc1_scratch1]

/-- The launch's invariant: the two accumulators at some contents, the other scoped buffers, the generator register. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ others1 (F := F) c) ∗ (∃ r, prngReg c r)) := by
  unfold Pipeline.ΦA
  rw [Pipeline.scopedRest_split_of_list spec1 c [cc1_scratch0, cc1_scratch1] (by decide) (by decide)]
  simp only [scM1_0, scM1_1, owns_whole]; try rfl

end Cert.KernelIdeal.Fr

end
-- ==== Proof.IdealFrame.RunA1.lean ====
/-
  The body at the FIRST column block of a half: both accumulators are overwritten with zeros and then with
  zero plus this block's contribution; the output windows are not touched. What the two accumulators end with
  is found by running the body symbolically.
-/
import proofs.«100626_j61667140436172_2_alg».proof.Proof.IdealFrame.Base1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulators at the first block of a half (last store first),
    with the proof that the body runs from the input window at its block, the output windows at anything they hold
    (handed back untouched) and the accumulators at anything, to those pieces written. -/
noncomputable def kernelRun1_A (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond1_0 i) (hc1 : ¬cond1_1 i)
    (x0 : Vec F S256x2816 .f32) :
    Σ' (LS0 : List (View.Piece (Elt F) S256x256 .f32)), { LS1 : List (View.Piece (Elt F) S256x1 .f32) //
      ∀ (xi1 : Vec F S1x256x256 .f32) (xi2 : Vec F S1x256x1 .f32) (E : Set ℕ) (K : PUnit → sProp 𝕄),
        iprop(owns (c : Thread nD τ) arg2 fullShare x0 ∗ owns (c : Thread nD τ) arg3 fullShare xi1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__gram_kernel i arg2 harg2 arg3 harg3 arg4 harg4 arg5 harg5 arg6 harg6) K } := by
  refine ⟨?_, ?_, fun xi1 xi2 E K => ?run⟩
  case run =>
    simp only [cc1__gram_kernel_eq_skeleton]; unfold cc1__gram_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Fr

end
-- ==== Proof.IdealFrame.RunB1.lean ====
/-
  The body at a MIDDLE column block of a half: each accumulator is overwritten with what it held plus this
  block's contribution; the output windows are not touched.
-/
import proofs.«100626_j61667140436172_2_alg».proof.Proof.IdealFrame.RunA1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulators at a middle block, with the proof that the body
    runs from the input window at its block, the output windows at what they hold (handed back untouched) and the
    accumulators at what the block before left, to those pieces written. -/
noncomputable def kernelRun1_B (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : ¬cond1_1 i)
    (x0 : Vec F S256x2816 .f32) (xs0 : Vec F S256x256 .f32) (xs1 : Vec F S256x1 .f32) :
    Σ' (LS0 : List (View.Piece (Elt F) S256x256 .f32)), { LS1 : List (View.Piece (Elt F) S256x1 .f32) //
      ∀ (xi1 : Vec F S1x256x256 .f32) (xi2 : Vec F S1x256x1 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__gram_kernel i arg2 harg2 arg3 harg3 arg4 harg4 arg5 harg5 arg6 harg6) K } := by
  refine ⟨?_, ?_, fun xi1 xi2 E K => ?run⟩
  case run =>
    simp only [cc1__gram_kernel_eq_skeleton]; unfold cc1__gram_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Fr

end
-- ==== Proof.IdealFrame.RunC1.lean ====
/-
  The body at the LAST column block of a half: each accumulator is overwritten with what it held plus this
  block's contribution, and then copied whole into its output window.
-/
import proofs.«100626_j61667140436172_2_alg».proof.Proof.IdealFrame.RunB1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output windows and the two accumulators at the last block of a
    half, with the proof that the body runs from the input window at its block, the output windows at anything and
    the accumulators at what the block before left, to those pieces written. -/
noncomputable def kernelRun1_C (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) :
    Σ' (L1 : List (View.Piece (Elt F) S1x256x256 .f32)) (L2 : List (View.Piece (Elt F) S1x256x1 .f32)) (LS0 : List (View.Piece (Elt F) S256x256 .f32)), { LS1 : List (View.Piece (Elt F) S256x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__gram_kernel i arg2 harg2 arg3 harg3 arg4 harg4 arg5 harg5 arg6 harg6) K } := by
  refine ⟨?_, ?_, ?_, ?_, fun E K => ?run⟩
  case run =>
    simp only [cc1__gram_kernel_eq_skeleton]; unfold cc1__gram_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Cert.KernelIdeal.Fr

end
-- ==== Proof.IdealFrame.Frame1.lean ====
/-
  One Gram-matrix launch, point by point. After the point at position n of the grid (a half p = n / 7, a column
  block k = n % 7) the Gram accumulator holds the sum of the contributions of the blocks 0 … k of half p, started
  from zero at k = 0, and the squared-length accumulator likewise; at k = 6 both are copied into the output
  windows, which are written back to slab p of the two results. This module states that as a recursion over the
  points, makes it the launch's proof data (the accumulators ride in the invariant between points), and proves the
  body's obligation at every point from the three whole-body runs.
-/
import proofs.«100626_j61667140436172_2_alg».proof.Proof.IdealFrame.RunC1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A: the pieces for the Gram accumulator tile it, so they cover it. -/
theorem scover1_A_0 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond1_0 i) (hc1 : ¬cond1_1 i)
    (x0 : Vec F S256x2816 .f32) (y : S256x256.Idx) :
    ∃ pc ∈ (kernelRun1_A c i arg2 harg2 arg3 harg3 arg4 harg4 arg5 harg5 arg6 harg6 hc0 hc1 x0).1, y ∈ pc.1.set :=
  View.cover_of_tiledL (kernelRun1_A c i arg2 harg2 arg3 harg3 arg4 harg4 arg5 harg5 arg6 harg6 hc0 hc1 x0).1 S256x256.size (by sl_kernel_rfl) y

/-- Case A: what the body leaves in the Gram accumulator, its pieces read back. -/
def sout1_A_0 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond1_0 i) (hc1 : ¬cond1_1 i)
    (x0 : Vec F S256x2816 .f32) : Vec F S256x256 .f32 :=
  VS1_0.read (Elt F) (VS1_0.writes (Elt F) VS1_0.junk (kernelRun1_A c i arg2 harg2 arg3 harg3 arg4 harg4 arg5 harg5 arg6 harg6 hc0 hc1 x0).1)

/-- Case A: the pieces for the squared-length accumulator tile it, so they cover it. -/
theorem scover1_A_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond1_0 i) (hc1 : ¬cond1_1 i)
    (x0 : Vec F S256x2816 .f32) (y : S256x1.Idx) :
    ∃ pc ∈ (kernelRun1_A c i arg2 harg2 arg3 harg3 arg4 harg4 arg5 harg5 arg6 harg6 hc0 hc1 x0).2.1, y ∈ pc.1.set :=
  View.cover_of_tiledL (kernelRun1_A c i arg2 harg2 arg3 harg3 arg4 harg4 arg5 harg5 arg6 harg6 hc0 hc1 x0).2.1 S256x1.size (by sl_kernel_rfl) y

/-- Case A: what the body leaves in the squared-length accumulator, its pieces read back. -/
def sout1_A_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond1_0 i) (hc1 : ¬cond1_1 i)
    (x0 : Vec F S256x2816 .f32) : Vec F S256x1 .f32 :=
  VS1_1.read (Elt F) (VS1_1.writes (Elt F) VS1_1.junk (kernelRun1_A c i arg2 harg2 arg3 harg3 arg4 harg4 arg5 harg5 arg6 harg6 hc0 hc1 x0).2.1)

/-- Case B: the pieces for the Gram accumulator tile it, so they cover it. -/
theorem scover1_B_0 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : ¬cond1_1 i)
    (x0 : Vec F S256x2816 .f32) (xs0 : Vec F S256x256 .f32) (xs1 : Vec F S256x1 .f32) (y : S256x256.Idx) :
    ∃ pc ∈ (kernelRun1_B c i arg2 harg2 arg3 harg3 arg4 harg4 arg5 harg5 arg6 harg6 hc0 hc1 x0 xs0 xs1).1, y ∈ pc.1.set :=
  View.cover_of_tiledL (kernelRun1_B c i arg2 harg2 arg3 harg3 arg4 harg4 arg5 harg5 arg6 harg6 hc0 hc1 x0 xs0 xs1).1 S256x256.size (by sl_kernel_rfl) y

/-- Case B: what the body leaves in the Gram accumulator, its pieces read back. -/
def sout1_B_0 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : ¬cond1_1 i)
    (x0 : Vec F S256x2816 .f32) (xs0 : Vec F S256x256 .f32) (xs1 : Vec F S256x1 .f32) : Vec F S256x256 .f32 :=
  VS1_0.read (Elt F) (VS1_0.writes (Elt F) VS1_0.junk (kernelRun1_B c i arg2 harg2 arg3 harg3 arg4 harg4 arg5 harg5 arg6 harg6 hc0 hc1 x0 xs0 xs1).1)

/-- Case B: the pieces for the squared-length accumulator tile it, so they cover it. -/
theorem scover1_B_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : ¬cond1_1 i)
    (x0 : Vec F S256x2816 .f32) (xs0 : Vec F S256x256 .f32) (xs1 : Vec F S256x1 .f32) (y : S256x1.Idx) :
    ∃ pc ∈ (kernelRun1_B c i arg2 harg2 arg3 harg3 arg4 harg4 arg5 harg5 arg6 harg6 hc0 hc1 x0 xs0 xs1).2.1, y ∈ pc.1.set :=
  View.cover_of_tiledL (kernelRun1_B c i arg2 harg2 arg3 harg3 arg4 harg4 arg5 harg5 arg6 harg6 hc0 hc1 x0 xs0 xs1).2.1 S256x1.size (by sl_kernel_rfl) y

/-- Case B: what the body leaves in the squared-length accumulator, its pieces read back. -/
def sout1_B_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : ¬cond1_1 i)
    (x0 : Vec F S256x2816 .f32) (xs0 : Vec F S256x256 .f32) (xs1 : Vec F S256x1 .f32) : Vec F S256x1 .f32 :=
  VS1_1.read (Elt F) (VS1_1.writes (Elt F) VS1_1.junk (kernelRun1_B c i arg2 harg2 arg3 harg3 arg4 harg4 arg5 harg5 arg6 harg6 hc0 hc1 x0 xs0 xs1).2.1)

/-- Case C: the pieces for the Gram accumulator tile it, so they cover it. -/
theorem scover1_C_0 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) (y : S256x256.Idx) :
    ∃ pc ∈ (kernelRun1_C c i arg2 harg2 arg3 harg3 arg4 harg4 arg5 harg5 arg6 harg6 hc0 hc1 x0 xs0 xs1).2.2.1, y ∈ pc.1.set :=
  View.cover_of_tiledL (kernelRun1_C c i arg2 harg2 arg3 harg3 arg4 harg4 arg5 harg5 arg6 harg6 hc0 hc1 x0 xs0 xs1).2.2.1 S256x256.size (by sl_kernel_rfl) y

/-- Case C: what the body leaves in the Gram accumulator, its pieces read back. -/
def sout1_C_0 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) : Vec F S256x256 .f32 :=
  VS1_0.read (Elt F) (VS1_0.writes (Elt F) VS1_0.junk (kernelRun1_C c i arg2 harg2 arg3 harg3 arg4 harg4 arg5 harg5 arg6 harg6 hc0 hc1 x0 xs0 xs1).2.2.1)

/-- Case C: the pieces for the squared-length accumulator tile it, so they cover it. -/
theorem scover1_C_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) (y : S256x1.Idx) :
    ∃ pc ∈ (kernelRun1_C c i arg2 harg2 arg3 harg3 arg4 harg4 arg5 harg5 arg6 harg6 hc0 hc1 x0 xs0 xs1).2.2.2.1, y ∈ pc.1.set :=
  View.cover_of_tiledL (kernelRun1_C c i arg2 harg2 arg3 harg3 arg4 harg4 arg5 harg5 arg6 harg6 hc0 hc1 x0 xs0 xs1).2.2.2.1 S256x1.size (by sl_kernel_rfl) y

/-- Case C: what the body leaves in the squared-length accumulator, its pieces read back. -/
def sout1_C_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) : Vec F S256x1 .f32 :=
  VS1_1.read (Elt F) (VS1_1.writes (Elt F) VS1_1.junk (kernelRun1_C c i arg2 harg2 arg3 harg3 arg4 harg4 arg5 harg5 arg6 harg6 hc0 hc1 x0 xs0 xs1).2.2.2.1)

/-- Case C: the pieces for the Gram output window tile it, so they cover it. -/
theorem cover1_C_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) (y : S1x256x256.Idx) :
    ∃ pc ∈ (kernelRun1_C c i arg2 harg2 arg3 harg3 arg4 harg4 arg5 harg5 arg6 harg6 hc0 hc1 x0 xs0 xs1).1, y ∈ pc.1.set :=
  View.cover_of_tiledL (kernelRun1_C c i arg2 harg2 arg3 harg3 arg4 harg4 arg5 harg5 arg6 harg6 hc0 hc1 x0 xs0 xs1).1 S1x256x256.size (by sl_kernel_rfl) y

/-- Case C: what the body leaves in the Gram output window, its pieces read back. -/
def out1_C_1 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) : Vec F S1x256x256 .f32 :=
  VO1_1.read (Elt F) (VO1_1.writes (Elt F) VO1_1.junk (kernelRun1_C c i arg2 harg2 arg3 harg3 arg4 harg4 arg5 harg5 arg6 harg6 hc0 hc1 x0 xs0 xs1).1)

/-- Case C: the pieces for the squared-length output window tile it, so they cover it. -/
theorem cover1_C_2 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) (y : S1x256x1.Idx) :
    ∃ pc ∈ (kernelRun1_C c i arg2 harg2 arg3 harg3 arg4 harg4 arg5 harg5 arg6 harg6 hc0 hc1 x0 xs0 xs1).2.1, y ∈ pc.1.set :=
  View.cover_of_tiledL (kernelRun1_C c i arg2 harg2 arg3 harg3 arg4 harg4 arg5 harg5 arg6 harg6 hc0 hc1 x0 xs0 xs1).2.1 S1x256x1.size (by sl_kernel_rfl) y

/-- Case C: what the body leaves in the squared-length output window, its pieces read back. -/
def out1_C_2 (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) : Vec F S1x256x1 .f32 :=
  VO1_2.read (Elt F) (VO1_2.writes (Elt F) VO1_2.junk (kernelRun1_C c i arg2 harg2 arg3 harg3 arg4 harg4 arg5 harg5 arg6 harg6 hc0 hc1 x0 xs0 xs1).2.1)

/-- What an output window's buffer is said to hold at a point that does not store into it (nothing consults it:
    the window is idle there and not written back). -/
def idleO1_1 : Vec F S1x256x256 .f32 := VO1_1.read (Elt F) (VO1_1.writes (Elt F) VO1_1.junk [])
def idleO1_2 : Vec F S1x256x1 .f32 := VO1_2.read (Elt F) (VO1_2.writes (Elt F) VO1_2.junk [])

/-- THE ACCUMULATION: the two output windows' buffers and the two accumulators after the body at position `n`,
    by recursion on the position: at the first block of a half from zero, otherwise from what the position before left. -/
def outsAt1 (c : Dev nD) : (n : ℕ) → n < cfg1.N → Vec F S1x256x256 .f32 × Vec F S1x256x1 .f32 × Vec F S256x256 .f32 × Vec F S256x1 .f32
  | 0, hn => (idleO1_1, idleO1_2, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 7 = 0 then
      if h1 : (n + 1) % 7 = 6 then
        False.elim (by omega)
      else
        (idleO1_1, idleO1_2, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 7 = 6 then
        (out1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2)
      else
        (idleO1_1, idleO1_2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2)

theorem outsAt1_A (c : Dev nD) (t : Fin cfg1.N) (h0 : t.val % 7 = 0) (h1 : ¬t.val % 7 = 6) :
    outsAt1 V c t.val t.isLt = (idleO1_1, idleO1_2, sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

theorem outsAt1_B (c : Dev nD) (t : Fin cfg1.N) (h0 : ¬t.val % 7 = 0) (h1 : ¬t.val % 7 = 6) :
    outsAt1 V c t.val t.isLt = (idleO1_1, idleO1_2, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 7 = 0) (h1 : t.val % 7 = 6) :
    outsAt1 V c t.val t.isLt = (out1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`: before the first point, whatever the launch hands over; afterwards
    the two accumulators at what the point before left, the other scoped buffers, the generator register. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ others1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ others1 (F := F) c) ∗ (∃ r, prngReg c r)) := by
  cases n with
  | zero => exact absurd rfl hz
  | succ n => rfl

/-- The launch's proof data on core `c`: the arrays as the launch finds them; after the body at point `t` the input's
    buffer at its block and the outputs' at the accumulation's components; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point: the closed forms say which of the three cases the point is in; the invariant hands the
    body the accumulators at what the point before left (at anything at the very first point) and takes them back
    at this point's contents; an output window the case does not store into is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 14 := lt_of_lt_of_eq t.isLt (show cfg1.N = 14 from N_1)
  by_cases h1 : t.val % 7 = 6
  · have h0 : ¬t.val % 7 = 0 := by omega
    have hz : t.val ≠ 0 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t ((hcond1_1 t).mpr h1)], after1_1]
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold out1_C_1 out1_C_2 sout1_C_0 sout1_C_1; (try dsimp only)
    rw [PhiS1_castSucc V c t, PhiS1_pos V c _ _ hz]
    iintro ⟨⟨⟨⟨HS0, HS1⟩, HR⟩, Hg⟩, Ho, ⟨%d0, H0⟩, ⟨%d1, H1⟩, ⟨%d2, H2⟩⟩
    iapply ((kernelRun1_C c (grid1.coords t) _ _ _ _ _ _ _ _ _ _ (fun h => h0 ((hcond1_0 t).mp h)) ((hcond1_1 t).mpr h1) (iblk1 V c 0 t) _ _).2.2.2.2 Set.univ _)
    isplitl [H0]; · iexact H0
    isplitl [H1]; · iexists _; iexact H1
    isplitl [H2]; · iexists _; iexact H2
    isplitl [HS0]; · iexact HS0
    isplitl [HS1]; · iexact HS1
    iintro ⟨H0, ⟨%e1, H1⟩, ⟨%e2, H2⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_C_0 c _ _ _ _ _ _ _ _ _ _ _ _ _ _ _ _)
          · unfold owns; iexists _; isplitr
            swap; · iexact HS1
            ipureintro; exact View.read_writes_of_cover _ _ _ _ _ (scover1_C_1 c _ _ _ _ _ _ _ _ _ _ _ _ _ _ _ _)
        iexact HR
      iexact Hg
    isplitl [Ho]; · iexact Ho
    isplitl [H0]; · iexact H0
    isplitl [H1]
    · unfold owns; iexists _; isplitr
      swap; · iexact H1
      ipureintro; exact View.read_writes_of_cover _ _ _ _ _ (cover1_C_1 c _ _ _ _ _ _ _ _ _ _ _ _ _ _ _ _)
    unfold owns; iexists _; isplitr
    swap; · iexact H2
    ipureintro; exact View.read_writes_of_cover _ _ _ _ _ (cover1_C_2 c _ _ _ _ _ _ _ _ _ _ _ _ _ _ _ _)
  · rw [show (dat1 V c).leavesExact 0 t = owns (c : Thread nD τ) (ms1_0 t) fullShare ((dat1 V c).after 0 t) from by
      unfold Dat.leavesExact; rw [liveAt1_0 t], after1_0]
    rw [Dat.leavesExact_idle (dat1 V c) 1 t (idleAt1_1 t (fun h => h1 ((hcond1_1 t).mp h))) (noFlush1_1 t (fun h => h1 ((hcond1_1 t).mp h)))]
    rw [Dat.leavesExact_idle (dat1 V c) 2 t (idleAt1_2 t (fun h => h1 ((hcond1_1 t).mp h))) (noFlush1_2 t (fun h => h1 ((hcond1_1 t).mp h)))]
    by_cases h0 : t.val % 7 = 0
    · rw [outsAt1_A V c t h0 h1]
      unfold sout1_A_0 sout1_A_1; (try dsimp only)
      by_cases hz : t.val = 0
      · rw [PhiS1_castSucc V c t, PhiS1_zero V c _ _ hz, PhiA1_eq]
        iintro ⟨⟨⟨⟨HS0, HS1⟩, HR⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t)).2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ )
              · unfold owns; iexists _; isplitr
                swap; · iexact HS1
                ipureintro; exact View.read_writes_of_cover _ _ _ _ _ (scover1_A_1 c _ _ _ _ _ _ _ _ _ _ _ _ _ _ )
            iexact HR
          iexact Hg
        isplitl [Ho]; · iexact Ho
        isplitl [H0]; · iexact H0
        isplitl [H1]; · iexists _; iexact H1
        iexists _; iexact H2
      · rw [PhiS1_castSucc V c t, PhiS1_pos V c _ _ hz]
        iintro ⟨⟨⟨⟨HS0, HS1⟩, HR⟩, Hg⟩, Ho, ⟨%d0, H0⟩, ⟨%d1, H1⟩, ⟨%d2, H2⟩⟩
        iapply ((kernelRun1_A c (grid1.coords t) _ _ _ _ _ _ _ _ _ _ ((hcond1_0 t).mpr h0) (fun h => h1 ((hcond1_1 t).mp h)) (iblk1 V c 0 t)).2.2 _ _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ )
              · unfold owns; iexists _; isplitr
                swap; · iexact HS1
                ipureintro; exact View.read_writes_of_cover _ _ _ _ _ (scover1_A_1 c _ _ _ _ _ _ _ _ _ _ _ _ _ _ )
            iexact HR
          iexact Hg
        isplitl [Ho]; · iexact Ho
        isplitl [H0]; · iexact H0
        isplitl [H1]; · iexists _; iexact H1
        iexists _; iexact H2
    · have hz : t.val ≠ 0 := fun hz => h0 (by rw [hz])
      rw [outsAt1_B V c t h0 h1]
      unfold sout1_B_0 sout1_B_1; (try dsimp only)
      rw [PhiS1_castSucc V c t, PhiS1_pos V c _ _ hz]
      iintro ⟨⟨⟨⟨HS0, HS1⟩, HR⟩, Hg⟩, Ho, ⟨%d0, H0⟩, ⟨%d1, H1⟩, ⟨%d2, H2⟩⟩
      iapply ((kernelRun1_B c (grid1.coords t) _ _ _ _ _ _ _ _ _ _ (fun h => h0 ((hcond1_0 t).mp h)) (fun h => h1 ((hcond1_1 t).mp h)) (iblk1 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _)
          iexact HR
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulators' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 14 := N_1; omega), PhiA1_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Cert.KernelIdeal.Fr

end
-- ==== Proof.IdealFrame.Whole.lean ====
/-
  The whole program as a run: three reshapes, the first Gram launch, five host operations, the second Gram launch,
  and the seventy-three host operations that turn the two Gram matrices into the divergence. The contents of the
  core's buffers at every boundary are a fold through these pieces from the memory at launch; each launch is entered
  with its arrays at the boundary's contents and left with its two results at what its write-backs leave; every
  other buffer passes by. The run ends with every unscoped buffer at the last boundary's contents, and the three
  argument arrays, which nothing writes, read back through the fold to what they held at launch.
-/
import proofs.«100626_j61667140436172_2_alg».proof.Proof.IdealFrame.Frame0
import proofs.«100626_j61667140436172_2_alg».proof.Proof.IdealFrame.Frame1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the three reshapes: where the first launch is entered. -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b
/-- Where the first launch is left: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the five host operations between the launches: where the second launch is entered. -/
abbrev W3 : Dev nD → Valuation τ sig (Elt F) := fun c => StableHlo.after main_part0_ops1 (W2 m ρ c)
abbrev V3 : (c : Dev nD) → (b : Ref sig .tc) → Buf (Elt F) ((c : Thread nD τ).loc b) := fun c b => W3 m ρ c b
/-- Where the second launch is left. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the first fifty of the closing host operations, and after all of them. -/
abbrev W5 : Dev nD → Valuation τ sig (Elt F) := fun c => StableHlo.after main_part0_ops2 (W4 m ρ c)
abbrev W6 : Dev nD → Valuation τ sig (Elt F) := fun c => StableHlo.after main_part1_ops0 (W5 m ρ c)

/-! ### The arguments end as launched: no host operation writes one and no launch has one among its arrays -/
set_option maxHeartbeats 4000000

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [main_part0_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [main_part0_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [main_part0_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [main_part0_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := StableHlo.after_of_forall_not_mem (b := Proc.devRef .tc main_arg2) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [main_part0_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [main_part0_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

set_option maxHeartbeats 200000

/-! ## The proof data family and the thread state -/

abbrev adm : (p : Fin 2) → (pcfgs (F := F) p).Adm := fun p => (cfgs p).toPCfg_adm
/-- Both launches' proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every piece: the generator register at some state and the core owing nothing. -/
abbrev R (c : Dev nD) : sProp 𝕄 := iprop((∃ r, prngReg c r) ∗ ∃ W, owes (c : Thread nD τ) (0 : CellTallies nD τ sig Unit) W)
/-- A stretch of host operations as a piece of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register. -/
abbrev Tₙ (c : Dev nD) : sProp 𝕄 := iprop(StableHlo.held (c : Thread nD τ) (Pipeline.ucRefs τ sig) (W6 m ρ c) ∗ ∃ r, prngReg c r)

/-! ## The launches as pieces of the run -/

set_option backward.isDefEq.respectTransparency.types false in
/-- Launch 0 over the thread state: entered with every unscoped buffer at the boundary's contents, left with the
    launch's arrays at what its write-backs leave and every other buffer as entered. Its arrays are split out of
    the unscoped buffers and put back; the generator register goes into the launch's invariant and comes out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at the boundary's contents, left with the
    launch's arrays at what its write-backs leave and every other buffer as entered. Its arrays are split out of
    the unscoped buffers and put back; the generator register goes into the launch's invariant and comes out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its pieces, and the run -/

abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .region (reg1 m ρ),
    .host (hseg main_part0_ops2 main_part0_ops2_sub main_part0_ops2_fresh (W4 m ρ)),
    .host (hseg main_part1_ops0 main_part1_ops0_sub main_part1_ops0_fresh (W5 m ρ)) ]

set_option maxHeartbeats 4000000 in
theorem main_run (c : Dev nD) : main (F := F) c = Pipeline.Seg.run (segs m ρ) := (main_chain_windows c).trans (by chain_rfl)

set_option maxHeartbeats 4000000 in
set_option backward.isDefEq.respectTransparency.types false in
/-- THE RUN: from any memory with zero counters every weakly fair execution of the program on the core terminates,
    nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => (show iprop(StableHlo.held (c : Thread nD τ) (Pipeline.ucRefs τ sig) (W6 m ρ c) ∗ (∃ r, prngReg c r) ∗ ∃ W, owes (c : Thread nD τ) (0 : CellTallies nD τ sig Unit) W)
          ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.KernelIdeal.Fr

end
-- ==== Proof.Tail.lean ====
/-
  The chain both programs apply to the same two quantities. From the squared row lengths `sq` and the Gram
  matrix `g` of a 256-row matrix, and a temperature `t0`:
    d(i, j)   = sqrt (max (sq i + sq j - 2 * g(i, j), 1e-12))      the Euclidean distance of rows i and j,
    l(i, j)   = - d(i, j) / t0                                      its logit,
    adj(i, j) = exp (l(i, j) - max_j' l(i, j')) / (sum over j' of exp (l(i, j') - max_j'' l(i, j'')))
  the row-wise softmax of the logits (`adj`). From two such matrices `af`, `ag`,
    kl = (sum over i, j of ag(i, j) * (log ag(i, j) - log af(i, j))) / 256,
  the Kullback–Leibler divergence of the rows of `ag` from those of `af`, averaged over the 256 rows (`kl`).
  `tail` is the two composed. Every operation is written as the reference program writes it, in its order, so
  that its composed result is this function of its two pairs (squared lengths, Gram matrix) by unfolding alone.
-/
import proofs.«100626_j61667140436172_2_alg».proof.ReferenceIdeal
import Idealize.ShloMosaic.PureOps.Ideal

noncomputable section

namespace Cert.Bridge

open Cert.ReferenceIdeal Idealize.ShloMosaic

variable [Cert.ReferenceIdeal.Facts]
open Cert.ReferenceIdeal.Facts₀

/-- The row-wise softmax of the negated, temperature-scaled Euclidean distances, from the squared row lengths
    `sq`, the Gram matrix `g` and the temperature `t0`. -/
noncomputable def adj (sq : FVec Ideal S256 .f32) (g : FVec Ideal S256x256 .f32) (t0 : FVec Ideal S_ .f32) :
    FVec Ideal S256x256 .f32 :=
  -- sq i, as a column and as a row, each spread over the square
  let v6 : FVec Ideal S256x1 .f32 := broadcastInDim S256x1 ![0] bcast_S256_S256x1_0 sq
  let v7 : FVec Ideal S1x256 .f32 := broadcastInDim S1x256 ![1] bcast_S256_S1x256_1 sq
  let v8 : FVec Ideal S256x256 .f32 := broadcastInDim S256x256 ![0, 1] bcast_S256x1_S256x256_0_1 v6
  let v9 : FVec Ideal S256x256 .f32 := broadcastInDim S256x256 ![0, 1] bcast_S1x256_S256x256_0_1 v7
  -- sq i + sq j - 2 * g (i, j)
  let v10 : FVec Ideal S256x256 .f32 := addf v8 v9
  let v11 : FVec Ideal S256x256 .f32 := broadcastInDim S256x256 ![] bcast_S_S256x256 (constant (F := Ideal) S_ .f32 0x40000000#32)
  let v12 : FVec Ideal S256x256 .f32 := mulf v11 g
  let v13 : FVec Ideal S256x256 .f32 := subf v10 v12
  -- its maximum with 1e-12, the square root, the sign, the quotient by the temperature
  let v14 : FVec Ideal S256x256 .f32 := broadcastInDim S256x256 ![] bcast_S_S256x256 (constant (F := Ideal) S_ .f32 0x2B8CBCCC#32)
  let v15 : FVec Ideal S256x256 .f32 := maximumf v13 v14
  let v16 : FVec Ideal S256x256 .f32 := Host.sqrt (F := Ideal) v15
  let v17 : FVec Ideal S256x256 .f32 := Host.negf (F := Ideal) v16
  let v18 : FVec Ideal S256x256 .f32 := broadcastInDim S256x256 ![] bcast_S_S256x256 t0
  let v19 : FVec Ideal S256x256 .f32 := Host.divf (F := Ideal) v17 v18
  -- each row's maximum (from minus infinity), spread back over the row, and subtracted
  let v20 : FVec Ideal S256 .f32 := Host.reduce (FloatOps.maximumf (F := Ideal) (φ := .f32)) v19 (constant (F := Ideal) S_ .f32 0xFF800000#32) reducesTo_S256x256_S256_d1 h_S_
  let v21 : FVec Ideal S256 .f32 := broadcastInDim S256 ![] bcast_S_S256 (constant (F := Ideal) S_ .f32 0xFF800000#32)
  let v22 : FVec Ideal S256 .f32 := maximumf v21 v20
  let v23 : FVec Ideal S256x1 .f32 := broadcastInDim S256x1 ![0] bcast_S256_S256x1_0 v22
  let v24 : FVec Ideal S256x256 .f32 := broadcastInDim S256x256 ![0, 1] bcast_S256x1_S256x256_0_1 v23
  let v25 : FVec Ideal S256x256 .f32 := subf v19 v24
  -- the exponential, each row's sum (from zero), spread back over the row, and the quotient
  let v26 : FVec Ideal S256x256 .f32 := Host.exp (F := Ideal) v25
  let v27 : FVec Ideal S256 .f32 := Host.reduceAdd (F := Ideal) v26 (constant (F := Ideal) S_ .f32 0x00000000#32) reducesTo_S256x256_S256_d1 h_S_
  let v28 : FVec Ideal S256x1 .f32 := broadcastInDim S256x1 ![0] bcast_S256_S256x1_0 v27
  let v29 : FVec Ideal S256x256 .f32 := broadcastInDim S256x256 ![0, 1] bcast_S256x1_S256x256_0_1 v28
  Host.divf (F := Ideal) v26 v29

/-- The Kullback–Leibler divergence of the rows of `ag` from the rows of `af`, summed over the whole square and
    divided by 256. -/
noncomputable def kl (af ag : FVec Ideal S256x256 .f32) : FVec Ideal S_ .f32 :=
  let v61 : FVec Ideal S256x256 .f32 := Host.log (F := Ideal) ag
  let v62 : FVec Ideal S256x256 .f32 := Host.log (F := Ideal) af
  let v63 : FVec Ideal S256x256 .f32 := subf v61 v62
  let v64 : FVec Ideal S256x256 .f32 := mulf ag v63
  let v65 : FVec Ideal S_ .f32 := Host.reduceAdd (F := Ideal) v64 (constant (F := Ideal) S_ .f32 0x00000000#32) reducesTo_S256x256_S_d0_1 h_S_
  Host.divf (F := Ideal) v65 (constant (F := Ideal) S_ .f32 0x43800000#32)

/-- The whole chain: the divergence of the second pair's softmax from the first pair's. -/
noncomputable def tail (sqf : FVec Ideal S256 .f32) (gf : FVec Ideal S256x256 .f32)
    (sqg : FVec Ideal S256 .f32) (gg : FVec Ideal S256x256 .f32) (t0 : FVec Ideal S_ .f32) : FVec Ideal S_ .f32 :=
  kl (adj sqf gf t0) (adj sqg gg t0)

end Cert.Bridge

end
-- ==== Proof.IdealValue.Halves.lean ====
/-
  The host's sums over the two halves. Each launch leaves two partial results, one slab per half of the
  contraction axis; the host adds the two slabs (a sum over the leading axis, started from zero). Read at an entry
  on the extended reals this is the plain sum of the two slabs' entries.
-/
import proofs.«100626_j61667140436172_2_alg».proof.Proof.Gen.KernelIdeal
import Idealize.ShloMosaic.PureOps.Ideal.Laws
import Idealize.ShloMosaic.Lib.ValueIdx
import Idealize.ShloMosaic.Lib.Pipeline.Value

noncomputable section

open scoped BigOperators

namespace Cert.KernelIdeal.Val

open Cert.KernelIdeal Cert.KernelIdeal.Gen
open Idealize.ShloMosaic Idealize.ShloMosaic.ValueIdx

/-- The two halves' partial Gram matrices added up (the host's sum over the leading axis, from zero). -/
def gramOf (a : FVec Ideal S2x256x256 .f32) : FVec Ideal S256x256 .f32 :=
  Host.reduceAdd (F := Ideal) a (constant (F := Ideal) S_ .f32 0x00000000#32) Gen.reducesTo_S2x256x256_S256x256_d0 Gen.h_S_

/-- The two halves' partial squared row lengths added up and laid out as a vector. -/
def sqOf (a : FVec Ideal S2x256x1 .f32) : FVec Ideal S256 .f32 :=
  shapeCast S256 (Host.reduceAdd (F := Ideal) a (constant (F := Ideal) S_ .f32 0x00000000#32) Gen.reducesTo_S2x256x1_S256x1_d0 Gen.h_S_) Gen.shapeCasts_S256x1_S256

/-- An entry of the summed Gram matrix is the sum of the two slabs' entries. -/
theorem gramOf_apply (a : FVec Ideal S2x256x256 .f32) (i i' : Fin 256) :
    gramOf a (ix2 i i') = ∑ p : Fin 2, a (ix3 p i i') := by
  unfold gramOf
  simp only [Host.reduceAdd, Ideal.hostReduceAdd_def]
  rw [Ideal.hostReduceAdd_single Gen.reducesTo_S2x256x256_S256x256_d0 (by decide)]
  rw [show (constant (F := Ideal) S_ .f32 0x00000000#32) (Shape.Idx.first Gen.h_S_) = Ideal.ofBits .f32 0x00000000#32 from rfl,
    Ideal.ofBits_zero_f32, zero_add]
  refine Finset.sum_congr rfl fun p _ => ?_
  exact congrArg a (funext fun d => Fin.ext (by match d with | ⟨0, _⟩ => rfl | ⟨1, _⟩ => rfl | ⟨2, _⟩ => rfl))

/-- An entry of the summed squared row lengths is the sum of the two slabs' entries. -/
theorem sqOf_apply (a : FVec Ideal S2x256x1 .f32) (i : Fin 256) :
    sqOf a (ix1 i) = ∑ p : Fin 2, a (ix3 p i (0 : Fin 1)) := by
  unfold sqOf
  rw [shapeCast_apply _ Gen.shapeCasts_S256x1_S256 (ix1 i) (ix2 i (0 : Fin 1)) (by
    rw [Shape.rowMajor_val_two, Shape.rowMajor_val_one]; show i.val * 1 + 0 = i.val; omega)]
  simp only [Host.reduceAdd, Ideal.hostReduceAdd_def]
  rw [Ideal.hostReduceAdd_single Gen.reducesTo_S2x256x1_S256x1_d0 (by decide)]
  rw [show (constant (F := Ideal) S_ .f32 0x00000000#32) (Shape.Idx.first Gen.h_S_) = Ideal.ofBits .f32 0x00000000#32 from rfl,
    Ideal.ofBits_zero_f32, zero_add]
  refine Finset.sum_congr rfl fun p _ => ?_
  exact congrArg a (funext fun d => Fin.ext (by match d with | ⟨0, _⟩ => rfl | ⟨1, _⟩ => rfl | ⟨2, _⟩ => rfl))

end Cert.KernelIdeal.Val

end
-- ==== Proof.IdealValue.HostChain.lean ====
/-
  The idealized kernel's result, read off the run's last boundary: the closing host operations are, one for one, the
  chain that the reference applies to its squared row lengths and Gram matrices, so the result is that one chain
  (`Cert.Bridge.tail`) applied to the two launches' result arrays, each summed over its two halves, and to the
  temperature. Nothing of the chain is opened.
-/
import proofs.«100626_j61667140436172_2_alg».proof.Proof.IdealFrame.Whole
import proofs.«100626_j61667140436172_2_alg».proof.Proof.Tail
import proofs.«100626_j61667140436172_2_alg».proof.Proof.IdealValue.Halves
import proofs.«100626_j61667140436172_2_alg».proof.Proof.Gen.ReferenceIdeal
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.StableHlo

variable (m : (ℓ : Loc nD τ sig) → Buf (Elt Ideal) ℓ) (ρ : Dev nD → PrngReg)

/-- The temperature as the program reads it. -/
abbrev T0 (c : Dev nD) : FVec Ideal S_ .f32 := shapeCast S_ (m ((c.tc : Thread nD τ).loc main_arg2)) Gen.shapeCasts_S1_S_

/-- The first launch's Gram sum, where the second launch is left. -/
theorem W4_v4 (c : Dev nD) : W4 m ρ c (Proc.devRef .tc main_v4) = gramOf (W2 m ρ c (Proc.devRef .tc main_v3_0)) := by
  rw [W4_of_ne m ρ c main_v4 (by decide)]
  show StableHlo.after main_part0_ops1 (W2 m ρ c) (Proc.devRef .tc main_v4) = _
  after_results
  rfl

theorem W4_v6 (c : Dev nD) : W4 m ρ c (Proc.devRef .tc main_v6) = sqOf (W2 m ρ c (Proc.devRef .tc main_v3_1)) := by
  rw [W4_of_ne m ρ c main_v6 (by decide)]
  show StableHlo.after main_part0_ops1 (W2 m ρ c) (Proc.devRef .tc main_v6) = _
  after_results
  rfl

theorem W4_v0 (c : Dev nD) : W4 m ρ c (Proc.devRef .tc main_v0) = T0 m c := by
  rw [W4_of_ne m ρ c main_v0 (by decide)]
  show StableHlo.after main_part0_ops1 (W2 m ρ c) (Proc.devRef .tc main_v0) = _
  after_results
  rw [W2_of_ne m ρ c main_v0 (by decide)]
  show StableHlo.after main_part0_ops0 (W0 m ρ c) (Proc.devRef .tc main_v0) = _
  after_results
  rfl

set_option maxHeartbeats 4000000 in
/-- The result buffer at the run's end. -/
theorem W6_v66 (c : Dev nD) : W6 m ρ c (Proc.devRef .tc main_v66)
    = Cert.Bridge.tail (sqOf (W2 m ρ c (Proc.devRef .tc main_v3_1))) (gramOf (W2 m ρ c (Proc.devRef .tc main_v3_0)))
        (sqOf (W4 m ρ c (Proc.devRef .tc main_v7_1))) (gramOf (W4 m ρ c (Proc.devRef .tc main_v7_0))) (T0 m c) := by
  rw [← W4_v4 m ρ c, ← W4_v6 m ρ c, ← W4_v0 m ρ c]
  show StableHlo.after main_part1_ops0 (StableHlo.after main_part0_ops2 (W4 m ρ c)) (Proc.devRef .tc main_v66) = _
  generalize W4 m ρ c = Wv
  after_results_simp
  unfold Cert.Bridge.tail Cert.Bridge.kl Cert.Bridge.adj sqOf gramOf
  rfl

end Cert.KernelIdeal.Val

end
-- ==== Proof.IdealValue.Pieces0.lean ====
/-
  What each of the three cases of the body leaves behind, as values. At the first column block of a half the
  accumulators are zeroed and then the block is added: the Gram accumulator ends at the zero matrix plus the block's
  product with its own transpose, the squared-length accumulator at the zero column plus the block's row sums of
  squares. At every other block the same is added to what the accumulators held. At the last block of a half the
  accumulators, so updated, are also copied into the two output windows with a leading axis of extent one. Each
  statement holds for every float instance: it only says which payload, of which operands, was stored.
-/
import proofs.«100626_j61667140436172_2_alg».proof.Proof.IdealFrame.Frame0
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)

variable {F : FTy → Type} [FloatOps F]

/-- The zero offsets of a rank-2 and of a rank-3 buffer. -/
theorem hz2_0 : (![0, 0] : Fin 2 → Nat) = fun _ => 0 := funext fun a => by fin_cases a <;> rfl
theorem hz3_0 : (![0, 0, 0] : Fin 3 → Nat) = fun _ => 0 := funext fun a => by fin_cases a <;> rfl

/-! ## Every block but the first and the last of a half -/

set_option maxHeartbeats 2000000 in
/-- The Gram accumulator ends at what it held plus the block's contribution. -/
theorem sout0_B_0_eq (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : ¬cond0_1 i)
    (x0 : Vec F S256x6272 .f32) (xs0 : Vec F S256x256 .f32) (xs1 : Vec F S256x1 .f32) :
    sout0_B_0 c i arg2 harg2 arg3 harg3 arg4 harg4 arg5 harg5 arg6 harg6 hc0 hc1 x0 xs0 xs1 = k0_pay4 x0 xs0 := by
  unfold sout0_B_0
  rw [View.read_writes_eq_canon _ _ _ (scover0_B_0 c i arg2 harg2 arg3 harg3 arg4 harg4 arg5 harg5 arg6 harg6 hc0 hc1 x0 xs0 xs1)]
  unfold kernelRun0_B
  dsimp only
  rw [View.canon_unit_zero hz2_0]
  simp only [View.readAt_eq_ld, harg2.read_unread, harg5.read_unread, View.ld_unit_zero (S := S256x6272) hz2_0,
    View.ld_unit_zero (S := S256x256) hz2_0]

set_option maxHeartbeats 2000000 in
/-- The squared-length accumulator ends at what it held plus the block's contribution. -/
theorem sout0_B_1_eq (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : ¬cond0_1 i)
    (x0 : Vec F S256x6272 .f32) (xs0 : Vec F S256x256 .f32) (xs1 : Vec F S256x1 .f32) :
    sout0_B_1 c i arg2 harg2 arg3 harg3 arg4 harg4 arg5 harg5 arg6 harg6 hc0 hc1 x0 xs0 xs1 = k0_pay5 x0 xs1 := by
  unfold sout0_B_1
  rw [View.read_writes_eq_canon _ _ _ (scover0_B_1 c i arg2 harg2 arg3 harg3 arg4 harg4 arg5 harg5 arg6 harg6 hc0 hc1 x0 xs0 xs1)]
  unfold kernelRun0_B
  dsimp only
  rw [View.canon_unit_zero hz2_0]
  simp only [View.readAt_eq_ld, harg2.read_unread, harg6.read_unread, View.ld_unit_zero (S := S256x6272) hz2_0,
    View.ld_unit_zero (S := S256x1) hz2_0]

/-! ## The first block of a half -/

set_option maxHeartbeats 2000000 in
/-- The Gram accumulator ends at the zero matrix plus the block's contribution. -/
theorem sout0_A_0_eq (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond0_0 i) (hc1 : ¬cond0_1 i)
    (x0 : Vec F S256x6272 .f32) :
    sout0_A_0 c i arg2 harg2 arg3 harg3 arg4 harg4 arg5 harg5 arg6 harg6 hc0 hc1 x0 = k0_pay4 x0 (k0_pay1 (F := F)) := by
  unfold sout0_A_0
  rw [View.read_writes_eq_canon _ _ _ (scover0_A_0 c i arg2 harg2 arg3 harg3 arg4 harg4 arg5 harg5 arg6 harg6 hc0 hc1 x0)]
  unfold kernelRun0_A
  dsimp only
  sl_unfold_words
  rw [View.canon_cons_unit_zero (S := S256x256) hz2_0, View.readCov_unit_zero (S := S256x256) _ hz2_0]
  simp only [View.readAt_eq_ld, harg2.read_unread, View.ld_unit_zero (S := S256x6272) hz2_0]

set_option maxHeartbeats 2000000 in
/-- The squared-length accumulator ends at the zero column plus the block's contribution. -/
theorem sout0_A_1_eq (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond0_0 i) (hc1 : ¬cond0_1 i)
    (x0 : Vec F S256x6272 .f32) :
    sout0_A_1 c i arg2 harg2 arg3 harg3 arg4 harg4 arg5 harg5 arg6 harg6 hc0 hc1 x0 = k0_pay5 x0 (k0_pay2 (F := F)) := by
  unfold sout0_A_1
  rw [View.read_writes_eq_canon _ _ _ (scover0_A_1 c i arg2 harg2 arg3 harg3 arg4 harg4 arg5 harg5 arg6 harg6 hc0 hc1 x0)]
  unfold kernelRun0_A
  dsimp only
  sl_unfold_words
  rw [View.canon_cons_unit_zero (S := S256x1) hz2_0, View.readCov_unit_zero (S := S256x1) _ hz2_0]
  simp only [View.readAt_eq_ld, harg2.read_unread, View.ld_unit_zero (S := S256x6272) hz2_0]

/-! ## The last block of a half -/

set_option maxHeartbeats 2000000 in
/-- The Gram accumulator ends at what it held plus the block's contribution, -/
theorem sout0_C_0_eq (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) :
    sout0_C_0 c i arg2 harg2 arg3 harg3 arg4 harg4 arg5 harg5 arg6 harg6 hc0 hc1 x0 xs0 xs1 = k0_pay4 x0 xs0 := by
  unfold sout0_C_0
  rw [View.read_writes_eq_canon _ _ _ (scover0_C_0 c i arg2 harg2 arg3 harg3 arg4 harg4 arg5 harg5 arg6 harg6 hc0 hc1 x0 xs0 xs1)]
  unfold kernelRun0_C
  dsimp only
  sl_unfold_words
  rw [View.canon_unit_zero hz2_0]
  simp only [View.readAt_eq_ld, harg2.read_unread, harg5.read_unread, View.ld_unit_zero (S := S256x6272) hz2_0,
    View.ld_unit_zero (S := S256x256) hz2_0]

set_option maxHeartbeats 2000000 in
/-- the squared-length accumulator likewise, -/
theorem sout0_C_1_eq (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) :
    sout0_C_1 c i arg2 harg2 arg3 harg3 arg4 harg4 arg5 harg5 arg6 harg6 hc0 hc1 x0 xs0 xs1 = k0_pay5 x0 xs1 := by
  unfold sout0_C_1
  rw [View.read_writes_eq_canon _ _ _ (scover0_C_1 c i arg2 harg2 arg3 harg3 arg4 harg4 arg5 harg5 arg6 harg6 hc0 hc1 x0 xs0 xs1)]
  unfold kernelRun0_C
  dsimp only
  sl_unfold_words
  rw [View.canon_unit_zero hz2_0]
  simp only [View.readAt_eq_ld, harg2.read_unread, harg6.read_unread, View.ld_unit_zero (S := S256x6272) hz2_0,
    View.ld_unit_zero (S := S256x1) hz2_0]

set_option maxHeartbeats 2000000 in
/-- the Gram output window at the updated Gram accumulator under a leading axis of extent one, -/
theorem out0_C_1_eq (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) :
    out0_C_1 c i arg2 harg2 arg3 harg3 arg4 harg4 arg5 harg5 arg6 harg6 hc0 hc1 x0 xs0 xs1 = k0_pay6 (k0_pay4 x0 xs0) := by
  unfold out0_C_1
  rw [View.read_writes_eq_canon _ _ _ (cover0_C_1 c i arg2 harg2 arg3 harg3 arg4 harg4 arg5 harg5 arg6 harg6 hc0 hc1 x0 xs0 xs1)]
  unfold kernelRun0_C
  dsimp only
  sl_unfold_words
  rw [View.canon_unit_zero hz3_0]
  simp only [View.readAt_eq_ld, harg2.read_unread, harg5.read_unread, View.ld_unit_zero (S := S256x6272) hz2_0,
    View.ld_unit_zero (S := S256x256) hz2_0, View.readCov_unit_zero (S := S256x256) _ hz2_0]

set_option maxHeartbeats 2000000 in
/-- and the squared-length output window at the updated squared-length accumulator under a leading axis of extent one. -/
theorem out0_C_2_eq (c : Dev nD) (i : grid0.Coords) (arg2 : Memref sig .tc .vmem S256x6272 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond0_0 i) (hc1 : cond0_1 i)
    (x0 : Vec F S256x6272 .f32) (xs0 : Vec F S256x256 .f32) (xs1 : Vec F S256x1 .f32) :
    out0_C_2 c i arg2 harg2 arg3 harg3 arg4 harg4 arg5 harg5 arg6 harg6 hc0 hc1 x0 xs0 xs1 = k0_pay7 (k0_pay5 x0 xs1) := by
  unfold out0_C_2
  rw [View.read_writes_eq_canon _ _ _ (cover0_C_2 c i arg2 harg2 arg3 harg3 arg4 harg4 arg5 harg5 arg6 harg6 hc0 hc1 x0 xs0 xs1)]
  unfold kernelRun0_C
  dsimp only
  sl_unfold_words
  rw [View.canon_unit_zero hz3_0]
  simp only [View.readAt_eq_ld, harg2.read_unread, harg6.read_unread, View.ld_unit_zero (S := S256x6272) hz2_0,
    View.ld_unit_zero (S := S256x1) hz2_0, View.readCov_unit_zero (S := S256x1) _ hz2_0]

end Cert.KernelIdeal.Val

end
-- ==== Proof.LibMatmulNT.lean ====
/-
  A matrix product of an M × K matrix by an N × K matrix contracted on the LAST axis of both operands (the right
  operand taken transposed) into a zero accumulator, read at one entry on the extended reals: entry (i, j) is
  Σ_k lhs (i, k) · rhs (j, k). No rounding and no order of accumulation is left in it.
-/
import Idealize.ShloMosaic.PureOps.Ideal.Laws
import Idealize.ShloMosaic.Lib.ValueIdx

noncomputable section

namespace Cert.MatmulNT

open Idealize.ShloMosaic Idealize.ShloMosaic.ValueIdx

/-- Entry (i, j) of the product of `lhs` (M × K) and the transpose of `rhs` (N × K) accumulated into zeros. -/
theorem matmul_zero_apply (M K N : Nat) {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact ((DotDims.transposedRhs M K N).rhsIdx_val_of_single rfl _ _).trans hk)
  rw [el, er]

end Cert.MatmulNT

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibLeadUnit.lean ====
/-
  A matrix carried with a leading axis of extent one, read at one entry, over any sizes and any element type.

  * [1, a, b] re-laid as [a, b]: the matrix at (i, j) is the array at (0, i, j).
  * [a, b] re-laid as [1, a, b]: the array at (0, i, j) is the matrix at (i, j).
  * The slab [q : q+1, 0 : a, 0 : b] sliced out of an [n, a, b] array: the slab at (0, i, j) is the array at (q, i, j).
-/
import Idealize.ShloMosaic.Lib.Pipeline.Value
import Idealize.ShloMosaic.Lib.ValueIdx

noncomputable section

namespace Cert.LeadUnit

open Idealize.ShloMosaic Idealize.ShloMosaic.ValueIdx

/-- [1, a, b] re-laid as [a, b] reads, at (i, j), the array at (0, i, j). -/
theorem dropLead_apply {α : Type} {a b : ℕ} (v : (⟨3, ![1, a, b]⟩ : Shape).Idx → α)
    (h : (⟨3, ![1, a, b]⟩ : Shape).ShapeCasts ⟨2, ![a, b]⟩) (i : Fin a) (j : Fin b) :
    shapeCast ⟨2, ![a, b]⟩ v h (ix2 i j) = v (ix3 (0 : Fin 1) i j) := by
  refine shapeCast_apply v h (ix2 i j) (ix3 (0 : Fin 1) i j) ?_
  rw [Shape.rowMajor_val_three, Shape.rowMajor_val_two]
  show ((0 : ℕ) * a + i.val) * b + j.val = i.val * b + j.val
  rw [Nat.zero_mul, Nat.zero_add]

/-- [a, b] re-laid as [1, a, b] reads, at (0, i, j), the matrix at (i, j). -/
theorem addLead_apply {α : Type} {a b : ℕ} (v : (⟨2, ![a, b]⟩ : Shape).Idx → α)
    (h : (⟨2, ![a, b]⟩ : Shape).ShapeCasts ⟨3, ![1, a, b]⟩) (z : Fin 1) (i : Fin a) (j : Fin b) :
    shapeCast ⟨3, ![1, a, b]⟩ v h (ix3 z i j) = v (ix2 i j) := by
  refine shapeCast_apply v h (ix3 z i j) (ix2 i j) ?_
  rw [Shape.rowMajor_val_three, Shape.rowMajor_val_two]
  show i.val * b + j.val = (z.val * a + i.val) * b + j.val
  have hz : z.val = 0 := by have := z.isLt; omega
  rw [hz, Nat.zero_mul, Nat.zero_add]

/-- The slab q of an [n, a, b] array, sliced out as [1, a, b], reads at (0, i, j) the array at (q, i, j). -/
theorem sliceLead_apply {α : Type} {n a b : ℕ} (x : (⟨3, ![n, a, b]⟩ : Shape).Idx → α) (q : Fin n)
    (h : (⟨3, ![n, a, b]⟩ : Shape).Slices ![q.val, 0, 0] ⟨3, ![1, a, b]⟩) (z : Fin 1) (i : Fin a) (j : Fin b) :
    extractStridedSlice ⟨3, ![1, a, b]⟩ ![q.val, 0, 0] x h (ix3 z i j) = x (ix3 q i j) := by
  refine extractStridedSlice_apply _ x h (ix3 z i j) (ix3 q i j) fun c => ?_
  match c with
  | ⟨0, _⟩ =>
    show q.val = q.val + z.val
    have hz : z.val = 0 := by have := z.isLt; omega
    omega
  | ⟨1, _⟩ => show i.val = 0 + i.val; omega
  | ⟨2, _⟩ => show j.val = 0 + j.val; omega

end Cert.LeadUnit

end
-- ==== Proof.IdealValue.Pay0.lean ====
/-
  The body's payloads read at one entry, on the extended reals, for a block X of 256 rows and 6272 columns:
  the zero matrix and the zero column are zero everywhere; the Gram update at (i, i') is the accumulator's entry
  plus the sum over the block's columns q of X (i, q) * X (i', q) (the rounding to the narrower format before the
  product is the identity here, and the product into a zero matrix is the plain sum); the squared-length update at
  (i, 0) is the accumulator's entry plus the sum over q of X (i, q) squared; the two copies into the output windows
  only add a leading axis of extent one.
-/
import proofs.«100626_j61667140436172_2_alg».proof.Proof.Gen.KernelIdeal.Skeleton
import proofs.«100626_j61667140436172_2_alg».proof.Proof.LibMatmulNT
import proofs.«100626_j61667140436172_2_alg».proof.Proof.LibColRowBroadcast
import proofs.«100626_j61667140436172_2_alg».proof.Proof.LibLeadUnit
import Idealize.ShloMosaic.Lib.Pipeline.Value
import Idealize.ShloMosaic.Lib.ValueIdx
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

/-- The re-laying of the block to its own shape is the block. -/
theorem pay3_0_eq (x : FVec Ideal S256x6272 .f32) : k0_pay3 (F := Ideal) x = x := by
  unfold k0_pay3
  exact shapeCast_self _ _

/-- The zero matrix is zero at every entry. -/
theorem pay1_0_apply (y : S256x256.Idx) : k0_pay1 (F := Ideal) y = 0 := by
  unfold k0_pay1
  exact (congrFun (shapeCast_self _ _) y).trans Ideal.ofBits_zero_f32

/-- The zero column is zero at every entry. -/
theorem pay2_0_apply (y : S256x1.Idx) : k0_pay2 (F := Ideal) y = 0 := by
  unfold k0_pay2
  exact (congrFun (shapeCast_self _ _) y).trans Ideal.ofBits_zero_f32

/-- The Gram update at (i, i'): the accumulator's entry plus the block's row i times its row i'. -/
theorem pay4_0_apply (x : FVec Ideal S256x6272 .f32) (acc : FVec Ideal S256x256 .f32) (i i' : Fin 256) :
    k0_pay4 (F := Ideal) x acc (ix2 i i') = acc (ix2 i i') + ∑ q : Fin 6272, x (ix2 i q) * x (ix2 i' q) := by
  unfold k0_pay4
  refine (congrFun (shapeCast_self _ _) (ix2 i i')).trans ?_
  refine congrArg (acc (ix2 i i') + ·) ?_
  refine (Cert.MatmulNT.matmul_zero_apply 256 6272 256 none (truncf .bf16 (k0_pay3 (F := Ideal) x) bitsLt_bf16_f32)
    (truncf .bf16 (k0_pay3 (F := Ideal) x) bitsLt_bf16_f32) i i').trans ?_
  rw [pay3_0_eq]
  rfl

/-- The reduced index i with the column q put back is (i, q). -/
theorem lift_col_0 (h : S256x6272.Reduces [1] S256) (i : Fin 256) (q : Fin (S256x6272.size 1)) :
    h.lift (ix1 i) q = ix2 i (⟨q.val, q.isLt⟩ : Fin 6272) := by
  funext a; apply Fin.ext
  fin_cases a <;> rfl

/-- The squared-length update at (i, 0): the accumulator's entry plus the sum of the squares of the block's row i. -/
theorem pay5_0_apply (x : FVec Ideal S256x6272 .f32) (s : FVec Ideal S256x1 .f32) (i : Fin 256) (z : Fin 1) :
    k0_pay5 (F := Ideal) x s (ix2 i z) = s (ix2 i z) + ∑ q : Fin 6272, x (ix2 i q) * x (ix2 i q) := by
  unfold k0_pay5
  refine (congrFun (shapeCast_self _ _) (ix2 i z)).trans ?_
  refine congrArg (s (ix2 i z) + ·) ?_
  refine (Cert.ColRowBroadcast.colCast_apply _ shapeCasts_S256_S256x1 i z).trans ?_
  refine (Ideal.multiReduction_add_single _ _ reduces_S256x6272_S256 _ _ (ix1 i)).trans ?_
  rw [pay3_0_eq]
  refine Finset.sum_congr rfl fun q _ => ?_
  rw [lift_col_0]
  rfl

/-- The copy of the Gram accumulator into its output window at (0, i, i') is the accumulator at (i, i'). -/
theorem pay6_0_apply (v : FVec Ideal S256x256 .f32) (z : Fin 1) (i i' : Fin 256) :
    k0_pay6 (F := Ideal) v (ix3 z i i') = v (ix2 i i') := by
  unfold k0_pay6
  exact Cert.LeadUnit.addLead_apply _ shapeCasts_S256x256_S1x256x256 z i i'

/-- The copy of the squared-length accumulator into its output window at (0, i, 0) is the accumulator at (i, 0). -/
theorem pay7_0_apply (v : FVec Ideal S256x1 .f32) (z : Fin 1) (i : Fin 256) (z' : Fin 1) :
    k0_pay7 (F := Ideal) v (ix3 z i z') = v (ix2 i z') := by
  unfold k0_pay7
  exact Cert.LeadUnit.addLead_apply _ shapeCasts_S256x1_S1x256x1 z i z'

end Cert.KernelIdeal.Val

end
-- ==== Proof.GramSpec.lean ====
/-
  The two quantities that both programs feed into one and the same chain of distances, softmax and
  Kullback–Leibler divergence: for a matrix X with 256 rows and N columns, the squared Euclidean length of
  each row and the Gram matrix X·Xᵀ, written as plain sums on the extended reals.
-/
import Idealize.ShloMosaic.PureOps.Ideal
import Idealize.ShloMosaic.Lib.ValueIdx

noncomputable section

open scoped BigOperators

namespace Cert.GramSpec

open Idealize.ShloMosaic Idealize.ShloMosaic.ValueIdx

/-- Row `i`'s squared length, the sum over the columns `j` of `X (i, j)` squared. -/
def sqv (N : ℕ) (X : FVec Ideal ⟨2, ![256, N]⟩ .f32) : FVec Ideal ⟨1, ![256]⟩ .f32 :=
  fun i => ∑ j : Fin N, X (ix2 (i 0) j) * X (ix2 (i 0) j)

/-- Entry `(i, i')` of X·Xᵀ, the sum over the columns `j` of `X (i, j) * X (i', j)`. -/
def gramv (N : ℕ) (X : FVec Ideal ⟨2, ![256, N]⟩ .f32) : FVec Ideal ⟨2, ![256, 256]⟩ .f32 :=
  fun i => ∑ j : Fin N, X (ix2 (i 0) j) * X (ix2 (i 1) j)

end Cert.GramSpec

end
-- ==== Proof.LibSumSplit.lean ====
/-
  Splitting a sum over `Fin (P * K * T)` into a triple sum: an index `j < P * K * T` is written, in exactly one
  way, as `j = (p * K + k) * T + q` with `p < P`, `k < K`, `q < T` (its digits in the mixed radix `(P, K, T)`),
  so a sum over all `j` of a function of the number `j` is the sum over the digits. Stated in any commutative
  additive monoid.
-/
import Mathlib.Algebra.BigOperators.Fin
import Mathlib.Logic.Equiv.Fin.Basic

open scoped BigOperators

namespace Cert.SumSplit

variable {M : Type*} [AddCommMonoid M]

/-- A sum over `Fin (A * B)` of a function of the number is the double sum over the two digits `a < A`, `b < B`
    of the function at `a * B + b`. -/
theorem sum_mul (A B : ℕ) (g : ℕ → M) :
    ∑ j : Fin (A * B), g j.val = ∑ a : Fin A, ∑ b : Fin B, g (a.val * B + b.val) := by
  refine ((finProdFinEquiv (m := A) (n := B)).sum_comp (fun j : Fin (A * B) => g j.val)).symm.trans ?_
  rw [Fintype.sum_prod_type]
  refine Finset.sum_congr rfl fun a _ => Finset.sum_congr rfl fun b _ => ?_
  show g ((finProdFinEquiv (a, b) : Fin (A * B)) : ℕ) = _
  rw [finProdFinEquiv_apply_val, add_comm, mul_comm]

/-- A sum over `Fin (P * K * T)` of a function of the number is the triple sum over the digits `p < P`, `k < K`,
    `q < T` of the function at `(p * K + k) * T + q`. -/
theorem sum_split (P K T : ℕ) (f : ℕ → M) :
    ∑ j : Fin (P * K * T), f j.val
      = ∑ p : Fin P, ∑ k : Fin K, ∑ q : Fin T, f ((p.val * K + k.val) * T + q.val) := by
  rw [sum_mul (P * K) T f]
  exact sum_mul P K (fun a => ∑ q : Fin T, f (a * T + q.val))

end Cert.SumSplit
-- ==== Proof.Cols.lean ====
/-
  Columns regrouped. A row of a 256×N matrix read at a natural-number column (zero past the end), and the two
  quantities of the specification — a row's squared length, an entry of X·Xᵀ — split along the column axis into
  two halves, K blocks per half and T columns per block, when N = 2·K·T. Only commutativity and associativity of
  addition are used, so nothing needs the entries to be finite.
-/
import proofs.«100626_j61667140436172_2_alg».proof.Proof.GramSpec
import proofs.«100626_j61667140436172_2_alg».proof.Proof.LibSumSplit

noncomputable section

open scoped BigOperators

namespace Cert.Cols

open Idealize.ShloMosaic Idealize.ShloMosaic.ValueIdx

/-- Entry `(i, j)` of X at a natural-number column `j`, zero when `j` is past the last column. -/
def Xn {N : ℕ} (X : FVec Ideal ⟨2, ![256, N]⟩ .f32) (i : Fin 256) (j : ℕ) : EReal :=
  if h : j < N then X (ix2 i ⟨j, h⟩) else 0

theorem Xn_val {N : ℕ} (X : FVec Ideal ⟨2, ![256, N]⟩ .f32) (i : Fin 256) (j : Fin N) : Xn X i j.val = X (ix2 i j) := by
  unfold Xn; rw [dif_pos j.isLt]

/-- An entry of X·Xᵀ as the sum over the halves, the blocks of a half and the columns of a block. -/
theorem gram_regroup (N K T : ℕ) (hN : N = 2 * K * T) (X : FVec Ideal ⟨2, ![256, N]⟩ .f32) (i i' : Fin 256) :
    Cert.GramSpec.gramv N X (ix2 i i')
      = ∑ p : Fin 2, ∑ k : Fin K, ∑ q : Fin T,
          Xn X i ((p.val * K + k.val) * T + q.val) * Xn X i' ((p.val * K + k.val) * T + q.val) := by
  subst hN
  rw [← Cert.SumSplit.sum_split 2 K T (fun j => Xn X i j * Xn X i' j)]
  show ∑ j : Fin (2 * K * T), X (ix2 i j) * X (ix2 i' j) = _
  exact Finset.sum_congr rfl fun j _ => by rw [Xn_val, Xn_val]

/-- A row's squared length, regrouped the same way. -/
theorem sq_regroup (N K T : ℕ) (hN : N = 2 * K * T) (X : FVec Ideal ⟨2, ![256, N]⟩ .f32) (i : Fin 256) :
    Cert.GramSpec.sqv N X (ix1 i)
      = ∑ p : Fin 2, ∑ k : Fin K, ∑ q : Fin T,
          Xn X i ((p.val * K + k.val) * T + q.val) * Xn X i ((p.val * K + k.val) * T + q.val) := by
  subst hN
  rw [← Cert.SumSplit.sum_split 2 K T (fun j => Xn X i j * Xn X i j)]
  show ∑ j : Fin (2 * K * T), X (ix2 i j) * X (ix2 i j) = _
  exact Finset.sum_congr rfl fun j _ => by rw [Xn_val]

end Cert.Cols

end
-- ==== Proof.IdealValue.Arr0.lean ====
/-
  One Gram-matrix launch at the ideal instance: what its two result arrays hold when it ends, entry by entry.
  The input X is a matrix of 256 rows and 100352 columns, read in 16 blocks of 6272 columns: two halves of 8
  blocks each. Block t contributes, to entry (i, i') of X·Xᵀ, the sum over its columns of X (i, ·) * X (i', ·), and
  to row i's squared length the same sum with i' = i. The two accumulators start from zero at the first block of a
  half and add one block's contribution at every point, so after the block at position n they hold the
  contributions of the blocks 0 … n % 8 of half n / 8 (by induction on the position); at the last block of a half
  they are copied to slab n / 8 of the two results. Every entry of the results lies in exactly such a slab, so the
  Gram result at (p, i, i') is the sum over the 8 blocks of half p, and the squared-length result at (p, i, 0) the
  same with i' = i. Only additions of zero are removed; no entry needs to be finite.
-/
import proofs.«100626_j61667140436172_2_alg».proof.Proof.IdealFrame.Frame0
import proofs.«100626_j61667140436172_2_alg».proof.Proof.IdealValue.Pieces0
import proofs.«100626_j61667140436172_2_alg».proof.Proof.IdealValue.Pay0
import proofs.«100626_j61667140436172_2_alg».proof.Proof.Cols
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The launch's input array as the launch finds it: a matrix of 256 rows and 100352 columns. -/
abbrev XV0 (c : Dev nD) := (V c main_v1 : S256x100352.Idx → EReal)

/-- The input window's block at point `t` starts at row 0 and column block `t`. -/
theorem idx_in0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- The input block at point `t`, as a matrix of 256 rows and 6272 columns. -/
def ib0 (c : Dev nD) (t : Fin cfg0.N) : FVec Ideal S256x6272 .f32 := iblk0 V c 0 t

/-- Entry (i, q) of the input window's block at point `t` sits at (i, t * 6272 + q) in the input array. -/
theorem emb_in0 (t : Fin cfg0.N) (i : Fin 256) (q : Fin 6272) (hlt : t.val * 6272 + q.val < 100352) :
    ((cfg0.win 0).blk t).view.emb (ix2 i q) = (ix2 i (⟨t.val * 6272 + q.val, hlt⟩ : Fin 100352) : S256x100352.Idx) := by
  obtain ⟨e0, e1⟩ := idx_in0 t
  funext a; apply Fin.ext
  match a with
  | ⟨0, _⟩ => show win0_0.index t (0 : Fin 2) * 256 + 1 * i.val = i.val; rw [e0]; omega
  | ⟨1, _⟩ => show win0_0.index t (1 : Fin 2) * 6272 + 1 * q.val = t.val * 6272 + q.val; rw [e1]; omega

/-- Entry (i, q) of the input block at point `t` is entry (i, t * 6272 + q) of the input array. -/
theorem iblk0_apply (c : Dev nD) (t : Fin cfg0.N) (i : Fin 256) (q : Fin 6272) :
    ib0 V c t (ix2 i q) = Cert.Cols.Xn (XV0 V c) i (t.val * 6272 + q.val) := by
  have ht : t.val < 16 := lt_of_lt_of_eq t.isLt N_0
  have hlt : t.val * 6272 + q.val < 100352 := by have := q.isLt; omega
  unfold Cert.Cols.Xn
  rw [dif_pos hlt]
  unfold ib0 iblk0
  rw [View.read_apply, emb_in0 t i q hlt]
  rfl

/-- The contribution of column block `t` to entry (i, i') of X·Xᵀ: the sum over the block's columns. -/
def gblk0 (X : FVec Ideal S256x100352 .f32) (i i' : Fin 256) (t : ℕ) : EReal :=
  ∑ q : Fin 6272, Cert.Cols.Xn X i (t * 6272 + q.val) * Cert.Cols.Xn X i' (t * 6272 + q.val)

/-- The input block at point `t`, row i against row i', is that contribution. -/
theorem blk_gram0 (c : Dev nD) (t : Fin cfg0.N) (i i' : Fin 256) :
    ∑ q : Fin 6272, ib0 V c t (ix2 i q) * ib0 V c t (ix2 i' q) = gblk0 (XV0 V c) i i' t.val :=
  Finset.sum_congr rfl fun q _ => by rw [iblk0_apply, iblk0_apply]

/-! ## One point -/

/-- At the first block of a half the Gram accumulator ends at the block's contribution, -/
theorem gram_first0 (c : Dev nD) (t : Fin cfg0.N) (h0 : t.val % 8 = 0) (i i' : Fin 256) :
    (outsAt0 V c t.val t.isLt).2.2.1 (ix2 i i') = gblk0 (XV0 V c) i i' t.val := by
  have h1 : ¬t.val % 8 = 7 := by omega
  have e := congrArg (fun x => x.2.2.1) (outsAt0_A V c t h0 h1)
  dsimp only at e
  have p := sout0_A_0_eq (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (ib0 V c t)
  have r := (congrFun (e.trans p) (ix2 i i')).trans (pay4_0_apply (ib0 V c t) (k0_pay1 (F := Ideal)) i i')
  rw [pay1_0_apply, zero_add, blk_gram0] at r
  exact r

/-- and the squared-length accumulator at the block's contribution to the row's squared length. -/
theorem sq_first0 (c : Dev nD) (t : Fin cfg0.N) (h0 : t.val % 8 = 0) (i : Fin 256) (z : Fin 1) :
    (outsAt0 V c t.val t.isLt).2.2.2 (ix2 i z) = gblk0 (XV0 V c) i i t.val := by
  have h1 : ¬t.val % 8 = 7 := by omega
  have e := congrArg (fun x => x.2.2.2) (outsAt0_A V c t h0 h1)
  dsimp only at e
  have p := sout0_A_1_eq (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (ib0 V c t)
  have r := (congrFun (e.trans p) (ix2 i z)).trans (pay5_0_apply (ib0 V c t) (k0_pay2 (F := Ideal)) i z)
  rw [pay2_0_apply, zero_add, blk_gram0] at r
  exact r

/-- At every other block the Gram accumulator ends at what the point before left plus the block's contribution, -/
theorem gram_step0 (c : Dev nD) (t : Fin cfg0.N) (h0 : ¬t.val % 8 = 0) (i i' : Fin 256) :
    (outsAt0 V c t.val t.isLt).2.2.1 (ix2 i i')
      = (outsAt0 V c (t.val - 1) (Nat.lt_of_le_of_lt (Nat.sub_le _ _) t.isLt)).2.2.1 (ix2 i i') + gblk0 (XV0 V c) i i' t.val := by
  by_cases h1 : t.val % 8 = 7
  · have e := congrArg (fun x => x.2.2.1) (outsAt0_C V c t h0 h1)
    dsimp only at e
    have p := sout0_C_0_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (ib0 V c t) (outsAt0 V c (t.val - 1) (Nat.lt_of_le_of_lt (Nat.sub_le _ _) t.isLt)).2.2.1 (outsAt0 V c (t.val - 1) (Nat.lt_of_le_of_lt (Nat.sub_le _ _) t.isLt)).2.2.2
    have r := (congrFun (e.trans p) (ix2 i i')).trans (pay4_0_apply (ib0 V c t) (outsAt0 V c (t.val - 1) (Nat.lt_of_le_of_lt (Nat.sub_le _ _) t.isLt)).2.2.1 i i')
    rw [blk_gram0] at r
    exact r
  · have e := congrArg (fun x => x.2.2.1) (outsAt0_B V c t h0 h1)
    dsimp only at e
    have p := sout0_B_0_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (ib0 V c t) (outsAt0 V c (t.val - 1) (Nat.lt_of_le_of_lt (Nat.sub_le _ _) t.isLt)).2.2.1 (outsAt0 V c (t.val - 1) (Nat.lt_of_le_of_lt (Nat.sub_le _ _) t.isLt)).2.2.2
    have r := (congrFun (e.trans p) (ix2 i i')).trans (pay4_0_apply (ib0 V c t) (outsAt0 V c (t.val - 1) (Nat.lt_of_le_of_lt (Nat.sub_le _ _) t.isLt)).2.2.1 i i')
    rw [blk_gram0] at r
    exact r

/-- and the squared-length accumulator likewise. -/
theorem sq_step0 (c : Dev nD) (t : Fin cfg0.N) (h0 : ¬t.val % 8 = 0) (i : Fin 256) (z : Fin 1) :
    (outsAt0 V c t.val t.isLt).2.2.2 (ix2 i z)
      = (outsAt0 V c (t.val - 1) (Nat.lt_of_le_of_lt (Nat.sub_le _ _) t.isLt)).2.2.2 (ix2 i z) + gblk0 (XV0 V c) i i t.val := by
  by_cases h1 : t.val % 8 = 7
  · have e := congrArg (fun x => x.2.2.2) (outsAt0_C V c t h0 h1)
    dsimp only at e
    have p := sout0_C_1_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (ib0 V c t) (outsAt0 V c (t.val - 1) (Nat.lt_of_le_of_lt (Nat.sub_le _ _) t.isLt)).2.2.1 (outsAt0 V c (t.val - 1) (Nat.lt_of_le_of_lt (Nat.sub_le _ _) t.isLt)).2.2.2
    have r := (congrFun (e.trans p) (ix2 i z)).trans (pay5_0_apply (ib0 V c t) (outsAt0 V c (t.val - 1) (Nat.lt_of_le_of_lt (Nat.sub_le _ _) t.isLt)).2.2.2 i z)
    rw [blk_gram0] at r
    exact r
  · have e := congrArg (fun x => x.2.2.2) (outsAt0_B V c t h0 h1)
    dsimp only at e
    have p := sout0_B_1_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (ib0 V c t) (outsAt0 V c (t.val - 1) (Nat.lt_of_le_of_lt (Nat.sub_le _ _) t.isLt)).2.2.1 (outsAt0 V c (t.val - 1) (Nat.lt_of_le_of_lt (Nat.sub_le _ _) t.isLt)).2.2.2
    have r := (congrFun (e.trans p) (ix2 i z)).trans (pay5_0_apply (ib0 V c t) (outsAt0 V c (t.val - 1) (Nat.lt_of_le_of_lt (Nat.sub_le _ _) t.isLt)).2.2.2 i z)
    rw [blk_gram0] at r
    exact r

/-- At the last block of a half the Gram output window holds the Gram accumulator, -/
theorem out_gram0 (c : Dev nD) (t : Fin cfg0.N) (h1 : t.val % 8 = 7) (z : Fin 1) (i i' : Fin 256) :
    (outsAt0 V c t.val t.isLt).1 (ix3 z i i') = (outsAt0 V c t.val t.isLt).2.2.1 (ix2 i i') := by
  have h0 : ¬t.val % 8 = 0 := by omega
  have E := outsAt0_C V c t h0 h1
  have p1 := out0_C_1_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (ib0 V c t) (outsAt0 V c (t.val - 1) (Nat.lt_of_le_of_lt (Nat.sub_le _ _) t.isLt)).2.2.1 (outsAt0 V c (t.val - 1) (Nat.lt_of_le_of_lt (Nat.sub_le _ _) t.isLt)).2.2.2
  have p3 := sout0_C_0_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (ib0 V c t) (outsAt0 V c (t.val - 1) (Nat.lt_of_le_of_lt (Nat.sub_le _ _) t.isLt)).2.2.1 (outsAt0 V c (t.val - 1) (Nat.lt_of_le_of_lt (Nat.sub_le _ _) t.isLt)).2.2.2
  have e1 := congrArg (fun x => x.1) E
  have e3 := congrArg (fun x => x.2.2.1) E
  dsimp only at e1 e3
  have a := (congrFun (e1.trans p1) (ix3 z i i')).trans
    (pay6_0_apply (k0_pay4 (F := Ideal) (ib0 V c t) (outsAt0 V c (t.val - 1) (Nat.lt_of_le_of_lt (Nat.sub_le _ _) t.isLt)).2.2.1) z i i')
  have b := congrFun (e3.trans p3) (ix2 i i')
  exact a.trans b.symm

/-- and the squared-length output window the squared-length accumulator. -/
theorem out_sq0 (c : Dev nD) (t : Fin cfg0.N) (h1 : t.val % 8 = 7) (z : Fin 1) (i : Fin 256) (z' : Fin 1) :
    (outsAt0 V c t.val t.isLt).2.1 (ix3 z i z') = (outsAt0 V c t.val t.isLt).2.2.2 (ix2 i z') := by
  have h0 : ¬t.val % 8 = 0 := by omega
  have E := outsAt0_C V c t h0 h1
  have p2 := out0_C_2_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (ib0 V c t) (outsAt0 V c (t.val - 1) (Nat.lt_of_le_of_lt (Nat.sub_le _ _) t.isLt)).2.2.1 (outsAt0 V c (t.val - 1) (Nat.lt_of_le_of_lt (Nat.sub_le _ _) t.isLt)).2.2.2
  have p4 := sout0_C_1_eq c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (ib0 V c t) (outsAt0 V c (t.val - 1) (Nat.lt_of_le_of_lt (Nat.sub_le _ _) t.isLt)).2.2.1 (outsAt0 V c (t.val - 1) (Nat.lt_of_le_of_lt (Nat.sub_le _ _) t.isLt)).2.2.2
  have e2 := congrArg (fun x => x.2.1) E
  have e4 := congrArg (fun x => x.2.2.2) E
  dsimp only at e2 e4
  have a := (congrFun (e2.trans p2) (ix3 z i z')).trans
    (pay7_0_apply (k0_pay5 (F := Ideal) (ib0 V c t) (outsAt0 V c (t.val - 1) (Nat.lt_of_le_of_lt (Nat.sub_le _ _) t.isLt)).2.2.2) z i z')
  have b := congrFun (e4.trans p4) (ix2 i z')
  exact a.trans b.symm

/-! ## All points: the accumulators are partial sums over the blocks of the half so far -/

/-- After the point at position `n` the Gram accumulator holds the contributions of the blocks 0 … n % 8 of half n / 8. -/
theorem gram_acc0 (c : Dev nD) (i i' : Fin 256) : ∀ (n : ℕ) (hn : n < cfg0.N),
    (outsAt0 V c n hn).2.2.1 (ix2 i i') = ∑ k ∈ Finset.range (n % 8 + 1), gblk0 (XV0 V c) i i' (n / 8 * 8 + k)
  | 0, hn => by
    rw [show (0 : ℕ) % 8 + 1 = 1 from rfl, Finset.sum_range_one]
    exact gram_first0 V c ⟨0, hn⟩ rfl i i'
  | n + 1, hn => by
    by_cases h0 : (n + 1) % 8 = 0
    · have e : (n + 1) / 8 * 8 + 0 = n + 1 := by omega
      rw [h0, zero_add, Finset.sum_range_one, e]
      exact gram_first0 V c ⟨n + 1, hn⟩ h0 i i'
    · have ih := gram_acc0 c i i' n (Nat.lt_of_succ_lt hn)
      have e1 : (n + 1) % 8 = n % 8 + 1 := by omega
      have e2 : (n + 1) / 8 = n / 8 := by omega
      have e3 : n / 8 * 8 + (n % 8 + 1) = n + 1 := by omega
      rw [e1, e2, Finset.sum_range_succ, e3, ← ih]
      exact gram_step0 V c ⟨n + 1, hn⟩ h0 i i'

/-- The squared-length accumulator likewise. -/
theorem sq_acc0 (c : Dev nD) (i : Fin 256) (z : Fin 1) : ∀ (n : ℕ) (hn : n < cfg0.N),
    (outsAt0 V c n hn).2.2.2 (ix2 i z) = ∑ k ∈ Finset.range (n % 8 + 1), gblk0 (XV0 V c) i i (n / 8 * 8 + k)
  | 0, hn => by
    rw [show (0 : ℕ) % 8 + 1 = 1 from rfl, Finset.sum_range_one]
    exact sq_first0 V c ⟨0, hn⟩ rfl i z
  | n + 1, hn => by
    by_cases h0 : (n + 1) % 8 = 0
    · have e : (n + 1) / 8 * 8 + 0 = n + 1 := by omega
      rw [h0, zero_add, Finset.sum_range_one, e]
      exact sq_first0 V c ⟨n + 1, hn⟩ h0 i z
    · have ih := sq_acc0 c i z n (Nat.lt_of_succ_lt hn)
      have e1 : (n + 1) % 8 = n % 8 + 1 := by omega
      have e2 : (n + 1) / 8 = n / 8 := by omega
      have e3 : n / 8 * 8 + (n % 8 + 1) = n + 1 := by omega
      rw [e1, e2, Finset.sum_range_succ, e3, ← ih]
      exact sq_step0 V c ⟨n + 1, hn⟩ h0 i z

/-! ## The two result arrays -/

/-- What the launch leaves in its Gram result: at (p, i, i') the contributions of the 8 column blocks of half p. -/
def gramG0 (X : FVec Ideal S256x100352 .f32) : FVec Ideal S2x256x256 .f32 :=
  fun y => ∑ k : Fin 8, gblk0 X (y 1) (y 2) ((y 0).val * 8 + k.val)

/-- What it leaves in its squared-length result: at (p, i, 0) the contributions of the 8 column blocks of half p to row i. -/
def sqG0 (X : FVec Ideal S256x100352 .f32) : FVec Ideal S2x256x1 .f32 :=
  fun y => ∑ k : Fin 8, gblk0 X (y 1) (y 1) ((y 0).val * 8 + k.val)

/-- Both output windows' blocks at point `t` are slab t / 8 of their arrays. -/
theorem idx_out0 : ∀ t : Fin cfg0.N, win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0)

/-- At the last block of a half the Gram accumulator holds the whole half, -/
theorem gram_half0 (c : Dev nD) (t : Fin cfg0.N) (h1 : t.val % 8 = 7) (i i' : Fin 256) :
    (outsAt0 V c t.val t.isLt).2.2.1 (ix2 i i') = ∑ k : Fin 8, gblk0 (XV0 V c) i i' (t.val / 8 * 8 + k.val) := by
  rw [gram_acc0 V c i i' t.val t.isLt, h1]
  exact Finset.sum_range (fun k => gblk0 (XV0 V c) i i' (t.val / 8 * 8 + k))

/-- and the squared-length accumulator too. -/
theorem sq_half0 (c : Dev nD) (t : Fin cfg0.N) (h1 : t.val % 8 = 7) (i : Fin 256) (z : Fin 1) :
    (outsAt0 V c t.val t.isLt).2.2.2 (ix2 i z) = ∑ k : Fin 8, gblk0 (XV0 V c) i i (t.val / 8 * 8 + k.val) := by
  rw [sq_acc0 V c i z t.val t.isLt, h1]
  exact Finset.sum_range (fun k => gblk0 (XV0 V c) i i (t.val / 8 * 8 + k))

/-- Entry (0, i, i') of the Gram output window's block at point `t` is entry (t / 8, i, i') of the Gram result. -/
theorem emb_out0_1 (t : Fin cfg0.N) (z : Fin 1) (i i' : Fin 256) (hp : t.val / 8 < 2) :
    ((cfg0.win 1).blk t).view.emb (ix3 z i i') = (ix3 (⟨t.val / 8, hp⟩ : Fin 2) i i' : S2x256x256.Idx) := by
  obtain ⟨e0, e1, e2, -, -, -⟩ := idx_out0 t
  have hz : z.val = 0 := by have := z.isLt; omega
  funext a; apply Fin.ext
  match a with
  | ⟨0, _⟩ => show win0_1.index t (0 : Fin 3) * 1 + 1 * z.val = t.val / 8; rw [e0, hz]; omega
  | ⟨1, _⟩ => show win0_1.index t (1 : Fin 3) * 256 + 1 * i.val = i.val; rw [e1]; omega
  | ⟨2, _⟩ => show win0_1.index t (2 : Fin 3) * 256 + 1 * i'.val = i'.val; rw [e2]; omega

/-- Entry (0, i, 0) of the squared-length output window's block at point `t` is entry (t / 8, i, 0) of that result. -/
theorem emb_out0_2 (t : Fin cfg0.N) (z : Fin 1) (i : Fin 256) (z' : Fin 1) (hp : t.val / 8 < 2) :
    ((cfg0.win 2).blk t).view.emb (ix3 z i z') = (ix3 (⟨t.val / 8, hp⟩ : Fin 2) i z' : S2x256x1.Idx) := by
  obtain ⟨-, -, -, e0, e1, e2⟩ := idx_out0 t
  have hz : z.val = 0 := by have := z.isLt; omega
  funext a; apply Fin.ext
  match a with
  | ⟨0, _⟩ => show win0_2.index t (0 : Fin 3) * 1 + 1 * z.val = t.val / 8; rw [e0, hz]; omega
  | ⟨1, _⟩ => show win0_2.index t (1 : Fin 3) * 256 + 1 * i.val = i.val; rw [e1]; omega
  | ⟨2, _⟩ => show win0_2.index t (2 : Fin 3) * 1 + 1 * z'.val = z'.val; rw [e2]; omega

set_option maxHeartbeats 2000000 in
/-- What a point that writes the Gram window back writes is its block of `gramG0`. -/
theorem flushed_gram0 (c : Dev nD) (t : Fin cfg0.N) (hf : (cfg0.win 1).flush t = true) :
    (dat0 V c).flushed 1 t = ((cfg0.win 1).blk t).view.read (Elt Ideal) (gramG0 (XV0 V c)) := by
  have h1 : t.val % 8 = 7 := (flush0_1 t).mp hf
  have ht : t.val < 16 := lt_of_lt_of_eq t.isLt N_0
  show (cfg0.win 1).cut (grid0.coords t) ((dat0 V c).after 1 t) = _
  rw [after0_1]
  refine funext fun (y : S1x256x256.Idx) => ?_
  obtain ⟨z, i, i', rfl⟩ : ∃ (z : Fin 1) (i i' : Fin 256), y = ix3 z i i' := ⟨y 0, y 1, y 2, eq_ix3 y⟩
  show (outsAt0 V c t.val t.isLt).1 (ix3 z i i') = gramG0 (XV0 V c) (((cfg0.win 1).blk t).view.emb (ix3 z i i'))
  rw [emb_out0_1 t z i i' (by omega), out_gram0 V c t h1 z i i', gram_half0 V c t h1 i i']
  rfl

set_option maxHeartbeats 2000000 in
/-- What a point that writes the squared-length window back writes is its block of `sqG0`. -/
theorem flushed_sq0 (c : Dev nD) (t : Fin cfg0.N) (hf : (cfg0.win 2).flush t = true) :
    (dat0 V c).flushed 2 t = ((cfg0.win 2).blk t).view.read (Elt Ideal) (sqG0 (XV0 V c)) := by
  have h1 : t.val % 8 = 7 := (flush0_2 t).mp hf
  have ht : t.val < 16 := lt_of_lt_of_eq t.isLt N_0
  show (cfg0.win 2).cut (grid0.coords t) ((dat0 V c).after 2 t) = _
  rw [after0_2]
  refine funext fun (y : S1x256x1.Idx) => ?_
  obtain ⟨z, i, z', rfl⟩ : ∃ (z : Fin 1) (i : Fin 256) (z' : Fin 1), y = ix3 z i z' := ⟨y 0, y 1, y 2, eq_ix3 y⟩
  show (outsAt0 V c t.val t.isLt).2.1 (ix3 z i z') = sqG0 (XV0 V c) (((cfg0.win 2).blk t).view.emb (ix3 z i z'))
  rw [emb_out0_2 t z i z' (by omega), out_sq0 V c t h1 z i z', sq_half0 V c t h1 i z']
  rfl

/-- An entry of the Gram result is in point `t`'s block iff each coordinate is in the block's range on its axis. -/
theorem mem_blk0_1 (t : Fin cfg0.N) (y : S2x256x256.Idx) :
    y ∈ ((cfg0.win 1).blk t).view.set ↔ ∀ a : Fin 3, win0_1.index t a * S1x256x256.size a ≤ (y a).val ∧ (y a).val < win0_1.index t a * S1x256x256.size a + S1x256x256.size a := by
  show y ∈ ((View.whole main_v3_0).slice (win0_1.rect t)).set ↔ _
  rw [View.set_slice_whole, Rect.mem_set_unit]
  exact Iff.rfl

theorem mem_blk0_2 (t : Fin cfg0.N) (y : S2x256x1.Idx) :
    y ∈ ((cfg0.win 2).blk t).view.set ↔ ∀ a : Fin 3, win0_2.index t a * S1x256x1.size a ≤ (y a).val ∧ (y a).val < win0_2.index t a * S1x256x1.size a + S1x256x1.size a := by
  show y ∈ ((View.whole main_v3_1).slice (win0_2.rect t)).set ↔ _
  rw [View.set_slice_whole, Rect.mem_set_unit]
  exact Iff.rfl

/-- Every entry of the Gram result is written back by the last point of its half. -/
theorem cover_gram0 (y : S2x256x256.Idx) : ∃ t : Fin cfg0.N, (cfg0.win 1).flush t = true ∧ y ∈ ((cfg0.win 1).blk t).view.set := by
  have h0 : (y 0).val < 2 := (y 0).isLt
  have h1 : (y 1).val < 256 := (y 1).isLt
  have h2 : (y 2).val < 256 := (y 2).isLt
  have hN : cfg0.N = 16 := N_0
  obtain ⟨t, ht⟩ : ∃ t : Fin cfg0.N, t.val = (y 0).val * 8 + 7 := ⟨⟨(y 0).val * 8 + 7, by omega⟩, rfl⟩
  obtain ⟨e0, e1, e2, -, -, -⟩ := idx_out0 t
  refine ⟨t, (flush0_1 t).mpr (by omega), ?_⟩
  rw [mem_blk0_1]
  intro a
  match a with
  | ⟨0, _⟩ => show win0_1.index t (0 : Fin 3) * 1 ≤ (y 0).val ∧ (y 0).val < win0_1.index t (0 : Fin 3) * 1 + 1; omega
  | ⟨1, _⟩ => show win0_1.index t (1 : Fin 3) * 256 ≤ (y 1).val ∧ (y 1).val < win0_1.index t (1 : Fin 3) * 256 + 256; omega
  | ⟨2, _⟩ => show win0_1.index t (2 : Fin 3) * 256 ≤ (y 2).val ∧ (y 2).val < win0_1.index t (2 : Fin 3) * 256 + 256; omega

/-- Every entry of the squared-length result is written back by the last point of its half. -/
theorem cover_sq0 (y : S2x256x1.Idx) : ∃ t : Fin cfg0.N, (cfg0.win 2).flush t = true ∧ y ∈ ((cfg0.win 2).blk t).view.set := by
  have h0 : (y 0).val < 2 := (y 0).isLt
  have h1 : (y 1).val < 256 := (y 1).isLt
  have h2 : (y 2).val < 1 := (y 2).isLt
  have hN : cfg0.N = 16 := N_0
  obtain ⟨t, ht⟩ : ∃ t : Fin cfg0.N, t.val = (y 0).val * 8 + 7 := ⟨⟨(y 0).val * 8 + 7, by omega⟩, rfl⟩
  obtain ⟨-, -, -, e0, e1, e2⟩ := idx_out0 t
  refine ⟨t, (flush0_2 t).mpr (by omega), ?_⟩
  rw [mem_blk0_2]
  intro a
  match a with
  | ⟨0, _⟩ => show win0_2.index t (0 : Fin 3) * 1 ≤ (y 0).val ∧ (y 0).val < win0_2.index t (0 : Fin 3) * 1 + 1; omega
  | ⟨1, _⟩ => show win0_2.index t (1 : Fin 3) * 256 ≤ (y 1).val ∧ (y 1).val < win0_2.index t (1 : Fin 3) * 256 + 256; omega
  | ⟨2, _⟩ => show win0_2.index t (2 : Fin 3) * 1 ≤ (y 2).val ∧ (y 2).val < win0_2.index t (2 : Fin 3) * 1 + 1; omega

/-- The Gram result after the launch. -/
theorem final_gram0 (c : Dev nD) : (dat0 V c).arrAt 1 cfg0.N = gramG0 (XV0 V c) :=
  (dat0 V c).arrAt_eq_of_cover 1 (gramG0 (XV0 V c)) (flushed_gram0 V c) cover_gram0

/-- The squared-length result after the launch. -/
theorem final_sq0 (c : Dev nD) : (dat0 V c).arrAt 2 cfg0.N = sqG0 (XV0 V c) :=
  (dat0 V c).arrAt_eq_of_cover 2 (sqG0 (XV0 V c)) (flushed_sq0 V c) cover_sq0

/-- Entry (p, i, i') of the launch's Gram result: the sum, over the 8 column blocks of half p and the 6272 columns of a
    block, of the input's row i times its row i' at that column. -/
theorem gram_arr0 (c : Dev nD) (p : Fin 2) (i i' : Fin 256) :
    ((dat0 (F := Ideal) V c).arrAt 1 cfg0.N : S2x256x256.Idx → EReal) (ix3 p i i')
      = ∑ k : Fin 8, ∑ q : Fin 6272,
        Cert.Cols.Xn (XV0 V c) i ((p.val * 8 + k.val) * 6272 + q.val) * Cert.Cols.Xn (XV0 V c) i' ((p.val * 8 + k.val) * 6272 + q.val) := by
  rw [final_gram0]
  rfl

/-- Entry (p, i, 0) of the launch's squared-length result: the same sum with row i against itself. -/
theorem sq_arr0 (c : Dev nD) (p : Fin 2) (i : Fin 256) :
    ((dat0 (F := Ideal) V c).arrAt 2 cfg0.N : S2x256x1.Idx → EReal) (ix3 p i (0 : Fin 1))
      = ∑ k : Fin 8, ∑ q : Fin 6272,
        Cert.Cols.Xn (XV0 V c) i ((p.val * 8 + k.val) * 6272 + q.val) * Cert.Cols.Xn (XV0 V c) i ((p.val * 8 + k.val) * 6272 + q.val) := by
  rw [final_sq0]
  rfl

end Cert.KernelIdeal.Val

end
-- ==== Proof.IdealValue.Pieces1.lean ====
/-
  What each of the three cases of the body leaves behind, as values. At the first column block of a half the
  accumulators are zeroed and then the block is added: the Gram accumulator ends at the zero matrix plus the block's
  product with its own transpose, the squared-length accumulator at the zero column plus the block's row sums of
  squares. At every other block the same is added to what the accumulators held. At the last block of a half the
  accumulators, so updated, are also copied into the two output windows with a leading axis of extent one. Each
  statement holds for every float instance: it only says which payload, of which operands, was stored.
-/
import proofs.«100626_j61667140436172_2_alg».proof.Proof.IdealFrame.Frame1
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)

variable {F : FTy → Type} [FloatOps F]

/-- The zero offsets of a rank-2 and of a rank-3 buffer. -/
theorem hz2_1 : (![0, 0] : Fin 2 → Nat) = fun _ => 0 := funext fun a => by fin_cases a <;> rfl
theorem hz3_1 : (![0, 0, 0] : Fin 3 → Nat) = fun _ => 0 := funext fun a => by fin_cases a <;> rfl

/-! ## Every block but the first and the last of a half -/

set_option maxHeartbeats 2000000 in
/-- The Gram accumulator ends at what it held plus the block's contribution. -/
theorem sout1_B_0_eq (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : ¬cond1_1 i)
    (x0 : Vec F S256x2816 .f32) (xs0 : Vec F S256x256 .f32) (xs1 : Vec F S256x1 .f32) :
    sout1_B_0 c i arg2 harg2 arg3 harg3 arg4 harg4 arg5 harg5 arg6 harg6 hc0 hc1 x0 xs0 xs1 = k1_pay4 x0 xs0 := by
  unfold sout1_B_0
  rw [View.read_writes_eq_canon _ _ _ (scover1_B_0 c i arg2 harg2 arg3 harg3 arg4 harg4 arg5 harg5 arg6 harg6 hc0 hc1 x0 xs0 xs1)]
  unfold kernelRun1_B
  dsimp only
  rw [View.canon_unit_zero hz2_1]
  simp only [View.readAt_eq_ld, harg2.read_unread, harg5.read_unread, View.ld_unit_zero (S := S256x2816) hz2_1,
    View.ld_unit_zero (S := S256x256) hz2_1]

set_option maxHeartbeats 2000000 in
/-- The squared-length accumulator ends at what it held plus the block's contribution. -/
theorem sout1_B_1_eq (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : ¬cond1_1 i)
    (x0 : Vec F S256x2816 .f32) (xs0 : Vec F S256x256 .f32) (xs1 : Vec F S256x1 .f32) :
    sout1_B_1 c i arg2 harg2 arg3 harg3 arg4 harg4 arg5 harg5 arg6 harg6 hc0 hc1 x0 xs0 xs1 = k1_pay5 x0 xs1 := by
  unfold sout1_B_1
  rw [View.read_writes_eq_canon _ _ _ (scover1_B_1 c i arg2 harg2 arg3 harg3 arg4 harg4 arg5 harg5 arg6 harg6 hc0 hc1 x0 xs0 xs1)]
  unfold kernelRun1_B
  dsimp only
  rw [View.canon_unit_zero hz2_1]
  simp only [View.readAt_eq_ld, harg2.read_unread, harg6.read_unread, View.ld_unit_zero (S := S256x2816) hz2_1,
    View.ld_unit_zero (S := S256x1) hz2_1]

/-! ## The first block of a half -/

set_option maxHeartbeats 2000000 in
/-- The Gram accumulator ends at the zero matrix plus the block's contribution. -/
theorem sout1_A_0_eq (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond1_0 i) (hc1 : ¬cond1_1 i)
    (x0 : Vec F S256x2816 .f32) :
    sout1_A_0 c i arg2 harg2 arg3 harg3 arg4 harg4 arg5 harg5 arg6 harg6 hc0 hc1 x0 = k1_pay4 x0 (k1_pay1 (F := F)) := by
  unfold sout1_A_0
  rw [View.read_writes_eq_canon _ _ _ (scover1_A_0 c i arg2 harg2 arg3 harg3 arg4 harg4 arg5 harg5 arg6 harg6 hc0 hc1 x0)]
  unfold kernelRun1_A
  dsimp only
  sl_unfold_words
  rw [View.canon_cons_unit_zero (S := S256x256) hz2_1, View.readCov_unit_zero (S := S256x256) _ hz2_1]
  simp only [View.readAt_eq_ld, harg2.read_unread, View.ld_unit_zero (S := S256x2816) hz2_1]

set_option maxHeartbeats 2000000 in
/-- The squared-length accumulator ends at the zero column plus the block's contribution. -/
theorem sout1_A_1_eq (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : cond1_0 i) (hc1 : ¬cond1_1 i)
    (x0 : Vec F S256x2816 .f32) :
    sout1_A_1 c i arg2 harg2 arg3 harg3 arg4 harg4 arg5 harg5 arg6 harg6 hc0 hc1 x0 = k1_pay5 x0 (k1_pay2 (F := F)) := by
  unfold sout1_A_1
  rw [View.read_writes_eq_canon _ _ _ (scover1_A_1 c i arg2 harg2 arg3 harg3 arg4 harg4 arg5 harg5 arg6 harg6 hc0 hc1 x0)]
  unfold kernelRun1_A
  dsimp only
  sl_unfold_words
  rw [View.canon_cons_unit_zero (S := S256x1) hz2_1, View.readCov_unit_zero (S := S256x1) _ hz2_1]
  simp only [View.readAt_eq_ld, harg2.read_unread, View.ld_unit_zero (S := S256x2816) hz2_1]

/-! ## The last block of a half -/

set_option maxHeartbeats 2000000 in
/-- The Gram accumulator ends at what it held plus the block's contribution, -/
theorem sout1_C_0_eq (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) :
    sout1_C_0 c i arg2 harg2 arg3 harg3 arg4 harg4 arg5 harg5 arg6 harg6 hc0 hc1 x0 xs0 xs1 = k1_pay4 x0 xs0 := by
  unfold sout1_C_0
  rw [View.read_writes_eq_canon _ _ _ (scover1_C_0 c i arg2 harg2 arg3 harg3 arg4 harg4 arg5 harg5 arg6 harg6 hc0 hc1 x0 xs0 xs1)]
  unfold kernelRun1_C
  dsimp only
  sl_unfold_words
  rw [View.canon_unit_zero hz2_1]
  simp only [View.readAt_eq_ld, harg2.read_unread, harg5.read_unread, View.ld_unit_zero (S := S256x2816) hz2_1,
    View.ld_unit_zero (S := S256x256) hz2_1]

set_option maxHeartbeats 2000000 in
/-- the squared-length accumulator likewise, -/
theorem sout1_C_1_eq (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) :
    sout1_C_1 c i arg2 harg2 arg3 harg3 arg4 harg4 arg5 harg5 arg6 harg6 hc0 hc1 x0 xs0 xs1 = k1_pay5 x0 xs1 := by
  unfold sout1_C_1
  rw [View.read_writes_eq_canon _ _ _ (scover1_C_1 c i arg2 harg2 arg3 harg3 arg4 harg4 arg5 harg5 arg6 harg6 hc0 hc1 x0 xs0 xs1)]
  unfold kernelRun1_C
  dsimp only
  sl_unfold_words
  rw [View.canon_unit_zero hz2_1]
  simp only [View.readAt_eq_ld, harg2.read_unread, harg6.read_unread, View.ld_unit_zero (S := S256x2816) hz2_1,
    View.ld_unit_zero (S := S256x1) hz2_1]

set_option maxHeartbeats 2000000 in
/-- the Gram output window at the updated Gram accumulator under a leading axis of extent one, -/
theorem out1_C_1_eq (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) :
    out1_C_1 c i arg2 harg2 arg3 harg3 arg4 harg4 arg5 harg5 arg6 harg6 hc0 hc1 x0 xs0 xs1 = k1_pay6 (k1_pay4 x0 xs0) := by
  unfold out1_C_1
  rw [View.read_writes_eq_canon _ _ _ (cover1_C_1 c i arg2 harg2 arg3 harg3 arg4 harg4 arg5 harg5 arg6 harg6 hc0 hc1 x0 xs0 xs1)]
  unfold kernelRun1_C
  dsimp only
  sl_unfold_words
  rw [View.canon_unit_zero hz3_1]
  simp only [View.readAt_eq_ld, harg2.read_unread, harg5.read_unread, View.ld_unit_zero (S := S256x2816) hz2_1,
    View.ld_unit_zero (S := S256x256) hz2_1, View.readCov_unit_zero (S := S256x256) _ hz2_1]

set_option maxHeartbeats 2000000 in
/-- and the squared-length output window at the updated squared-length accumulator under a leading axis of extent one. -/
theorem out1_C_2_eq (c : Dev nD) (i : grid1.Coords) (arg2 : Memref sig .tc .vmem S256x2816 .f32) (harg2 : arg2.IsWhole) (arg3 : Memref sig .tc .vmem S1x256x256 .f32) (harg3 : arg3.IsWhole) (arg4 : Memref sig .tc .vmem S1x256x1 .f32) (harg4 : arg4.IsWhole) (arg5 : Memref sig .tc .vmem S256x256 .f32) (harg5 : arg5.IsWhole) (arg6 : Memref sig .tc .vmem S256x1 .f32) (harg6 : arg6.IsWhole) (hc0 : ¬cond1_0 i) (hc1 : cond1_1 i)
    (x0 : Vec F S256x2816 .f32) (xs0 : Vec F S256x256 .f32) (xs1 : Vec F S256x1 .f32) :
    out1_C_2 c i arg2 harg2 arg3 harg3 arg4 harg4 arg5 harg5 arg6 harg6 hc0 hc1 x0 xs0 xs1 = k1_pay7 (k1_pay5 x0 xs1) := by
  unfold out1_C_2
  rw [View.read_writes_eq_canon _ _ _ (cover1_C_2 c i arg2 harg2 arg3 harg3 arg4 harg4 arg5 harg5 arg6 harg6 hc0 hc1 x0 xs0 xs1)]
  unfold kernelRun1_C
  dsimp only
  sl_unfold_words
  rw [View.canon_unit_zero hz3_1]
  simp only [View.readAt_eq_ld, harg2.read_unread, harg6.read_unread, View.ld_unit_zero (S := S256x2816) hz2_1,
    View.ld_unit_zero (S := S256x1) hz2_1, View.readCov_unit_zero (S := S256x1) _ hz2_1]

end Cert.KernelIdeal.Val

end
-- ==== Proof.IdealValue.Pay1.lean ====
/-
  The body's payloads read at one entry, on the extended reals, for a block X of 256 rows and 2816 columns:
  the zero matrix and the zero column are zero everywhere; the Gram update at (i, i') is the accumulator's entry
  plus the sum over the block's columns q of X (i, q) * X (i', q) (the rounding to the narrower format before the
  product is the identity here, and the product into a zero matrix is the plain sum); the squared-length update at
  (i, 0) is the accumulator's entry plus the sum over q of X (i, q) squared; the two copies into the output windows
  only add a leading axis of extent one.
-/
import proofs.«100626_j61667140436172_2_alg».proof.Proof.Gen.KernelIdeal.Skeleton
import proofs.«100626_j61667140436172_2_alg».proof.Proof.LibMatmulNT
import proofs.«100626_j61667140436172_2_alg».proof.Proof.LibColRowBroadcast
import proofs.«100626_j61667140436172_2_alg».proof.Proof.LibLeadUnit
import Idealize.ShloMosaic.Lib.Pipeline.Value
import Idealize.ShloMosaic.Lib.ValueIdx
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

/-- The re-laying of the block to its own shape is the block. -/
theorem pay3_1_eq (x : FVec Ideal S256x2816 .f32) : k1_pay3 (F := Ideal) x = x := by
  unfold k1_pay3
  exact shapeCast_self _ _

/-- The zero matrix is zero at every entry. -/
theorem pay1_1_apply (y : S256x256.Idx) : k1_pay1 (F := Ideal) y = 0 := by
  unfold k1_pay1
  exact (congrFun (shapeCast_self _ _) y).trans Ideal.ofBits_zero_f32

/-- The zero column is zero at every entry. -/
theorem pay2_1_apply (y : S256x1.Idx) : k1_pay2 (F := Ideal) y = 0 := by
  unfold k1_pay2
  exact (congrFun (shapeCast_self _ _) y).trans Ideal.ofBits_zero_f32

/-- The Gram update at (i, i'): the accumulator's entry plus the block's row i times its row i'. -/
theorem pay4_1_apply (x : FVec Ideal S256x2816 .f32) (acc : FVec Ideal S256x256 .f32) (i i' : Fin 256) :
    k1_pay4 (F := Ideal) x acc (ix2 i i') = acc (ix2 i i') + ∑ q : Fin 2816, x (ix2 i q) * x (ix2 i' q) := by
  unfold k1_pay4
  refine (congrFun (shapeCast_self _ _) (ix2 i i')).trans ?_
  refine congrArg (acc (ix2 i i') + ·) ?_
  refine (Cert.MatmulNT.matmul_zero_apply 256 2816 256 none (truncf .bf16 (k1_pay3 (F := Ideal) x) bitsLt_bf16_f32)
    (truncf .bf16 (k1_pay3 (F := Ideal) x) bitsLt_bf16_f32) i i').trans ?_
  rw [pay3_1_eq]
  rfl

/-- The reduced index i with the column q put back is (i, q). -/
theorem lift_col_1 (h : S256x2816.Reduces [1] S256) (i : Fin 256) (q : Fin (S256x2816.size 1)) :
    h.lift (ix1 i) q = ix2 i (⟨q.val, q.isLt⟩ : Fin 2816) := by
  funext a; apply Fin.ext
  fin_cases a <;> rfl

/-- The squared-length update at (i, 0): the accumulator's entry plus the sum of the squares of the block's row i. -/
theorem pay5_1_apply (x : FVec Ideal S256x2816 .f32) (s : FVec Ideal S256x1 .f32) (i : Fin 256) (z : Fin 1) :
    k1_pay5 (F := Ideal) x s (ix2 i z) = s (ix2 i z) + ∑ q : Fin 2816, x (ix2 i q) * x (ix2 i q) := by
  unfold k1_pay5
  refine (congrFun (shapeCast_self _ _) (ix2 i z)).trans ?_
  refine congrArg (s (ix2 i z) + ·) ?_
  refine (Cert.ColRowBroadcast.colCast_apply _ shapeCasts_S256_S256x1 i z).trans ?_
  refine (Ideal.multiReduction_add_single _ _ reduces_S256x2816_S256 _ _ (ix1 i)).trans ?_
  rw [pay3_1_eq]
  refine Finset.sum_congr rfl fun q _ => ?_
  rw [lift_col_1]
  rfl

/-- The copy of the Gram accumulator into its output window at (0, i, i') is the accumulator at (i, i'). -/
theorem pay6_1_apply (v : FVec Ideal S256x256 .f32) (z : Fin 1) (i i' : Fin 256) :
    k1_pay6 (F := Ideal) v (ix3 z i i') = v (ix2 i i') := by
  unfold k1_pay6
  exact Cert.LeadUnit.addLead_apply _ shapeCasts_S256x256_S1x256x256 z i i'

/-- The copy of the squared-length accumulator into its output window at (0, i, 0) is the accumulator at (i, 0). -/
theorem pay7_1_apply (v : FVec Ideal S256x1 .f32) (z : Fin 1) (i : Fin 256) (z' : Fin 1) :
    k1_pay7 (F := Ideal) v (ix3 z i z') = v (ix2 i z') := by
  unfold k1_pay7
  exact Cert.LeadUnit.addLead_apply _ shapeCasts_S256x1_S1x256x1 z i z'

end Cert.KernelIdeal.Val

end
-- ==== Proof.IdealValue.Arr1.lean ====
/-
  One Gram-matrix launch at the ideal instance: what its two result arrays hold when it ends, entry by entry.
  The input X is a matrix of 256 rows and 39424 columns, read in 14 blocks of 2816 columns: two halves of 7
  blocks each. Block t contributes, to entry (i, i') of X·Xᵀ, the sum over its columns of X (i, ·) * X (i', ·), and
  to row i's squared length the same sum with i' = i. The two accumulators start from zero at the first block of a
  half and add one block's contribution at every point, so after the block at position n they hold the
  contributions of the blocks 0 … n % 7 of half n / 7 (by induction on the position); at the last block of a half
  they are copied to slab n / 7 of the two results. Every entry of the results lies in exactly such a slab, so the
  Gram result at (p, i, i') is the sum over the 7 blocks of half p, and the squared-length result at (p, i, 0) the
  same with i' = i. Only additions of zero are removed; no entry needs to be finite.
-/
import proofs.«100626_j61667140436172_2_alg».proof.Proof.IdealFrame.Frame1
import proofs.«100626_j61667140436172_2_alg».proof.Proof.IdealValue.Pieces1
import proofs.«100626_j61667140436172_2_alg».proof.Proof.IdealValue.Pay1
import proofs.«100626_j61667140436172_2_alg».proof.Proof.Cols
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The launch's input array as the launch finds it: a matrix of 256 rows and 39424 columns. -/
abbrev XV1 (c : Dev nD) := (V c main_v2 : S256x39424.Idx → EReal)

/-- The input window's block at point `t` starts at row 0 and column block `t`. -/
theorem idx_in1 : ∀ t : Fin cfg1.N, win1_0.index t (0 : Fin 2) = 0 ∧ win1_0.index t (1 : Fin 2) = t.val :=
  (by decide +kernel : ∀ t : Fin grid1.N, win1_0.index t (0 : Fin 2) = 0 ∧ win1_0.index t (1 : Fin 2) = t.val)

/-- The input block at point `t`, as a matrix of 256 rows and 2816 columns. -/
def ib1 (c : Dev nD) (t : Fin cfg1.N) : FVec Ideal S256x2816 .f32 := iblk1 V c 0 t

/-- Entry (i, q) of the input window's block at point `t` sits at (i, t * 2816 + q) in the input array. -/
theorem emb_in1 (t : Fin cfg1.N) (i : Fin 256) (q : Fin 2816) (hlt : t.val * 2816 + q.val < 39424) :
    ((cfg1.win 0).blk t).view.emb (ix2 i q) = (ix2 i (⟨t.val * 2816 + q.val, hlt⟩ : Fin 39424) : S256x39424.Idx) := by
  obtain ⟨e0, e1⟩ := idx_in1 t
  funext a; apply Fin.ext
  match a with
  | ⟨0, _⟩ => show win1_0.index t (0 : Fin 2) * 256 + 1 * i.val = i.val; rw [e0]; omega
  | ⟨1, _⟩ => show win1_0.index t (1 : Fin 2) * 2816 + 1 * q.val = t.val * 2816 + q.val; rw [e1]; omega

/-- Entry (i, q) of the input block at point `t` is entry (i, t * 2816 + q) of the input array. -/
theorem iblk1_apply (c : Dev nD) (t : Fin cfg1.N) (i : Fin 256) (q : Fin 2816) :
    ib1 V c t (ix2 i q) = Cert.Cols.Xn (XV1 V c) i (t.val * 2816 + q.val) := by
  have ht : t.val < 14 := lt_of_lt_of_eq t.isLt N_1
  have hlt : t.val * 2816 + q.val < 39424 := by have := q.isLt; omega
  unfold Cert.Cols.Xn
  rw [dif_pos hlt]
  unfold ib1 iblk1
  rw [View.read_apply, emb_in1 t i q hlt]
  rfl

/-- The contribution of column block `t` to entry (i, i') of X·Xᵀ: the sum over the block's columns. -/
def gblk1 (X : FVec Ideal S256x39424 .f32) (i i' : Fin 256) (t : ℕ) : EReal :=
  ∑ q : Fin 2816, Cert.Cols.Xn X i (t * 2816 + q.val) * Cert.Cols.Xn X i' (t * 2816 + q.val)

/-- The input block at point `t`, row i against row i', is that contribution. -/
theorem blk_gram1 (c : Dev nD) (t : Fin cfg1.N) (i i' : Fin 256) :
    ∑ q : Fin 2816, ib1 V c t (ix2 i q) * ib1 V c t (ix2 i' q) = gblk1 (XV1 V c) i i' t.val :=
  Finset.sum_congr rfl fun q _ => by rw [iblk1_apply, iblk1_apply]

/-! ## One point -/

/-- At the first block of a half the Gram accumulator ends at the block's contribution, -/
theorem gram_first1 (c : Dev nD) (t : Fin cfg1.N) (h0 : t.val % 7 = 0) (i i' : Fin 256) :
    (outsAt1 V c t.val t.isLt).2.2.1 (ix2 i i') = gblk1 (XV1 V c) i i' t.val := by
  have h1 : ¬t.val % 7 = 6 := by omega
  have e := congrArg (fun x => x.2.2.1) (outsAt1_A V c t h0 h1)
  dsimp only at e
  have p := sout1_A_0_eq (F := Ideal) c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (ib1 V c t)
  have r := (congrFun (e.trans p) (ix2 i i')).trans (pay4_1_apply (ib1 V c t) (k1_pay1 (F := Ideal)) i i')
  rw [pay1_1_apply, zero_add, blk_gram1] at r
  exact r

/-- and the squared-length accumulator at the block's contribution to the row's squared length. -/
theorem sq_first1 (c : Dev nD) (t : Fin cfg1.N) (h0 : t.val % 7 = 0) (i : Fin 256) (z : Fin 1) :
    (outsAt1 V c t.val t.isLt).2.2.2 (ix2 i z) = gblk1 (XV1 V c) i i t.val := by
  have h1 : ¬t.val % 7 = 6 := by omega
  have e := congrArg (fun x => x.2.2.2) (outsAt1_A V c t h0 h1)
  dsimp only at e
  have p := sout1_A_1_eq (F := Ideal) c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (ib1 V c t)
  have r := (congrFun (e.trans p) (ix2 i z)).trans (pay5_1_apply (ib1 V c t) (k1_pay2 (F := Ideal)) i z)
  rw [pay2_1_apply, zero_add, blk_gram1] at r
  exact r

/-- At every other block the Gram accumulator ends at what the point before left plus the block's contribution, -/
theorem gram_step1 (c : Dev nD) (t : Fin cfg1.N) (h0 : ¬t.val % 7 = 0) (i i' : Fin 256) :
    (outsAt1 V c t.val t.isLt).2.2.1 (ix2 i i')
      = (outsAt1 V c (t.val - 1) (Nat.lt_of_le_of_lt (Nat.sub_le _ _) t.isLt)).2.2.1 (ix2 i i') + gblk1 (XV1 V c) i i' t.val := by
  by_cases h1 : t.val % 7 = 6
  · have e := congrArg (fun x => x.2.2.1) (outsAt1_C V c t h0 h1)
    dsimp only at e
    have p := sout1_C_0_eq c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (ib1 V c t) (outsAt1 V c (t.val - 1) (Nat.lt_of_le_of_lt (Nat.sub_le _ _) t.isLt)).2.2.1 (outsAt1 V c (t.val - 1) (Nat.lt_of_le_of_lt (Nat.sub_le _ _) t.isLt)).2.2.2
    have r := (congrFun (e.trans p) (ix2 i i')).trans (pay4_1_apply (ib1 V c t) (outsAt1 V c (t.val - 1) (Nat.lt_of_le_of_lt (Nat.sub_le _ _) t.isLt)).2.2.1 i i')
    rw [blk_gram1] at r
    exact r
  · have e := congrArg (fun x => x.2.2.1) (outsAt1_B V c t h0 h1)
    dsimp only at e
    have p := sout1_B_0_eq c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (ib1 V c t) (outsAt1 V c (t.val - 1) (Nat.lt_of_le_of_lt (Nat.sub_le _ _) t.isLt)).2.2.1 (outsAt1 V c (t.val - 1) (Nat.lt_of_le_of_lt (Nat.sub_le _ _) t.isLt)).2.2.2
    have r := (congrFun (e.trans p) (ix2 i i')).trans (pay4_1_apply (ib1 V c t) (outsAt1 V c (t.val - 1) (Nat.lt_of_le_of_lt (Nat.sub_le _ _) t.isLt)).2.2.1 i i')
    rw [blk_gram1] at r
    exact r

/-- and the squared-length accumulator likewise. -/
theorem sq_step1 (c : Dev nD) (t : Fin cfg1.N) (h0 : ¬t.val % 7 = 0) (i : Fin 256) (z : Fin 1) :
    (outsAt1 V c t.val t.isLt).2.2.2 (ix2 i z)
      = (outsAt1 V c (t.val - 1) (Nat.lt_of_le_of_lt (Nat.sub_le _ _) t.isLt)).2.2.2 (ix2 i z) + gblk1 (XV1 V c) i i t.val := by
  by_cases h1 : t.val % 7 = 6
  · have e := congrArg (fun x => x.2.2.2) (outsAt1_C V c t h0 h1)
    dsimp only at e
    have p := sout1_C_1_eq c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (ib1 V c t) (outsAt1 V c (t.val - 1) (Nat.lt_of_le_of_lt (Nat.sub_le _ _) t.isLt)).2.2.1 (outsAt1 V c (t.val - 1) (Nat.lt_of_le_of_lt (Nat.sub_le _ _) t.isLt)).2.2.2
    have r := (congrFun (e.trans p) (ix2 i z)).trans (pay5_1_apply (ib1 V c t) (outsAt1 V c (t.val - 1) (Nat.lt_of_le_of_lt (Nat.sub_le _ _) t.isLt)).2.2.2 i z)
    rw [blk_gram1] at r
    exact r
  · have e := congrArg (fun x => x.2.2.2) (outsAt1_B V c t h0 h1)
    dsimp only at e
    have p := sout1_B_1_eq c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (ib1 V c t) (outsAt1 V c (t.val - 1) (Nat.lt_of_le_of_lt (Nat.sub_le _ _) t.isLt)).2.2.1 (outsAt1 V c (t.val - 1) (Nat.lt_of_le_of_lt (Nat.sub_le _ _) t.isLt)).2.2.2
    have r := (congrFun (e.trans p) (ix2 i z)).trans (pay5_1_apply (ib1 V c t) (outsAt1 V c (t.val - 1) (Nat.lt_of_le_of_lt (Nat.sub_le _ _) t.isLt)).2.2.2 i z)
    rw [blk_gram1] at r
    exact r

/-- At the last block of a half the Gram output window holds the Gram accumulator, -/
theorem out_gram1 (c : Dev nD) (t : Fin cfg1.N) (h1 : t.val % 7 = 6) (z : Fin 1) (i i' : Fin 256) :
    (outsAt1 V c t.val t.isLt).1 (ix3 z i i') = (outsAt1 V c t.val t.isLt).2.2.1 (ix2 i i') := by
  have h0 : ¬t.val % 7 = 0 := by omega
  have E := outsAt1_C V c t h0 h1
  have p1 := out1_C_1_eq c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (ib1 V c t) (outsAt1 V c (t.val - 1) (Nat.lt_of_le_of_lt (Nat.sub_le _ _) t.isLt)).2.2.1 (outsAt1 V c (t.val - 1) (Nat.lt_of_le_of_lt (Nat.sub_le _ _) t.isLt)).2.2.2
  have p3 := sout1_C_0_eq c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (ib1 V c t) (outsAt1 V c (t.val - 1) (Nat.lt_of_le_of_lt (Nat.sub_le _ _) t.isLt)).2.2.1 (outsAt1 V c (t.val - 1) (Nat.lt_of_le_of_lt (Nat.sub_le _ _) t.isLt)).2.2.2
  have e1 := congrArg (fun x => x.1) E
  have e3 := congrArg (fun x => x.2.2.1) E
  dsimp only at e1 e3
  have a := (congrFun (e1.trans p1) (ix3 z i i')).trans
    (pay6_1_apply (k1_pay4 (F := Ideal) (ib1 V c t) (outsAt1 V c (t.val - 1) (Nat.lt_of_le_of_lt (Nat.sub_le _ _) t.isLt)).2.2.1) z i i')
  have b := congrFun (e3.trans p3) (ix2 i i')
  exact a.trans b.symm

/-- and the squared-length output window the squared-length accumulator. -/
theorem out_sq1 (c : Dev nD) (t : Fin cfg1.N) (h1 : t.val % 7 = 6) (z : Fin 1) (i : Fin 256) (z' : Fin 1) :
    (outsAt1 V c t.val t.isLt).2.1 (ix3 z i z') = (outsAt1 V c t.val t.isLt).2.2.2 (ix2 i z') := by
  have h0 : ¬t.val % 7 = 0 := by omega
  have E := outsAt1_C V c t h0 h1
  have p2 := out1_C_2_eq c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (ib1 V c t) (outsAt1 V c (t.val - 1) (Nat.lt_of_le_of_lt (Nat.sub_le _ _) t.isLt)).2.2.1 (outsAt1 V c (t.val - 1) (Nat.lt_of_le_of_lt (Nat.sub_le _ _) t.isLt)).2.2.2
  have p4 := sout1_C_1_eq c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (ib1 V c t) (outsAt1 V c (t.val - 1) (Nat.lt_of_le_of_lt (Nat.sub_le _ _) t.isLt)).2.2.1 (outsAt1 V c (t.val - 1) (Nat.lt_of_le_of_lt (Nat.sub_le _ _) t.isLt)).2.2.2
  have e2 := congrArg (fun x => x.2.1) E
  have e4 := congrArg (fun x => x.2.2.2) E
  dsimp only at e2 e4
  have a := (congrFun (e2.trans p2) (ix3 z i z')).trans
    (pay7_1_apply (k1_pay5 (F := Ideal) (ib1 V c t) (outsAt1 V c (t.val - 1) (Nat.lt_of_le_of_lt (Nat.sub_le _ _) t.isLt)).2.2.2) z i z')
  have b := congrFun (e4.trans p4) (ix2 i z')
  exact a.trans b.symm

/-! ## All points: the accumulators are partial sums over the blocks of the half so far -/

/-- After the point at position `n` the Gram accumulator holds the contributions of the blocks 0 … n % 7 of half n / 7. -/
theorem gram_acc1 (c : Dev nD) (i i' : Fin 256) : ∀ (n : ℕ) (hn : n < cfg1.N),
    (outsAt1 V c n hn).2.2.1 (ix2 i i') = ∑ k ∈ Finset.range (n % 7 + 1), gblk1 (XV1 V c) i i' (n / 7 * 7 + k)
  | 0, hn => by
    rw [show (0 : ℕ) % 7 + 1 = 1 from rfl, Finset.sum_range_one]
    exact gram_first1 V c ⟨0, hn⟩ rfl i i'
  | n + 1, hn => by
    by_cases h0 : (n + 1) % 7 = 0
    · have e : (n + 1) / 7 * 7 + 0 = n + 1 := by omega
      rw [h0, zero_add, Finset.sum_range_one, e]
      exact gram_first1 V c ⟨n + 1, hn⟩ h0 i i'
    · have ih := gram_acc1 c i i' n (Nat.lt_of_succ_lt hn)
      have e1 : (n + 1) % 7 = n % 7 + 1 := by omega
      have e2 : (n + 1) / 7 = n / 7 := by omega
      have e3 : n / 7 * 7 + (n % 7 + 1) = n + 1 := by omega
      rw [e1, e2, Finset.sum_range_succ, e3, ← ih]
      exact gram_step1 V c ⟨n + 1, hn⟩ h0 i i'

/-- The squared-length accumulator likewise. -/
theorem sq_acc1 (c : Dev nD) (i : Fin 256) (z : Fin 1) : ∀ (n : ℕ) (hn : n < cfg1.N),
    (outsAt1 V c n hn).2.2.2 (ix2 i z) = ∑ k ∈ Finset.range (n % 7 + 1), gblk1 (XV1 V c) i i (n / 7 * 7 + k)
  | 0, hn => by
    rw [show (0 : ℕ) % 7 + 1 = 1 from rfl, Finset.sum_range_one]
    exact sq_first1 V c ⟨0, hn⟩ rfl i z
  | n + 1, hn => by
    by_cases h0 : (n + 1) % 7 = 0
    · have e : (n + 1) / 7 * 7 + 0 = n + 1 := by omega
      rw [h0, zero_add, Finset.sum_range_one, e]
      exact sq_first1 V c ⟨n + 1, hn⟩ h0 i z
    · have ih := sq_acc1 c i z n (Nat.lt_of_succ_lt hn)
      have e1 : (n + 1) % 7 = n % 7 + 1 := by omega
      have e2 : (n + 1) / 7 = n / 7 := by omega
      have e3 : n / 7 * 7 + (n % 7 + 1) = n + 1 := by omega
      rw [e1, e2, Finset.sum_range_succ, e3, ← ih]
      exact sq_step1 V c ⟨n + 1, hn⟩ h0 i z

/-! ## The two result arrays -/

/-- What the launch leaves in its Gram result: at (p, i, i') the contributions of the 7 column blocks of half p. -/
def gramG1 (X : FVec Ideal S256x39424 .f32) : FVec Ideal S2x256x256 .f32 :=
  fun y => ∑ k : Fin 7, gblk1 X (y 1) (y 2) ((y 0).val * 7 + k.val)

/-- What it leaves in its squared-length result: at (p, i, 0) the contributions of the 7 column blocks of half p to row i. -/
def sqG1 (X : FVec Ideal S256x39424 .f32) : FVec Ideal S2x256x1 .f32 :=
  fun y => ∑ k : Fin 7, gblk1 X (y 1) (y 1) ((y 0).val * 7 + k.val)

/-- Both output windows' blocks at point `t` are slab t / 7 of their arrays. -/
theorem idx_out1 : ∀ t : Fin cfg1.N, win1_1.index t (0 : Fin 3) = t.val / 7 ∧ win1_1.index t (1 : Fin 3) = 0 ∧ win1_1.index t (2 : Fin 3) = 0
    ∧ win1_2.index t (0 : Fin 3) = t.val / 7 ∧ win1_2.index t (1 : Fin 3) = 0 ∧ win1_2.index t (2 : Fin 3) = 0 :=
  (by decide +kernel : ∀ t : Fin grid1.N, win1_1.index t (0 : Fin 3) = t.val / 7 ∧ win1_1.index t (1 : Fin 3) = 0 ∧ win1_1.index t (2 : Fin 3) = 0
    ∧ win1_2.index t (0 : Fin 3) = t.val / 7 ∧ win1_2.index t (1 : Fin 3) = 0 ∧ win1_2.index t (2 : Fin 3) = 0)

/-- At the last block of a half the Gram accumulator holds the whole half, -/
theorem gram_half1 (c : Dev nD) (t : Fin cfg1.N) (h1 : t.val % 7 = 6) (i i' : Fin 256) :
    (outsAt1 V c t.val t.isLt).2.2.1 (ix2 i i') = ∑ k : Fin 7, gblk1 (XV1 V c) i i' (t.val / 7 * 7 + k.val) := by
  rw [gram_acc1 V c i i' t.val t.isLt, h1]
  exact Finset.sum_range (fun k => gblk1 (XV1 V c) i i' (t.val / 7 * 7 + k))

/-- and the squared-length accumulator too. -/
theorem sq_half1 (c : Dev nD) (t : Fin cfg1.N) (h1 : t.val % 7 = 6) (i : Fin 256) (z : Fin 1) :
    (outsAt1 V c t.val t.isLt).2.2.2 (ix2 i z) = ∑ k : Fin 7, gblk1 (XV1 V c) i i (t.val / 7 * 7 + k.val) := by
  rw [sq_acc1 V c i z t.val t.isLt, h1]
  exact Finset.sum_range (fun k => gblk1 (XV1 V c) i i (t.val / 7 * 7 + k))

/-- Entry (0, i, i') of the Gram output window's block at point `t` is entry (t / 7, i, i') of the Gram result. -/
theorem emb_out1_1 (t : Fin cfg1.N) (z : Fin 1) (i i' : Fin 256) (hp : t.val / 7 < 2) :
    ((cfg1.win 1).blk t).view.emb (ix3 z i i') = (ix3 (⟨t.val / 7, hp⟩ : Fin 2) i i' : S2x256x256.Idx) := by
  obtain ⟨e0, e1, e2, -, -, -⟩ := idx_out1 t
  have hz : z.val = 0 := by have := z.isLt; omega
  funext a; apply Fin.ext
  match a with
  | ⟨0, _⟩ => show win1_1.index t (0 : Fin 3) * 1 + 1 * z.val = t.val / 7; rw [e0, hz]; omega
  | ⟨1, _⟩ => show win1_1.index t (1 : Fin 3) * 256 + 1 * i.val = i.val; rw [e1]; omega
  | ⟨2, _⟩ => show win1_1.index t (2 : Fin 3) * 256 + 1 * i'.val = i'.val; rw [e2]; omega

/-- Entry (0, i, 0) of the squared-length output window's block at point `t` is entry (t / 7, i, 0) of that result. -/
theorem emb_out1_2 (t : Fin cfg1.N) (z : Fin 1) (i : Fin 256) (z' : Fin 1) (hp : t.val / 7 < 2) :
    ((cfg1.win 2).blk t).view.emb (ix3 z i z') = (ix3 (⟨t.val / 7, hp⟩ : Fin 2) i z' : S2x256x1.Idx) := by
  obtain ⟨-, -, -, e0, e1, e2⟩ := idx_out1 t
  have hz : z.val = 0 := by have := z.isLt; omega
  funext a; apply Fin.ext
  match a with
  | ⟨0, _⟩ => show win1_2.index t (0 : Fin 3) * 1 + 1 * z.val = t.val / 7; rw [e0, hz]; omega
  | ⟨1, _⟩ => show win1_2.index t (1 : Fin 3) * 256 + 1 * i.val = i.val; rw [e1]; omega
  | ⟨2, _⟩ => show win1_2.index t (2 : Fin 3) * 1 + 1 * z'.val = z'.val; rw [e2]; omega

set_option maxHeartbeats 2000000 in
/-- What a point that writes the Gram window back writes is its block of `gramG1`. -/
theorem flushed_gram1 (c : Dev nD) (t : Fin cfg1.N) (hf : (cfg1.win 1).flush t = true) :
    (dat1 V c).flushed 1 t = ((cfg1.win 1).blk t).view.read (Elt Ideal) (gramG1 (XV1 V c)) := by
  have h1 : t.val % 7 = 6 := (flush1_1 t).mp hf
  have ht : t.val < 14 := lt_of_lt_of_eq t.isLt N_1
  show (cfg1.win 1).cut (grid1.coords t) ((dat1 V c).after 1 t) = _
  rw [after1_1]
  refine funext fun (y : S1x256x256.Idx) => ?_
  obtain ⟨z, i, i', rfl⟩ : ∃ (z : Fin 1) (i i' : Fin 256), y = ix3 z i i' := ⟨y 0, y 1, y 2, eq_ix3 y⟩
  show (outsAt1 V c t.val t.isLt).1 (ix3 z i i') = gramG1 (XV1 V c) (((cfg1.win 1).blk t).view.emb (ix3 z i i'))
  rw [emb_out1_1 t z i i' (by omega), out_gram1 V c t h1 z i i', gram_half1 V c t h1 i i']
  rfl

set_option maxHeartbeats 2000000 in
/-- What a point that writes the squared-length window back writes is its block of `sqG1`. -/
theorem flushed_sq1 (c : Dev nD) (t : Fin cfg1.N) (hf : (cfg1.win 2).flush t = true) :
    (dat1 V c).flushed 2 t = ((cfg1.win 2).blk t).view.read (Elt Ideal) (sqG1 (XV1 V c)) := by
  have h1 : t.val % 7 = 6 := (flush1_2 t).mp hf
  have ht : t.val < 14 := lt_of_lt_of_eq t.isLt N_1
  show (cfg1.win 2).cut (grid1.coords t) ((dat1 V c).after 2 t) = _
  rw [after1_2]
  refine funext fun (y : S1x256x1.Idx) => ?_
  obtain ⟨z, i, z', rfl⟩ : ∃ (z : Fin 1) (i : Fin 256) (z' : Fin 1), y = ix3 z i z' := ⟨y 0, y 1, y 2, eq_ix3 y⟩
  show (outsAt1 V c t.val t.isLt).2.1 (ix3 z i z') = sqG1 (XV1 V c) (((cfg1.win 2).blk t).view.emb (ix3 z i z'))
  rw [emb_out1_2 t z i z' (by omega), out_sq1 V c t h1 z i z', sq_half1 V c t h1 i z']
  rfl

/-- An entry of the Gram result is in point `t`'s block iff each coordinate is in the block's range on its axis. -/
theorem mem_blk1_1 (t : Fin cfg1.N) (y : S2x256x256.Idx) :
    y ∈ ((cfg1.win 1).blk t).view.set ↔ ∀ a : Fin 3, win1_1.index t a * S1x256x256.size a ≤ (y a).val ∧ (y a).val < win1_1.index t a * S1x256x256.size a + S1x256x256.size a := by
  show y ∈ ((View.whole main_v7_0).slice (win1_1.rect t)).set ↔ _
  rw [View.set_slice_whole, Rect.mem_set_unit]
  exact Iff.rfl

theorem mem_blk1_2 (t : Fin cfg1.N) (y : S2x256x1.Idx) :
    y ∈ ((cfg1.win 2).blk t).view.set ↔ ∀ a : Fin 3, win1_2.index t a * S1x256x1.size a ≤ (y a).val ∧ (y a).val < win1_2.index t a * S1x256x1.size a + S1x256x1.size a := by
  show y ∈ ((View.whole main_v7_1).slice (win1_2.rect t)).set ↔ _
  rw [View.set_slice_whole, Rect.mem_set_unit]
  exact Iff.rfl

/-- Every entry of the Gram result is written back by the last point of its half. -/
theorem cover_gram1 (y : S2x256x256.Idx) : ∃ t : Fin cfg1.N, (cfg1.win 1).flush t = true ∧ y ∈ ((cfg1.win 1).blk t).view.set := by
  have h0 : (y 0).val < 2 := (y 0).isLt
  have h1 : (y 1).val < 256 := (y 1).isLt
  have h2 : (y 2).val < 256 := (y 2).isLt
  have hN : cfg1.N = 14 := N_1
  obtain ⟨t, ht⟩ : ∃ t : Fin cfg1.N, t.val = (y 0).val * 7 + 6 := ⟨⟨(y 0).val * 7 + 6, by omega⟩, rfl⟩
  obtain ⟨e0, e1, e2, -, -, -⟩ := idx_out1 t
  refine ⟨t, (flush1_1 t).mpr (by omega), ?_⟩
  rw [mem_blk1_1]
  intro a
  match a with
  | ⟨0, _⟩ => show win1_1.index t (0 : Fin 3) * 1 ≤ (y 0).val ∧ (y 0).val < win1_1.index t (0 : Fin 3) * 1 + 1; omega
  | ⟨1, _⟩ => show win1_1.index t (1 : Fin 3) * 256 ≤ (y 1).val ∧ (y 1).val < win1_1.index t (1 : Fin 3) * 256 + 256; omega
  | ⟨2, _⟩ => show win1_1.index t (2 : Fin 3) * 256 ≤ (y 2).val ∧ (y 2).val < win1_1.index t (2 : Fin 3) * 256 + 256; omega

/-- Every entry of the squared-length result is written back by the last point of its half. -/
theorem cover_sq1 (y : S2x256x1.Idx) : ∃ t : Fin cfg1.N, (cfg1.win 2).flush t = true ∧ y ∈ ((cfg1.win 2).blk t).view.set := by
  have h0 : (y 0).val < 2 := (y 0).isLt
  have h1 : (y 1).val < 256 := (y 1).isLt
  have h2 : (y 2).val < 1 := (y 2).isLt
  have hN : cfg1.N = 14 := N_1
  obtain ⟨t, ht⟩ : ∃ t : Fin cfg1.N, t.val = (y 0).val * 7 + 6 := ⟨⟨(y 0).val * 7 + 6, by omega⟩, rfl⟩
  obtain ⟨-, -, -, e0, e1, e2⟩ := idx_out1 t
  refine ⟨t, (flush1_2 t).mpr (by omega), ?_⟩
  rw [mem_blk1_2]
  intro a
  match a with
  | ⟨0, _⟩ => show win1_2.index t (0 : Fin 3) * 1 ≤ (y 0).val ∧ (y 0).val < win1_2.index t (0 : Fin 3) * 1 + 1; omega
  | ⟨1, _⟩ => show win1_2.index t (1 : Fin 3) * 256 ≤ (y 1).val ∧ (y 1).val < win1_2.index t (1 : Fin 3) * 256 + 256; omega
  | ⟨2, _⟩ => show win1_2.index t (2 : Fin 3) * 1 ≤ (y 2).val ∧ (y 2).val < win1_2.index t (2 : Fin 3) * 1 + 1; omega

/-- The Gram result after the launch. -/
theorem final_gram1 (c : Dev nD) : (dat1 V c).arrAt 1 cfg1.N = gramG1 (XV1 V c) :=
  (dat1 V c).arrAt_eq_of_cover 1 (gramG1 (XV1 V c)) (flushed_gram1 V c) cover_gram1

/-- The squared-length result after the launch. -/
theorem final_sq1 (c : Dev nD) : (dat1 V c).arrAt 2 cfg1.N = sqG1 (XV1 V c) :=
  (dat1 V c).arrAt_eq_of_cover 2 (sqG1 (XV1 V c)) (flushed_sq1 V c) cover_sq1

/-- Entry (p, i, i') of the launch's Gram result: the sum, over the 7 column blocks of half p and the 2816 columns of a
    block, of the input's row i times its row i' at that column. -/
theorem gram_arr1 (c : Dev nD) (p : Fin 2) (i i' : Fin 256) :
    ((dat1 (F := Ideal) V c).arrAt 1 cfg1.N : S2x256x256.Idx → EReal) (ix3 p i i')
      = ∑ k : Fin 7, ∑ q : Fin 2816,
        Cert.Cols.Xn (XV1 V c) i ((p.val * 7 + k.val) * 2816 + q.val) * Cert.Cols.Xn (XV1 V c) i' ((p.val * 7 + k.val) * 2816 + q.val) := by
  rw [final_gram1]
  rfl

/-- Entry (p, i, 0) of the launch's squared-length result: the same sum with row i against itself. -/
theorem sq_arr1 (c : Dev nD) (p : Fin 2) (i : Fin 256) :
    ((dat1 (F := Ideal) V c).arrAt 2 cfg1.N : S2x256x1.Idx → EReal) (ix3 p i (0 : Fin 1))
      = ∑ k : Fin 7, ∑ q : Fin 2816,
        Cert.Cols.Xn (XV1 V c) i ((p.val * 7 + k.val) * 2816 + q.val) * Cert.Cols.Xn (XV1 V c) i ((p.val * 7 + k.val) * 2816 + q.val) := by
  rw [final_sq1]
  rfl

end Cert.KernelIdeal.Val

end
-- ==== Proof.IdealValue.Result.lean ====
/-
  The idealized kernel's result as the shared chain of the SPECIFICATION's quantities. Each launch's two result arrays
  hold, slab by slab, the partial sums over one half of the columns; the host adds the two slabs; regrouping the sum
  over all columns into halves, blocks and columns within a block (addition on the extended reals commutes and
  associates) identifies them with a row's squared length and an entry of X·Xᵀ. The run then ends with the result
  buffer at the chain of those, and the arguments as launched.
-/
import proofs.«100626_j61667140436172_2_alg».proof.Proof.IdealValue.HostChain
import proofs.«100626_j61667140436172_2_alg».proof.Proof.IdealValue.Arr0
import proofs.«100626_j61667140436172_2_alg».proof.Proof.IdealValue.Arr1
import proofs.«100626_j61667140436172_2_alg».proof.Proof.Cols

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The two arguments laid out as matrices, one row per sample. -/
abbrev X1 (c : Dev nD) : FVec Ideal S256x100352 .f32 := shapeCast S256x100352 (m ((c.tc : Thread nD τ).loc main_arg0)) Gen.shapeCasts_S256x196x512_S256x100352
abbrev X2 (c : Dev nD) : FVec Ideal S256x39424 .f32 := shapeCast S256x39424 (m ((c.tc : Thread nD τ).loc main_arg1)) Gen.shapeCasts_S256x77x512_S256x39424

/-- The first launch is entered with its input array at the first matrix, -/
theorem V1_v1 (c : Dev nD) : V1 m ρ c main_v1 = X1 m c := by
  show StableHlo.after main_part0_ops0 (W0 m ρ c) (Proc.devRef .tc main_v1) = _
  after_results
  rfl

/-- and the second with its input array at the second (the first launch and the operations between do not write it). -/
theorem V3_v2 (c : Dev nD) : V3 m ρ c main_v2 = X2 m c := by
  show StableHlo.after main_part0_ops1 (W2 m ρ c) (Proc.devRef .tc main_v2) = _
  after_results
  rw [W2_of_ne m ρ c main_v2 (by decide)]
  show StableHlo.after main_part0_ops0 (W0 m ρ c) (Proc.devRef .tc main_v2) = _
  after_results
  rfl

/-- The first launch's Gram result, its halves added, is X₁·X₁ᵀ. -/
theorem gram_f (c : Dev nD) : gramOf (W2 m ρ c (Proc.devRef .tc main_v3_0)) = Cert.GramSpec.gramv 100352 (X1 m c) := by
  funext j
  obtain ⟨i, i', rfl⟩ : ∃ (i i' : Fin 256), j = ix2 i i' := ⟨j 0, j 1, eq_ix2 j⟩
  rw [gramOf_apply, Cert.Cols.gram_regroup 100352 8 6272 (by decide) (X1 m c) i i']
  refine Finset.sum_congr rfl fun p _ => ?_
  rw [show W2 m ρ c (Proc.devRef .tc main_v3_0) = (dat0 (V1 m ρ) c).arrAt 1 cfg0.N from W2_arr m ρ c 1]
  refine (gram_arr0 (V1 m ρ) c p i i').trans ?_
  rw [show XV0 (V1 m ρ) c = X1 m c from V1_v1 m ρ c]

/-- The first launch's squared-length result, its halves added, is the rows' squared lengths of X₁. -/
theorem sq_f (c : Dev nD) : sqOf (W2 m ρ c (Proc.devRef .tc main_v3_1)) = Cert.GramSpec.sqv 100352 (X1 m c) := by
  funext j
  obtain ⟨i, rfl⟩ : ∃ (i : Fin 256), j = ix1 i := ⟨j 0, eq_ix1 j⟩
  rw [sqOf_apply, Cert.Cols.sq_regroup 100352 8 6272 (by decide) (X1 m c) i]
  refine Finset.sum_congr rfl fun p _ => ?_
  rw [show W2 m ρ c (Proc.devRef .tc main_v3_1) = (dat0 (V1 m ρ) c).arrAt 2 cfg0.N from W2_arr m ρ c 2]
  refine (sq_arr0 (V1 m ρ) c p i).trans ?_
  rw [show XV0 (V1 m ρ) c = X1 m c from V1_v1 m ρ c]

/-- The second launch's Gram result is X₂·X₂ᵀ. -/
theorem gram_g (c : Dev nD) : gramOf (W4 m ρ c (Proc.devRef .tc main_v7_0)) = Cert.GramSpec.gramv 39424 (X2 m c) := by
  funext j
  obtain ⟨i, i', rfl⟩ : ∃ (i i' : Fin 256), j = ix2 i i' := ⟨j 0, j 1, eq_ix2 j⟩
  rw [gramOf_apply, Cert.Cols.gram_regroup 39424 7 2816 (by decide) (X2 m c) i i']
  refine Finset.sum_congr rfl fun p _ => ?_
  rw [show W4 m ρ c (Proc.devRef .tc main_v7_0) = (dat1 (V3 m ρ) c).arrAt 1 cfg1.N from W4_arr m ρ c 1]
  refine (gram_arr1 (V3 m ρ) c p i i').trans ?_
  rw [show XV1 (V3 m ρ) c = X2 m c from V3_v2 m ρ c]

/-- The second launch's squared-length result is the rows' squared lengths of X₂. -/
theorem sq_g (c : Dev nD) : sqOf (W4 m ρ c (Proc.devRef .tc main_v7_1)) = Cert.GramSpec.sqv 39424 (X2 m c) := by
  funext j
  obtain ⟨i, rfl⟩ : ∃ (i : Fin 256), j = ix1 i := ⟨j 0, eq_ix1 j⟩
  rw [sqOf_apply, Cert.Cols.sq_regroup 39424 7 2816 (by decide) (X2 m c) i]
  refine Finset.sum_congr rfl fun p _ => ?_
  rw [show W4 m ρ c (Proc.devRef .tc main_v7_1) = (dat1 (V3 m ρ) c).arrAt 2 cfg1.N from W4_arr m ρ c 2]
  refine (sq_arr1 (V3 m ρ) c p i).trans ?_
  rw [show XV1 (V3 m ρ) c = X2 m c from V3_v2 m ρ c]

/-- The result buffer at the run's end: the chain of the specification's quantities of the two arguments. -/
theorem result_eq (c : Dev nD) : W6 m ρ c (Proc.devRef .tc main_v66)
    = Cert.Bridge.tail (Cert.GramSpec.sqv 100352 (X1 m c)) (Cert.GramSpec.gramv 100352 (X1 m c))
        (Cert.GramSpec.sqv 39424 (X2 m c)) (Cert.GramSpec.gramv 39424 (X2 m c)) (T0 m c) := by
  rw [W6_v66, sq_f, gram_f, sq_g, gram_g]

/-- THE RUN WITH ITS VALUE: every weakly fair execution of the idealized kernel terminates with the result at that
    chain and the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v66)
          = Cert.Bridge.tail (Cert.GramSpec.sqv 100352 (X1 m c)) (Cert.GramSpec.gramv 100352 (X1 m c))
              (Cert.GramSpec.sqv 39424 (X2 m c)) (Cert.GramSpec.gramv 39424 (X2 m c)) (T0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v66 (by decide))).trans (result_eq m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.KernelIdeal.Val

end
-- ==== Proof.RefValue.lean ====
/-
  The reference program's result as a function of two pairs (squared row lengths, Gram matrix).
  Its first input, reshaped to a matrix X₁ with 256 rows and 100352 columns, enters the program only through
  the reduce-add over the columns of X₁ * X₁ — each row's squared length — and through the product of X₁ with its
  transpose — the Gram matrix X₁·X₁ᵀ; its second input, reshaped to X₂ with 39424 columns, likewise. Read at an
  index, the reduce-add from the zero word is the plain sum over the columns, and the product with the transpose
  is the sum over the columns k of X (i, k) * X (j, k). Everything after these four arrays is the chain
  `Cert.Bridge.tail`, written operation by operation as the program writes it, so the program's composed result
  is `tail` of the four sums and the reshaped temperature.
-/
import proofs.«100626_j61667140436172_2_alg».proof.Proof.Tail
import proofs.«100626_j61667140436172_2_alg».proof.Proof.GramSpec
import proofs.«100626_j61667140436172_2_alg».proof.Proof.Gen.ReferenceIdeal.Read

noncomputable section

open scoped BigOperators

namespace Cert.RefBridge

open Cert.ReferenceIdeal Cert.ReferenceIdeal.Gen Cert.ReferenceIdeal.Read Idealize.ShloMosaic Idealize.ShloMosaic.TcCoe
  Idealize.SL.Sem Idealize.ShloMosaic.ValueIdx

/-! ## The four sums -/

/-- The first input's reduce-add of squares is each row's squared length. -/
theorem sq1_eq (x0 : (⟨S256x196x512, .f32⟩ : BufTy).Contents (Elt Ideal)) :
    val_main_v3 (F := Ideal) x0 = Cert.GramSpec.sqv 100352 (val_main_v1 (F := Ideal) x0) := by
  funext i
  rw [val_main_v3_apply]
  simp only [val_main_cst_apply, val_main_v2_apply, Ideal.ofBits_def, Ideal.ofBits_zero_f32, zero_add, Ideal.mulf_def]
  refine Finset.sum_congr rfl fun k _ => ?_
  have e : idx_main_v3 i k = ix2 (i 0) k :=
    funext fun a => Fin.ext (by match a with | ⟨0, _⟩ => rfl | ⟨1, _⟩ => rfl)
  rw [e]
  rfl

/-- The first input's product with its transpose is the Gram matrix. -/
theorem gram1_eq (x0 : (⟨S256x196x512, .f32⟩ : BufTy).Contents (Elt Ideal)) :
    val_main_v5 (F := Ideal) x0 = Cert.GramSpec.gramv 100352 (val_main_v1 (F := Ideal) x0) := by
  funext i
  rw [val_main_v5_apply]
  refine Finset.sum_congr rfl fun k _ => ?_
  rw [val_main_v4_apply]
  have el : lidx_main_v5 i k = ix2 (i 0) k :=
    funext fun a => Fin.ext (by match a with | ⟨0, _⟩ => rfl | ⟨1, _⟩ => rfl)
  have er : idx_main_v4 (ridx_main_v5 i k) = ix2 (i 1) k :=
    funext fun a => Fin.ext (by match a with | ⟨0, _⟩ => rfl | ⟨1, _⟩ => rfl)
  rw [el, er]
  rfl

/-- The second input's reduce-add of squares is each row's squared length. -/
theorem sq2_eq (x1 : (⟨S256x77x512, .f32⟩ : BufTy).Contents (Elt Ideal)) :
    val_main_v33 (F := Ideal) x1 = Cert.GramSpec.sqv 39424 (val_main_v31 (F := Ideal) x1) := by
  funext i
  rw [val_main_v33_apply]
  simp only [val_main_cst_5_apply, val_main_v32_apply, Ideal.ofBits_def, Ideal.ofBits_zero_f32, zero_add, Ideal.mulf_def]
  refine Finset.sum_congr rfl fun k _ => ?_
  have e : idx_main_v33 i k = ix2 (i 0) k :=
    funext fun a => Fin.ext (by match a with | ⟨0, _⟩ => rfl | ⟨1, _⟩ => rfl)
  rw [e]
  rfl

/-- The second input's product with its transpose is the Gram matrix. -/
theorem gram2_eq (x1 : (⟨S256x77x512, .f32⟩ : BufTy).Contents (Elt Ideal)) :
    val_main_v35 (F := Ideal) x1 = Cert.GramSpec.gramv 39424 (val_main_v31 (F := Ideal) x1) := by
  funext i
  rw [val_main_v35_apply]
  refine Finset.sum_congr rfl fun k _ => ?_
  rw [val_main_v34_apply]
  have el : lidx_main_v35 i k = ix2 (i 0) k :=
    funext fun a => Fin.ext (by match a with | ⟨0, _⟩ => rfl | ⟨1, _⟩ => rfl)
  have er : idx_main_v34 (ridx_main_v35 i k) = ix2 (i 1) k :=
    funext fun a => Fin.ext (by match a with | ⟨0, _⟩ => rfl | ⟨1, _⟩ => rfl)
  rw [el, er]
  rfl

/-! ## The chain after the four sums -/

/-- The first input's softmax matrix is `adj` of its squared lengths, its Gram matrix and the temperature: the
    program's operations from the squared lengths on are `adj`'s, one by one. -/
theorem adj1_eq (x0 : (⟨S256x196x512, .f32⟩ : BufTy).Contents (Elt Ideal)) (x2 : (⟨S1, .f32⟩ : BufTy).Contents (Elt Ideal)) :
    val_main_v30 (F := Ideal) x0 x2
      = Cert.Bridge.adj (val_main_v3 (F := Ideal) x0) (val_main_v5 (F := Ideal) x0) (val_main_v0 (F := Ideal) x2) := by
  unfold val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_cst_0 val_main_cst_1 val_main_cst_2 val_main_cst_3 val_main_cst_4 Cert.Bridge.adj
  rfl

/-- The same for the second input. -/
theorem adj2_eq (x1 : (⟨S256x77x512, .f32⟩ : BufTy).Contents (Elt Ideal)) (x2 : (⟨S1, .f32⟩ : BufTy).Contents (Elt Ideal)) :
    val_main_v60 (F := Ideal) x1 x2
      = Cert.Bridge.adj (val_main_v33 (F := Ideal) x1) (val_main_v35 (F := Ideal) x1) (val_main_v0 (F := Ideal) x2) := by
  unfold val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_cst_6 val_main_cst_7 val_main_cst_8 val_main_cst_9 val_main_cst_10 Cert.Bridge.adj
  rfl

/-- The program's last operations are `kl` of the two softmax matrices. -/
theorem kl_eq (x0 : (⟨S256x196x512, .f32⟩ : BufTy).Contents (Elt Ideal)) (x1 : (⟨S256x77x512, .f32⟩ : BufTy).Contents (Elt Ideal))
    (x2 : (⟨S1, .f32⟩ : BufTy).Contents (Elt Ideal)) :
    val_main_v66 (F := Ideal) x0 x1 x2
      = Cert.Bridge.kl (val_main_v30 (F := Ideal) x0 x2) (val_main_v60 (F := Ideal) x1 x2) := by
  unfold val_main_v66 val_main_v65 val_main_v64 val_main_v63 val_main_v62 val_main_v61 val_main_cst_11 val_main_cst_12 Cert.Bridge.kl
  rfl

/-- The program's result, as a function of its three arguments, is `tail` of the four sums and the temperature. -/
theorem val_eq (x0 : (⟨S256x196x512, .f32⟩ : BufTy).Contents (Elt Ideal)) (x1 : (⟨S256x77x512, .f32⟩ : BufTy).Contents (Elt Ideal))
    (x2 : (⟨S1, .f32⟩ : BufTy).Contents (Elt Ideal)) :
    val_main_v66 (F := Ideal) x0 x1 x2
      = Cert.Bridge.tail (Cert.GramSpec.sqv 100352 (val_main_v1 (F := Ideal) x0)) (Cert.GramSpec.gramv 100352 (val_main_v1 (F := Ideal) x0))
          (Cert.GramSpec.sqv 39424 (val_main_v31 (F := Ideal) x1)) (Cert.GramSpec.gramv 39424 (val_main_v31 (F := Ideal) x1))
          (val_main_v0 (F := Ideal) x2) := by
  rw [← sq1_eq, ← gram1_eq, ← sq2_eq, ← gram2_eq]
  unfold Cert.Bridge.tail
  rw [← adj1_eq, ← adj2_eq]
  exact kl_eq x0 x1 x2

/-! ## The run -/

/-- The first input as a matrix with 256 rows and 100352 columns (the launch contents, reshaped). -/
abbrev X1 (m : (ℓ : Loc nD τ sig) → Buf (Elt Ideal) ℓ) (c : Dev nD) : FVec Ideal S256x100352 .f32 :=
  shapeCast _ (m ((c.tc : Thread nD τ).loc main_arg0)) shapeCasts_S256x196x512_S256x100352
/-- The second input as a matrix with 256 rows and 39424 columns. -/
abbrev X2 (m : (ℓ : Loc nD τ sig) → Buf (Elt Ideal) ℓ) (c : Dev nD) : FVec Ideal S256x39424 .f32 :=
  shapeCast _ (m ((c.tc : Thread nD τ).loc main_arg1)) shapeCasts_S256x77x512_S256x39424
/-- The temperature as a scalar. -/
abbrev T0 (m : (ℓ : Loc nD τ sig) → Buf (Elt Ideal) ℓ) (c : Dev nD) : FVec Ideal S_ .f32 :=
  shapeCast _ (m ((c.tc : Thread nD τ).loc main_arg2)) shapeCasts_S1_S_

/-- The composed term the reference's run ends at is `tail` of the four sums of the reshaped inputs. -/
theorem res_eq (m : (ℓ : Loc nD τ sig) → Buf (Elt Ideal) ℓ) (c : Dev nD) :
    Cert.ReferenceIdeal.Value.res_main_v66 (F := Ideal) m c
      = Cert.Bridge.tail (Cert.GramSpec.sqv 100352 (X1 m c)) (Cert.GramSpec.gramv 100352 (X1 m c))
          (Cert.GramSpec.sqv 39424 (X2 m c)) (Cert.GramSpec.gramv 39424 (X2 m c)) (T0 m c) :=
  (val_main_v66_eq (F := Ideal) m c).trans (val_eq _ _ _)

/-- Every weakly fair execution of the reference from a memory with zero counters terminates with its result at
    `tail` of the four sums, its three arguments unchanged. -/
theorem run (m : (ℓ : Loc nD τ sig) → Buf (Elt Ideal) ℓ) (ρ : Dev nD → PrngReg) :
    θ_run Cert.ReferenceIdeal.defs (onTc (τ := Cert.ReferenceIdeal.τ) (Cert.ReferenceIdeal.main (F := Ideal))) ⟨m, fun _ => 0, ρ⟩
      fun r => ∀ c : Dev nD,
        r.2.mem ((c.tc : Thread nD τ).loc main_v66)
          = Cert.Bridge.tail (Cert.GramSpec.sqv 100352 (X1 m c)) (Cert.GramSpec.gramv 100352 (X1 m c))
              (Cert.GramSpec.sqv 39424 (X2 m c)) (Cert.GramSpec.gramv 39424 (X2 m c)) (T0 m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run Cert.ReferenceIdeal.defs _ _).mono (fun _ h c => ⟨(h c).1.trans (res_eq m c), (h c).2⟩)
    (Cert.ReferenceIdeal.Value.run (F := Ideal) m ρ)

end Cert.RefBridge

end
-- ==== Proof.lean ====
/-
  The certificate. Both programs compute, for each of the two feature tensors flattened to a matrix X with one row
  per sample, the rows' squared lengths and the Gram matrix X·Xᵀ, and then apply ONE chain — pairwise distances, a
  softmax over each row, the Kullback–Leibler divergence between the two softmax matrices, divided by the batch
  size — to them. The reference takes the sums over all columns at once; the kernel splits the columns into two
  halves and each half into blocks, accumulates block by block in two launches of one kernel body, and adds the
  halves on the host. On the extended reals a sum may be regrouped freely, so the two agree entry by entry, and
  the shared chain is never opened. The three frames: each kernel program's from its run written over the
  launch library (two launches among host operations, the accumulators carried between grid points in the
  launch's invariant); the reference's from its generated run.
-/
import proofs.«100626_j61667140436172_2_alg».proof.Defs
import proofs.«100626_j61667140436172_2_alg».proof.Proof.Gen.Kernel
import proofs.«100626_j61667140436172_2_alg».proof.Proof.Gen.KernelIdeal
import proofs.«100626_j61667140436172_2_alg».proof.Proof.Gen.ReferenceIdeal
import proofs.«100626_j61667140436172_2_alg».proof.Proof.Gen.Pre_finite_inputs
import proofs.«100626_j61667140436172_2_alg».proof.Proof.Gen.ReferenceIdeal.Run
import proofs.«100626_j61667140436172_2_alg».proof.Proof.Gen.ReferenceIdeal.Read
import proofs.«100626_j61667140436172_2_alg».proof.Proof.BitsFrame.Whole
import proofs.«100626_j61667140436172_2_alg».proof.Proof.IdealFrame.Whole
import proofs.«100626_j61667140436172_2_alg».proof.Proof.IdealValue.Result
import proofs.«100626_j61667140436172_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_p : Cert.frame_Kernel (hKernel := Cert.Kernel.Gen.facts) (hPre_finite_inputs := Cert.Pre_finite_inputs.Gen.facts) :=
  fun m ρ _ => Cert.Kernel.Fr.frame (F := Bits) m ρ

/-- So does its idealization. -/
theorem frame_pi : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the result at the shared chain of the
    arguments' squared row lengths and Gram matrices. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Val.run m ρ, ?_⟩
  refine (θ_run Cert.ReferenceIdeal.defs _ _).mono (fun _ h c => ⟨(h c).1.trans ?_, (h c).2⟩) (Cert.RefBridge.run m' ρ')
  show Cert.Bridge.tail (Cert.GramSpec.sqv 100352 (Cert.RefBridge.X1 m' c)) (Cert.GramSpec.gramv 100352 (Cert.RefBridge.X1 m' c))
      (Cert.GramSpec.sqv 39424 (Cert.RefBridge.X2 m' c)) (Cert.GramSpec.gramv 39424 (Cert.RefBridge.X2 m' c)) (Cert.RefBridge.T0 m' c) = _
  unfold Cert.RefBridge.X1 Cert.RefBridge.X2 Cert.RefBridge.T0
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
